-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x200 : Shape := ⟨2, ![4096, 200]⟩
abbrev S100000x64 : Shape := ⟨2, ![100000, 64]⟩
abbrev S1000x64 : Shape := ⟨2, ![1000, 64]⟩
abbrev S100000x160 : Shape := ⟨2, ![100000, 160]⟩
abbrev S1000x160 : Shape := ⟨2, ![1000, 160]⟩
abbrev S100000x16 : Shape := ⟨2, ![100000, 16]⟩
abbrev S1000x16 : Shape := ⟨2, ![1000, 16]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S100000x160 : S_.BroadcastsInDim S100000x160 (![] : Fin 0 → Fin S100000x160.rank)
  reducesTo_S100000x160_S_d0_1 : S100000x160.ReducesTo [0, 1] S_
  bcast_S_S1000x160 : S_.BroadcastsInDim S1000x160 (![] : Fin 0 → Fin S1000x160.rank)
  reducesTo_S1000x160_S_d0_1 : S1000x160.ReducesTo [0, 1] S_
  bcast_S_S100000x16 : S_.BroadcastsInDim S100000x16 (![] : Fin 0 → Fin S100000x16.rank)
  reducesTo_S100000x16_S_d0_1 : S100000x16.ReducesTo [0, 1] S_
  bcast_S_S1000x16 : S_.BroadcastsInDim S1000x16 (![] : Fin 0 → Fin S1000x16.rank)
  reducesTo_S1000x16_S_d0_1 : S1000x16.ReducesTo [0, 1] S_

variable [Facts]

def fn_part2 {F : FTy → Type} [FloatOps F] (main_arg12 : FVec F S1000x16 .f32) (main_v33 : IVec S_ 1) : IVec S_ 1 :=
  let main_v34 : FVec F S1000x16 .f32 := Host.absf main_arg12
  let main_cst_12 : FVec F S_ .f32 := constant S_ .f32 0x7F800000#32
  let main_v35 : FVec F S1000x16 .f32 := broadcastInDim S1000x16 ![] bcast_S_S1000x16 main_cst_12
  let main_v36 : IVec S1000x16 1 := cmpf .olt main_v34 main_v35
  let main_c_13 : IVec S_ 1 := constantI S_ 1 1#1
  let main_v37 : IVec S_ 1 := (fun x v => Host.reduce IntOp.andi x v reducesTo_S1000x16_S_d0_1 h_S_) main_v36 main_c_13
  let main_v38 : IVec S_ 1 := andi main_v33 main_v37
  main_v38

def fn_part1 {F : FTy → Type} [FloatOps F] (main_arg9 : FVec F S100000x160 .f32) (main_arg10 : FVec F S1000x160 .f32) (main_arg11 : FVec F S100000x16 .f32) (main_arg12 : FVec F S1000x16 .f32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_v19 : FVec F S100000x160 .f32 := Host.absf main_arg9
  let main_cst_6 : FVec F S_ .f32 := constant S_ .f32 0x7F800000#32
  let main_v20 : FVec F S100000x160 .f32 := broadcastInDim S100000x160 ![] bcast_S_S100000x160 main_cst_6
  let main_v21 : IVec S100000x160 1 := cmpf .olt main_v19 main_v20
  let main_c_7 : IVec S_ 1 := constantI S_ 1 1#1
  let main_v22 : IVec S_ 1 := (fun x v => Host.reduce IntOp.andi x v reducesTo_S100000x160_S_d0_1 h_S_) main_v21 main_c_7
  let main_v23 : IVec S_ 1 := andi main_v18 main_v22
  let main_v24 : FVec F S1000x160 .f32 := Host.absf main_arg10
  let main_cst_8 : FVec F S_ .f32 := constant S_ .f32 0x7F800000#32
  let main_v25 : FVec F S1000x160 .f32 := broadcastInDim S1000x160 ![] bcast_S_S1000x160 main_cst_8
  let main_v26 : IVec S1000x160 1 := cmpf .olt main_v24 main_v25
  let main_c_9 : IVec S_ 1 := constantI S_ 1 1#1
  let main_v27 : IVec S_ 1 := (fun x v => Host.reduce IntOp.andi x v reducesTo_S1000x160_S_d0_1 h_S_) main_v26 main_c_9
  let main_v28 : IVec S_ 1 := andi main_v23 main_v27
  let main_v29 : FVec F S100000x16 .f32 := Host.absf main_arg11
  let main_cst_10 : FVec F S_ .f32 := constant S_ .f32 0x7F800000#32
  let main_v30 : FVec F S100000x16 .f32 := broadcastInDim S100000x16 ![] bcast_S_S100000x16 main_cst_10
  let main_v31 : IVec S100000x16 1 := cmpf .olt main_v29 main_v30
  let main_c_11 : IVec S_ 1 := constantI S_ 1 1#1
  let main_v32 : IVec S_ 1 := (fun x v => Host.reduce IntOp.andi x v reducesTo_S100000x16_S_d0_1 h_S_) main_v31 main_c_11
  let main_v33 : IVec S_ 1 := andi main_v28 main_v32
  fn_part2 (F := F) main_arg12 main_v33

def fn {F : FTy → Type} [FloatOps F] (main_arg0 : IVec S4096 32) (main_arg1 : IVec S4096 32) (main_arg2 : IVec S4096 32) (main_arg3 : IVec S4096x200 32) (main_arg4 : IVec S4096x200 32) (main_arg5 : FVec F S4096x200 .f32) (main_arg6 : FVec F S100000x64 .f32) (main_arg7 : FVec F S100000x64 .f32) (main_arg8 : FVec F S1000x64 .f32) (main_arg9 : FVec F S100000x160 .f32) (main_arg10 : FVec F S1000x160 .f32) (main_arg11 : FVec F S100000x16 .f32) (main_arg12 : FVec F S1000x16 .f32) : IVec S_ 1 :=
  let main_v0 : FVec F S4096x200 .f32 := Host.absf main_arg5
  let main_cst : FVec F S_ .f32 := constant S_ .f32 0x7F800000#32
  let main_v1 : FVec F S4096x200 .f32 := broadcastInDim S4096x200 ![] bcast_S_S4096x200 main_cst
  let main_v2 : IVec S4096x200 1 := cmpf .olt main_v0 main_v1
  let main_c : IVec S_ 1 := constantI S_ 1 1#1
  let main_v3 : IVec S_ 1 := (fun x v => Host.reduce IntOp.andi x v reducesTo_S4096x200_S_d0_1 h_S_) main_v2 main_c
  let main_v4 : FVec F S100000x64 .f32 := Host.absf main_arg6
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg7
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S1000x64 .f32 := Host.absf main_arg8
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg9 main_arg10 main_arg11 main_arg12 main_v13 main_v16
-- ==== Kernel.lean ====
abbrev S4096 : Shape := ⟨1, ![4096]⟩
abbrev S4096x200 : Shape := ⟨2, ![4096, 200]⟩
abbrev S100000x64 : Shape := ⟨2, ![100000, 64]⟩
abbrev S1000x64 : Shape := ⟨2, ![1000, 64]⟩
abbrev S100000x160 : Shape := ⟨2, ![100000, 160]⟩
abbrev S1000x160 : Shape := ⟨2, ![1000, 160]⟩
abbrev S100000x16 : Shape := ⟨2, ![100000, 16]⟩
abbrev S1000x16 : Shape := ⟨2, ![1000, 16]⟩
abbrev S_ : Shape := ⟨0, ![]⟩
abbrev S4096x1 : Shape := ⟨2, ![4096, 1]⟩
abbrev S4096x64 : Shape := ⟨2, ![4096, 64]⟩
abbrev S4096x128 : Shape := ⟨2, ![4096, 128]⟩
abbrev S4096x200x1 : Shape := ⟨3, ![4096, 200, 1]⟩
abbrev S4096x200x64 : Shape := ⟨3, ![4096, 200, 64]⟩
abbrev S4096x160 : Shape := ⟨2, ![4096, 160]⟩
abbrev S4096x200x16 : Shape := ⟨3, ![4096, 200, 16]⟩
abbrev S4096x16x200 : Shape := ⟨3, ![4096, 16, 200]⟩
abbrev S4096x72 : Shape := ⟨2, ![4096, 72]⟩
abbrev S256x160 : Shape := ⟨2, ![256, 160]⟩
abbrev S256x16x200 : Shape := ⟨3, ![256, 16, 200]⟩
abbrev S256x200 : Shape := ⟨2, ![256, 200]⟩
abbrev S256x72 : Shape := ⟨2, ![256, 72]⟩
abbrev S256x1x200 : Shape := ⟨3, ![256, 1, 200]⟩
abbrev S256x128 : Shape := ⟨2, ![256, 128]⟩
abbrev S256x16x8 : Shape := ⟨3, ![256, 16, 8]⟩
abbrev S256x32 : Shape := ⟨2, ![256, 32]⟩
abbrev S256x8x4 : Shape := ⟨3, ![256, 8, 4]⟩
abbrev S256x8x200 : Shape := ⟨3, ![256, 8, 200]⟩
abbrev S256x8 : Shape := ⟨2, ![256, 8]⟩
abbrev S256x8x1 : Shape := ⟨3, ![256, 8, 1]⟩
abbrev S256x4 : Shape := ⟨2, ![256, 4]⟩
abbrev S256x36 : Shape := ⟨2, ![256, 36]⟩
abbrev S4096x328 : Shape := ⟨2, ![4096, 328]⟩

abbrev nBuf : Space → Nat
  | .hbm => 95
  | .vmem => 12
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S4096x200, .i32⟩
  | .hbm, ⟨4, _⟩ => ⟨S4096x200, .i32⟩
  | .hbm, ⟨5, _⟩ => ⟨S4096x200, .f32⟩
  | .hbm, ⟨6, _⟩ => ⟨S100000x64, .f32⟩
  | .hbm, ⟨7, _⟩ => ⟨S100000x64, .f32⟩
  | .hbm, ⟨8, _⟩ => ⟨S1000x64, .f32⟩
  | .hbm, ⟨9, _⟩ => ⟨S100000x160, .f32⟩
  | .hbm, ⟨10, _⟩ => ⟨S1000x160, .f32⟩
  | .hbm, ⟨11, _⟩ => ⟨S100000x16, .f32⟩
  | .hbm, ⟨12, _⟩ => ⟨S1000x16, .f32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x64, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x64, .f32⟩
  | .hbm, ⟨31, _⟩ => ⟨S4096x128, .f32⟩
  | .hbm, ⟨32, _⟩ => ⟨S_, .i32⟩
  | .hbm, ⟨33, _⟩ => ⟨S4096x200, .i32⟩
  | .hbm, ⟨34, _⟩ => ⟨S4096x200, .i1⟩
  | .hbm, ⟨35, _⟩ => ⟨S_, .i32⟩
  | .hbm, ⟨36, _⟩ => ⟨S4096x200, .i32⟩
  | .hbm, ⟨37, _⟩ => ⟨S4096x200, .i32⟩
  | .hbm, ⟨38, _⟩ => ⟨S4096x200, .i32⟩
  | .hbm, ⟨39, _⟩ => ⟨S4096x200x1, .i32⟩
  | .hbm, ⟨40, _⟩ => ⟨S4096x200x64, .f32⟩
  | .hbm, ⟨41, _⟩ => ⟨S_, .i32⟩
  | .hbm, ⟨42, _⟩ => ⟨S4096x200, .i32⟩
  | .hbm, ⟨43, _⟩ => ⟨S4096x200, .i1⟩
  | .hbm, ⟨44, _⟩ => ⟨S_, .i32⟩
  | .hbm, ⟨45, _⟩ => ⟨S4096x200, .i32⟩
  | .hbm, ⟨46, _⟩ => ⟨S4096x200, .i32⟩
  | .hbm, ⟨47, _⟩ => ⟨S4096x200, .i32⟩
  | .hbm, ⟨48, _⟩ => ⟨S4096x200x1, .i32⟩
  | .hbm, ⟨49, _⟩ => ⟨S4096x200x64, .f32⟩
  | .hbm, ⟨50, _⟩ => ⟨S_, .f32⟩
  | .hbm, ⟨51, _⟩ => ⟨S4096x64, .f32⟩
  | .hbm, ⟨52, _⟩ => ⟨S_, .f32⟩
  | .hbm, ⟨53, _⟩ => ⟨S4096x64, .f32⟩
  | .hbm, ⟨54, _⟩ => ⟨S4096x128, .f32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x160, .f32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096x160, .f32⟩
  | .hbm, ⟨73, _⟩ => ⟨S_, .i32⟩
  | .hbm, ⟨74, _⟩ => ⟨S4096x200, .i32⟩
  | .hbm, ⟨75, _⟩ => ⟨S4096x200, .i1⟩
  | .hbm, ⟨76, _⟩ => ⟨S_, .i32⟩
  | .hbm, ⟨77, _⟩ => ⟨S4096x200, .i32⟩
  | .hbm, ⟨78, _⟩ => ⟨S4096x200, .i32⟩
  | .hbm, ⟨79, _⟩ => ⟨S4096x200, .i32⟩
  | .hbm, ⟨80, _⟩ => ⟨S4096x200x1, .i32⟩
  | .hbm, ⟨81, _⟩ => ⟨S4096x200x16, .f32⟩
  | .hbm, ⟨82, _⟩ => ⟨S_, .i32⟩
  | .hbm, ⟨83, _⟩ => ⟨S4096x200, .i32⟩
  | .hbm, ⟨84, _⟩ => ⟨S4096x200, .i1⟩
  | .hbm, ⟨85, _⟩ => ⟨S_, .i32⟩
  | .hbm, ⟨86, _⟩ => ⟨S4096x200, .i32⟩
  | .hbm, ⟨87, _⟩ => ⟨S4096x200, .i32⟩
  | .hbm, ⟨88, _⟩ => ⟨S4096x200, .i32⟩
  | .hbm, ⟨89, _⟩ => ⟨S4096x200x1, .i32⟩
  | .hbm, ⟨90, _⟩ => ⟨S4096x200x16, .f32⟩
  | .hbm, ⟨91, _⟩ => ⟨S4096x16x200, .f32⟩
  | .hbm, ⟨92, _⟩ => ⟨S4096x16x200, .f32⟩
  | .hbm, ⟨93, _⟩ => ⟨S4096x72, .f32⟩
  | .hbm, ⟨94, _⟩ => ⟨S4096x328, .f32⟩
  | .local _ .vmem, ⟨0, _⟩ => ⟨S256x160, .f32⟩
  | .local _ .vmem, ⟨1, _⟩ => ⟨S256x160, .f32⟩
  | .local _ .vmem, ⟨2, _⟩ => ⟨S256x16x200, .f32⟩
  | .local _ .vmem, ⟨3, _⟩ => ⟨S256x16x200, .f32⟩
  | .local _ .vmem, ⟨4, _⟩ => ⟨S256x160, .f32⟩
  | .local _ .vmem, ⟨5, _⟩ => ⟨S256x160, .f32⟩
  | .local _ .vmem, ⟨6, _⟩ => ⟨S256x16x200, .f32⟩
  | .local _ .vmem, ⟨7, _⟩ => ⟨S256x16x200, .f32⟩
  | .local _ .vmem, ⟨8, _⟩ => ⟨S256x200, .f32⟩
  | .local _ .vmem, ⟨9, _⟩ => ⟨S256x200, .f32⟩
  | .local _ .vmem, ⟨10, _⟩ => ⟨S256x72, .f32⟩
  | .local _ .vmem, ⟨11, _⟩ => ⟨S256x72, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_c_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x72 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x64_S4096x64_S4096x128_d1 : Shape.Concatenates [S4096x64, S4096x64] S4096x128 1
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  reducesTo_S4096x200x64_S4096x64_d1 : S4096x200x64.ReducesTo [1] S4096x64
  h_S_ : 0 < S_.numel
  transposes_S4096x200x16_S4096x16x200_0_2_1 : S4096x200x16.Transposes [0, 2, 1] S4096x16x200
  inb_S256x200_S256x200_0_0 : ∀ a, (![0, 0] : Fin 2 → Nat) a + S256x200.size a ≤ S256x200.size a
  h_S256x200 : 0 < S256x200.numel
  shapeCasts_S256x200_S256x1x200 : S256x200.ShapeCasts S256x1x200
  inb_S256x160_S256x160_0_0 : ∀ a, (![0, 0] : Fin 2 → Nat) a + S256x160.size a ≤ S256x160.size a
  h_S256x160 : 0 < S256x160.numel
  shapeCasts_S256x160_S256x160 : S256x160.ShapeCasts S256x160
  slices_S256x160_o0_0_S256x128 : S256x160.Slices ![0, 0] S256x128
  shapeCasts_S256x128_S256x16x8 : S256x128.ShapeCasts S256x16x8
  slices_S256x160_o0_128_S256x32 : S256x160.Slices ![0, 128] S256x32
  shapeCasts_S256x32_S256x8x4 : S256x32.ShapeCasts S256x8x4
  inb_S256x16x200_S256x16x200_0_0_0 : ∀ a, (![0, 0, 0] : Fin 3 → Nat) a + S256x16x200.size a ≤ S256x16x200.size a
  h_S256x16x200 : 0 < S256x16x200.numel
  shapeCasts_S256x16x200_S256x16x200 : S256x16x200.ShapeCasts S256x16x200
  broadcasts_S256x1x200_S256x8x200 : S256x1x200.Broadcasts S256x8x200
  reduces_S256x8x200_S256x8 : S256x8x200.Reduces [2] S256x8
  shapeCasts_S256x8_S256x8x1 : S256x8.ShapeCasts S256x8x1
  broadcasts_S256x8x1_S256x8x4 : S256x8x1.Broadcasts S256x8x4
  reduces_S256x8x4_S256x4 : S256x8x4.Reduces [1] S256x4
  concatenates_S256x8_S256x4_S256x8_S256x4_S256x8_S256x4_S256x36_d1 : Shape.Concatenates [S256x8, S256x4, S256x8, S256x4, S256x8, S256x4] S256x36 1
  concatenates_S256x36_S256x36_S256x72_d1 : Shape.Concatenates [S256x36, S256x36] S256x72 1
  inb_S256x72_S256x72_0_0 : ∀ a, (![0, 0] : Fin 2 → Nat) a + S256x72.size a ≤ S256x72.size a
  h_S256x72 : 0 < S256x72.numel
  concatenates_S4096x128_S4096x128_S4096x72_S4096x328_d1 : Shape.Concatenates [S4096x128, S4096x128, S4096x72] S4096x328 1
  gather_S100000x64_S4096x1_S4096x64_1_0_n_n_0_1_164_wf : GatherDims.WF S100000x64 S4096x1 S4096x64 [1] [0] [] [0] [] 1 ![1, 64]
  gather_S1000x64_S4096x1_S4096x64_1_0_n_n_0_1_164_wf : GatherDims.WF S1000x64 S4096x1 S4096x64 [1] [0] [] [0] [] 1 ![1, 64]
  gather_S100000x64_S4096x200x1_S4096x200x64_2_0_n_n_0_2_164_wf : GatherDims.WF S100000x64 S4096x200x1 S4096x200x64 [2] [0] [] [0] [] 2 ![1, 64]
  gather_S1000x64_S4096x200x1_S4096x200x64_2_0_n_n_0_2_164_wf : GatherDims.WF S1000x64 S4096x200x1 S4096x200x64 [2] [0] [] [0] [] 2 ![1, 64]
  gather_S100000x160_S4096x1_S4096x160_1_0_n_n_0_1_1160_wf : GatherDims.WF S100000x160 S4096x1 S4096x160 [1] [0] [] [0] [] 1 ![1, 160]
  gather_S1000x160_S4096x1_S4096x160_1_0_n_n_0_1_1160_wf : GatherDims.WF S1000x160 S4096x1 S4096x160 [1] [0] [] [0] [] 1 ![1, 160]
  gather_S100000x16_S4096x200x1_S4096x200x16_2_0_n_n_0_2_116_wf : GatherDims.WF S100000x16 S4096x200x1 S4096x200x16 [2] [0] [] [0] [] 2 ![1, 16]
  gather_S1000x16_S4096x200x1_S4096x200x16_2_0_n_n_0_2_116_wf : GatherDims.WF S1000x16 S4096x200x1 S4096x200x16 [2] [0] [] [0] [] 2 ![1, 16]
  dot_S256x16x8_S256x16x200_S256x8x200_1_1_2_2_0_0_wf : DotDims.WF S256x16x8 S256x16x200 S256x8x200 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x160.size a ≤ S4096x160.size a
  hwx0_0 : ∀ i : grid0.Coords, EltTy.bits .f32 = 32 ∨ (Rect.block (s := S4096x160) S256x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x200.size a ≤ S4096x16x200.size a
  hwx0_1 : ∀ i : grid0.Coords, EltTy.bits .f32 = 32 ∨ (Rect.block (s := S4096x16x200) S256x16x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x160.size a ≤ S4096x160.size a
  hwx0_2 : ∀ i : grid0.Coords, EltTy.bits .f32 = 32 ∨ (Rect.block (s := S4096x160) S256x160.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16x200.size a ≤ S4096x16x200.size a
  hwx0_3 : ∀ i : grid0.Coords, EltTy.bits .f32 = 32 ∨ (Rect.block (s := S4096x16x200) S256x16x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x200.size a ≤ S4096x200.size a
  hwx0_4 : ∀ i : grid0.Coords, EltTy.bits .f32 = 32 ∨ (Rect.block (s := S4096x200) S256x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x72.size a ≤ S4096x72.size a
  hwx0_5 : ∀ i : grid0.Coords, EltTy.bits .f32 = 32 ∨ (Rect.block (s := S4096x72) S256x72.size (cc0_transform_5 i) (hinb0_5 i)).WholeWords (EltTy.packing .f32)

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S1000x64_S4096x1_S4096x64_1_0_n_n_0_1_164 : GatherDims S1000x64 S4096x1 S4096x64 where
  offsetDims := [1]
  collapsedSliceDims := [0]
  operandBatchingDims := []
  startIndicesBatchingDims := []
  startIndexMap := [0]
  indexVectorDim := 1
  sliceSizes := ![1, 64]
  wf := gather_S1000x64_S4096x1_S4096x64_1_0_n_n_0_1_164_wf
def gather_S100000x64_S4096x200x1_S4096x200x64_2_0_n_n_0_2_164 : GatherDims S100000x64 S4096x200x1 S4096x200x64 where
  offsetDims := [2]
  collapsedSliceDims := [0]
  operandBatchingDims := []
  startIndicesBatchingDims := []
  startIndexMap := [0]
  indexVectorDim := 2
  sliceSizes := ![1, 64]
  wf := gather_S100000x64_S4096x200x1_S4096x200x64_2_0_n_n_0_2_164_wf
def gather_S1000x64_S4096x200x1_S4096x200x64_2_0_n_n_0_2_164 : GatherDims S1000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000x64_S4096x200x1_S4096x200x64_2_0_n_n_0_2_164_wf
def gather_S100000x160_S4096x1_S4096x160_1_0_n_n_0_1_1160 : GatherDims S100000x160 S4096x1 S4096x160 where
  offsetDims := [1]
  collapsedSliceDims := [0]
  operandBatchingDims := []
  startIndicesBatchingDims := []
  startIndexMap := [0]
  indexVectorDim := 1
  sliceSizes := ![1, 160]
  wf := gather_S100000x160_S4096x1_S4096x160_1_0_n_n_0_1_1160_wf
def gather_S1000x160_S4096x1_S4096x160_1_0_n_n_0_1_1160 : GatherDims S1000x160 S4096x1 S4096x160 where
  offsetDims := [1]
  collapsedSliceDims := [0]
  operandBatchingDims := []
  startIndicesBatchingDims := []
  startIndexMap := [0]
  indexVectorDim := 1
  sliceSizes := ![1, 160]
  wf := gather_S1000x160_S4096x1_S4096x160_1_0_n_n_0_1_1160_wf
def gather_S100000x16_S4096x200x1_S4096x200x16_2_0_n_n_0_2_116 : GatherDims S100000x16 S4096x200x1 S4096x200x16 where
  offsetDims := [2]
  collapsedSliceDims := [0]
  operandBatchingDims := []
  startIndicesBatchingDims := []
  startIndexMap := [0]
  indexVectorDim := 2
  sliceSizes := ![1, 16]
  wf := gather_S100000x16_S4096x200x1_S4096x200x16_2_0_n_n_0_2_116_wf
def gather_S1000x16_S4096x200x1_S4096x200x16_2_0_n_n_0_2_116 : GatherDims S1000x16 S4096x200x1 S4096x200x16 where
  offsetDims := [2]
  collapsedSliceDims := [0]
  operandBatchingDims := []
  startIndicesBatchingDims := []
  startIndexMap := [0]
  indexVectorDim := 2
  sliceSizes := ![1, 16]
  wf := gather_S1000x16_S4096x200x1_S4096x200x16_2_0_n_n_0_2_116_wf
def dot_S256x16x8_S256x16x200_S256x8x200_1_1_2_2_0_0 : DotDims S256x16x8 S256x16x200 S256x8x200 where
  lhsContracting := [1]
  rhsContracting := [1]
  lhsNonContracting := [2]
  rhsNonContracting := [2]
  lhsBatch := [0]
  rhsBatch := [0]
  wf := dot_S256x16x8_S256x16x200_S256x8x200_1_1_2_2_0_0_wf

abbrev win0_0 : Pipeline.Window sig grid0 :=
  Pipeline.Window.ofSpec (Memref.whole main_v38) S256x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S256x16x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S256x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S256x16x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v62) S256x72.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096 : Shape := ⟨1, ![4096]⟩
abbrev S4096x200 : Shape := ⟨2, ![4096, 200]⟩
abbrev S100000x64 : Shape := ⟨2, ![100000, 64]⟩
abbrev S1000x64 : Shape := ⟨2, ![1000, 64]⟩
abbrev S100000x160 : Shape := ⟨2, ![100000, 160]⟩
abbrev S1000x160 : Shape := ⟨2, ![1000, 160]⟩
abbrev S100000x16 : Shape := ⟨2, ![100000, 16]⟩
abbrev S1000x16 : Shape := ⟨2, ![1000, 16]⟩
abbrev S_ : Shape := ⟨0, ![]⟩
abbrev S4096x1 : Shape := ⟨2, ![4096, 1]⟩
abbrev S4096x64 : Shape := ⟨2, ![4096, 64]⟩
abbrev S4096x200x1 : Shape := ⟨3, ![4096, 200, 1]⟩
abbrev S4096x200x64 : Shape := ⟨3, ![4096, 200, 64]⟩
abbrev S4096x128 : Shape := ⟨2, ![4096, 128]⟩
abbrev S4096x200x128 : Shape := ⟨3, ![4096, 200, 128]⟩
abbrev S4096x160 : Shape := ⟨2, ![4096, 160]⟩
abbrev S4096x200x16 : Shape := ⟨3, ![4096, 200, 16]⟩
abbrev S4096x16x8 : Shape := ⟨3, ![4096, 16, 8]⟩
abbrev S4096x32 : Shape := ⟨2, ![4096, 32]⟩
abbrev S4096x8x4 : Shape := ⟨3, ![4096, 8, 4]⟩
abbrev S4096x200x8 : Shape := ⟨3, ![4096, 200, 8]⟩
abbrev S4096x200x4 : Shape := ⟨3, ![4096, 200, 4]⟩
abbrev S4096x200x36 : Shape := ⟨3, ![4096, 200, 36]⟩
abbrev S4096x36 : Shape := ⟨2, ![4096, 36]⟩
abbrev S4096x72 : Shape := ⟨2, ![4096, 72]⟩
abbrev S4096x328 : Shape := ⟨2, ![4096, 328]⟩

abbrev nBuf : Space → Nat
  | .hbm => 135
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S4096x200, .i32⟩
  | 4 => ⟨S4096x200, .i32⟩
  | 5 => ⟨S4096x200, .f32⟩
  | 6 => ⟨S100000x64, .f32⟩
  | 7 => ⟨S100000x64, .f32⟩
  | 8 => ⟨S1000x64, .f32⟩
  | 9 => ⟨S100000x160, .f32⟩
  | 10 => ⟨S1000x160, .f32⟩
  | 11 => ⟨S100000x16, .f32⟩
  | 12 => ⟨S1000x16, .f32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S4096x64, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x64, .f32⟩
  | 31 => ⟨S_, .i32⟩
  | 32 => ⟨S4096x200, .i32⟩
  | 33 => ⟨S4096x200, .i1⟩
  | 34 => ⟨S_, .i32⟩
  | 35 => ⟨S4096x200, .i32⟩
  | 36 => ⟨S4096x200, .i32⟩
  | 37 => ⟨S4096x200, .i32⟩
  | 38 => ⟨S4096x200x1, .i32⟩
  | 39 => ⟨S4096x200x64, .f32⟩
  | 40 => ⟨S_, .i32⟩
  | 41 => ⟨S4096x200, .i32⟩
  | 42 => ⟨S4096x200, .i1⟩
  | 43 => ⟨S_, .i32⟩
  | 44 => ⟨S4096x200, .i32⟩
  | 45 => ⟨S4096x200, .i32⟩
  | 46 => ⟨S4096x200, .i32⟩
  | 47 => ⟨S4096x200x1, .i32⟩
  | 48 => ⟨S4096x200x64, .f32⟩
  | 49 => ⟨S4096x128, .f32⟩
  | 50 => ⟨S4096x200x128, .f32⟩
  | 51 => ⟨S_, .f32⟩
  | 52 => ⟨S4096x128, .f32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096x160, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x160, .f32⟩
  | 71 => ⟨S_, .i32⟩
  | 72 => ⟨S4096x200, .i32⟩
  | 73 => ⟨S4096x200, .i1⟩
  | 74 => ⟨S_, .i32⟩
  | 75 => ⟨S4096x200, .i32⟩
  | 76 => ⟨S4096x200, .i32⟩
  | 77 => ⟨S4096x200, .i32⟩
  | 78 => ⟨S4096x200x1, .i32⟩
  | 79 => ⟨S4096x200x16, .f32⟩
  | 80 => ⟨S_, .i32⟩
  | 81 => ⟨S4096x200, .i32⟩
  | 82 => ⟨S4096x200, .i1⟩
  | 83 => ⟨S_, .i32⟩
  | 84 => ⟨S4096x200, .i32⟩
  | 85 => ⟨S4096x200, .i32⟩
  | 86 => ⟨S4096x200, .i32⟩
  | 87 => ⟨S4096x200x1, .i32⟩
  | 88 => ⟨S4096x200x16, .f32⟩
  | 89 => ⟨S4096x128, .f32⟩
  | 90 => ⟨S4096x16x8, .f32⟩
  | 91 => ⟨S4096x32, .f32⟩
  | 92 => ⟨S4096x8x4, .f32⟩
  | 93 => ⟨S4096x200x8, .f32⟩
  | 94 => ⟨S4096x200x8, .f32⟩
  | 95 => ⟨S4096x200x4, .f32⟩
  | 96 => ⟨S4096x200x16, .f32⟩
  | 97 => ⟨S4096x200x8, .f32⟩
  | 98 => ⟨S4096x200x8, .f32⟩
  | 99 => ⟨S4096x200x4, .f32⟩
  | 100 => ⟨S4096x200x16, .f32⟩
  | 101 => ⟨S4096x200x16, .f32⟩
  | 102 => ⟨S4096x200x8, .f32⟩
  | 103 => ⟨S4096x200x8, .f32⟩
  | 104 => ⟨S4096x200x4, .f32⟩
  | 105 => ⟨S4096x200x36, .f32⟩
  | 106 => ⟨S4096x200x1, .f32⟩
  | 107 => ⟨S4096x200x36, .f32⟩
  | 108 => ⟨S4096x200x36, .f32⟩
  | 109 => ⟨S_, .f32⟩
  | 110 => ⟨S4096x36, .f32⟩
  | 111 => ⟨S4096x128, .f32⟩
  | 112 => ⟨S4096x16x8, .f32⟩
  | 113 => ⟨S4096x32, .f32⟩
  | 114 => ⟨S4096x8x4, .f32⟩
  | 115 => ⟨S4096x200x8, .f32⟩
  | 116 => ⟨S4096x200x8, .f32⟩
  | 117 => ⟨S4096x200x4, .f32⟩
  | 118 => ⟨S4096x200x16, .f32⟩
  | 119 => ⟨S4096x200x8, .f32⟩
  | 120 => ⟨S4096x200x8, .f32⟩
  | 121 => ⟨S4096x200x4, .f32⟩
  | 122 => ⟨S4096x200x16, .f32⟩
  | 123 => ⟨S4096x200x16, .f32⟩
  | 124 => ⟨S4096x200x8, .f32⟩
  | 125 => ⟨S4096x200x8, .f32⟩
  | 126 => ⟨S4096x200x4, .f32⟩
  | 127 => ⟨S4096x200x36, .f32⟩
  | _ => ⟨S4096, .i32⟩

abbrev hbmTy0_1 (i : Nat) : BufTy := match i % 128 with
  | 0 => ⟨S4096x200x1, .f32⟩
  | 1 => ⟨S4096x200x36, .f32⟩
  | 2 => ⟨S4096x200x36, .f32⟩
  | 3 => ⟨S_, .f32⟩
  | 4 => ⟨S4096x36, .f32⟩
  | 5 => ⟨S4096x72, .f32⟩
  | 6 => ⟨S4096x328, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_16 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  concatenates_S4096x64_S4096x64_S4096x128_d1 : Shape.Concatenates [S4096x64, S4096x64] S4096x128 1
  concatenates_S4096x200x64_S4096x200x64_S4096x200x128_d2 : Shape.Concatenates [S4096x200x64, S4096x200x64] S4096x200x128 2
  reducesTo_S4096x200x128_S4096x128_d1 : S4096x200x128.ReducesTo [1] S4096x128
  h_S_ : 0 < S_.numel
  slices_S4096x160_S4096x128_0_0 : S4096x160.Slices ![0, 0] S4096x128
  shapeCasts_S4096x128_S4096x16x8 : S4096x128.ShapeCasts S4096x16x8
  slices_S4096x160_S4096x32_0_128 : S4096x160.Slices ![0, 128] S4096x32
  shapeCasts_S4096x32_S4096x8x4 : S4096x32.ShapeCasts S4096x8x4
  concatenates_S4096x200x8_S4096x200x4_S4096x200x8_S4096x200x4_S4096x200x8_S4096x200x4_S4096x200x36_d2 : Shape.Concatenates [S4096x200x8, S4096x200x4, S4096x200x8, S4096x200x4, S4096x200x8, S4096x200x4] S4096x200x36 2
  bcast_S4096x200x1_S4096x200x36_0_1_2 : S4096x200x1.BroadcastsInDim S4096x200x36 (![0, 1, 2] : Fin 3 → Fin S4096x200x36.rank)
  reducesTo_S4096x200x36_S4096x36_d1 : S4096x200x36.ReducesTo [1] S4096x36
  concatenates_S4096x36_S4096x36_S4096x72_d1 : Shape.Concatenates [S4096x36, S4096x36] S4096x72 1
  concatenates_S4096x128_S4096x128_S4096x72_S4096x328_d1 : Shape.Concatenates [S4096x128, S4096x128, S4096x72] S4096x328 1
  gather_S100000x64_S4096x1_S4096x64_1_0_n_n_0_1_164_wf : GatherDims.WF S100000x64 S4096x1 S4096x64 [1] [0] [] [0] [] 1 ![1, 64]
  gather_S1000x64_S4096x1_S4096x64_1_0_n_n_0_1_164_wf : GatherDims.WF S1000x64 S4096x1 S4096x64 [1] [0] [] [0] [] 1 ![1, 64]
  gather_S100000x64_S4096x200x1_S4096x200x64_2_0_n_n_0_2_164_wf : GatherDims.WF S100000x64 S4096x200x1 S4096x200x64 [2] [0] [] [0] [] 2 ![1, 64]
  gather_S1000x64_S4096x200x1_S4096x200x64_2_0_n_n_0_2_164_wf : GatherDims.WF S1000x64 S4096x200x1 S4096x200x64 [2] [0] [] [0] [] 2 ![1, 64]
  gather_S100000x160_S4096x1_S4096x160_1_0_n_n_0_1_1160_wf : GatherDims.WF S100000x160 S4096x1 S4096x160 [1] [0] [] [0] [] 1 ![1, 160]
  gather_S1000x160_S4096x1_S4096x160_1_0_n_n_0_1_1160_wf : GatherDims.WF S1000x160 S4096x1 S4096x160 [1] [0] [] [0] [] 1 ![1, 160]
  gather_S100000x16_S4096x200x1_S4096x200x16_2_0_n_n_0_2_116_wf : GatherDims.WF S100000x16 S4096x200x1 S4096x200x16 [2] [0] [] [0] [] 2 ![1, 16]
  gather_S1000x16_S4096x200x1_S4096x200x16_2_0_n_n_0_2_116_wf : GatherDims.WF S1000x16 S4096x200x1 S4096x200x16 [2] [0] [] [0] [] 2 ![1, 16]
  dot_S4096x200x16_S4096x16x8_S4096x200x8_2_1_1_2_0_0_wf : DotDims.WF S4096x200x16 S4096x16x8 S4096x200x8 [2] [1] [1] [2] [0] [0]
  dot_S4096x200x8_S4096x8x4_S4096x200x4_2_1_1_2_0_0_wf : DotDims.WF S4096x200x8 S4096x8x4 S4096x200x4 [2] [1] [1] [2] [0] [0]

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S1000x64_S4096x1_S4096x64_1_0_n_n_0_1_164 : GatherDims S1000x64 S4096x1 S4096x64 where
  offsetDims := [1]
  collapsedSliceDims := [0]
  operandBatchingDims := []
  startIndicesBatchingDims := []
  startIndexMap := [0]
  indexVectorDim := 1
  sliceSizes := ![1, 64]
  wf := gather_S1000x64_S4096x1_S4096x64_1_0_n_n_0_1_164_wf
def gather_S100000x64_S4096x200x1_S4096x200x64_2_0_n_n_0_2_164 : GatherDims S100000x64 S4096x200x1 S4096x200x64 where
  offsetDims := [2]
  collapsedSliceDims := [0]
  operandBatchingDims := []
  startIndicesBatchingDims := []
  startIndexMap := [0]
  indexVectorDim := 2
  sliceSizes := ![1, 64]
  wf := gather_S100000x64_S4096x200x1_S4096x200x64_2_0_n_n_0_2_164_wf
def gather_S1000x64_S4096x200x1_S4096x200x64_2_0_n_n_0_2_164 : GatherDims S1000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000x64_S4096x200x1_S4096x200x64_2_0_n_n_0_2_164_wf
def gather_S100000x160_S4096x1_S4096x160_1_0_n_n_0_1_1160 : GatherDims S100000x160 S4096x1 S4096x160 where
  offsetDims := [1]
  collapsedSliceDims := [0]
  operandBatchingDims := []
  startIndicesBatchingDims := []
  startIndexMap := [0]
  indexVectorDim := 1
  sliceSizes := ![1, 160]
  wf := gather_S100000x160_S4096x1_S4096x160_1_0_n_n_0_1_1160_wf
def gather_S1000x160_S4096x1_S4096x160_1_0_n_n_0_1_1160 : GatherDims S1000x160 S4096x1 S4096x160 where
  offsetDims := [1]
  collapsedSliceDims := [0]
  operandBatchingDims := []
  startIndicesBatchingDims := []
  startIndexMap := [0]
  indexVectorDim := 1
  sliceSizes := ![1, 160]
  wf := gather_S1000x160_S4096x1_S4096x160_1_0_n_n_0_1_1160_wf
def gather_S100000x16_S4096x200x1_S4096x200x16_2_0_n_n_0_2_116 : GatherDims S100000x16 S4096x200x1 S4096x200x16 where
  offsetDims := [2]
  collapsedSliceDims := [0]
  operandBatchingDims := []
  startIndicesBatchingDims := []
  startIndexMap := [0]
  indexVectorDim := 2
  sliceSizes := ![1, 16]
  wf := gather_S100000x16_S4096x200x1_S4096x200x16_2_0_n_n_0_2_116_wf
def gather_S1000x16_S4096x200x1_S4096x200x16_2_0_n_n_0_2_116 : GatherDims S1000x16 S4096x200x1 S4096x200x16 where
  offsetDims := [2]
  collapsedSliceDims := [0]
  operandBatchingDims := []
  startIndicesBatchingDims := []
  startIndexMap := [0]
  indexVectorDim := 2
  sliceSizes := ![1, 16]
  wf := gather_S1000x16_S4096x200x1_S4096x200x16_2_0_n_n_0_2_116_wf
def dot_S4096x200x16_S4096x16x8_S4096x200x8_2_1_1_2_0_0 : DotDims S4096x200x16 S4096x16x8 S4096x200x8 where
  lhsContracting := [2]
  rhsContracting := [1]
  lhsNonContracting := [1]
  rhsNonContracting := [2]
  lhsBatch := [0]
  rhsBatch := [0]
  wf := dot_S4096x200x16_S4096x16x8_S4096x200x8_2_1_1_2_0_0_wf
def dot_S4096x200x8_S4096x8x4_S4096x200x4_2_1_1_2_0_0 : DotDims S4096x200x8 S4096x8x4 S4096x200x4 where
  lhsContracting := [2]
  rhsContracting := [1]
  lhsNonContracting := [1]
  rhsNonContracting := [2]
  lhsBatch := [0]
  rhsBatch := [0]
  wf := dot_S4096x200x8_S4096x8x4_S4096x200x4_2_1_1_2_0_0_wf

class Facts : Prop extends Facts₀ where

variable [Facts]
-- ==== Proof.LibHostResults.lean ====
/-
  A buffer after a literal list of host operations, read as the operations' composed term of the contents before the list
  — through two-operand concatenations.

  The library's one-pass reading of a host stretch rewrites each operation's result equation everywhere in the goal.  It does
  not rewrite inside the operands of a `concatenate t a [⟨s₁, x⟩, ⟨s₂, y⟩] h` (a `jnp.stack` or a two-operand
  `jnp.concatenate`): the operands sit in dependent pairs and the concatenation's side condition depends on the list, and
  each operand is left as the whole chain of every result written before it.  `concat2` is the same concatenation with
  its two operands as plain arguments, `concat2_fold` folds a two-operand concatenation into it by `rfl`, and
  `host_results` is the one pass with that fold tried first at every concatenation, so that the pass goes on inside the
  operands.

  Use: on a goal `StableHlo.after ops V (Proc.devRef .tc b) = …` with `ops` a literal list (or a nest of such `after`s
  over several literal lists), `host_results` leaves the operations' composed term over `V` at the buffers the list only
  reads; against a term that spells the concatenations with `concatenate`, `rfl` unfolds `concat2`.
-/
import Idealize.ShloMosaic.Lib.StableHlo.Run

namespace Idealize.ShloMosaic.StableHlo

open Idealize.ShloMosaic

/-- Two arrays joined along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A two-operand concatenation is `concat2` of its operands. -/
theorem concat2_fold {α : Type} (t : Shape) (a : Fin t.rank) (s1 s2 : Shape) (x : s1.Idx → α) (y : s2.Idx → α)
    (h : Shape.Concatenates (List.map (fun p : (s : Shape) × (s.Idx → α) => p.1) [⟨s1, x⟩, ⟨s2, y⟩]) t a) :
    concatenate t a [⟨s1, x⟩, ⟨s2, y⟩] h = concat2 t a s1 s2 h x y := rfl

/-- A buffer after a literal list of host operations, as the operations' composed term of the contents before them: one
    rewriting pass over the operations' result equations, a two-operand concatenation first folded so that the pass goes on
    inside its operands. -/
macro "host_results" : tactic =>
  `(tactic| simp (disch := decide) only [after_cons, after_nil, ↓concat2_fold,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

end Idealize.ShloMosaic.StableHlo
-- ==== Proof.RefRunOps.lean ====
/-
  The reference program as a line of operations.

  The reference is a straight line of 122 host operations. They are listed here in order, once whole (the program is
  that line, and every operation touches device buffers only) and once cut before its last operation, the
  concatenation that joins the result's three column groups: what a buffer holds after the whole line is what it holds after
  the tail run from the contents the head left. A reading pass over a literal line of operations is also set up here:
  each operation's value at its own buffer, every other buffer as before the operation; an operation over three or six
  literal references is read operand by operand, and the two operands of a two-array concatenation are first taken out of
  the list they sit in, so that the reading goes on inside them. What the pass leaves unread inside a longer
  concatenation is read by unfolding.
-/
import proofs.«158401_j37486474559594_2_alg».proof.Proof.Gen.ReferenceIdeal
import proofs.«158401_j37486474559594_2_alg».proof.Proof.LibHostResults
import Idealize.ShloMosaic.Lib.StableHlo.Run
import Idealize.ShloMosaic.Lib.Pipeline.Frame
import Idealize.ShloMosaic.PureOps.Ideal

noncomputable section

namespace Idealize.ShloMosaic.StableHlo

open Idealize.ShloMosaic

section NaryLiteral

variable {nD : Nat} {τ : Topo} {sig : RefSig} {Val : EltTy → Type}
variable {x a b c d e y : Ref sig .tc}

/-- An operation over a literal family of three references: the result with each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same over a literal family of six references. -/
theorem nary6_result'
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) := by
  rw [nary_result]; congr 1; funext k; fin_cases k <;> rfl

end NaryLiteral

/-- One reading pass over a literal line of operations: an operation over three or six literal references is read operand by
    operand, and a two-array concatenation is first folded so that the pass goes on inside its operands. -/
macro "host_results_cat" : tactic =>
  `(tactic| simp (disch := decide) only [after_cons, after_nil, ↓concat2_fold,
      nullary_result', unary_result', binary_result', ternary_result', quaternary_result', reshape_result',
      nary3_result', nary6_result',
      nullary_result_ne', unary_result_ne', binary_result_ne', ternary_result_ne', quaternary_result_ne', reshape_result_ne',
      nary_result_ne'])

end Idealize.ShloMosaic.StableHlo

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 122 operations, in order. -/
abbrev ops : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg1 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 100000#32),
    unary main_c_0 main_v2 (broadcastInDim S4096 ![] bcast_S_S4096 : (⟨S_, .i32⟩ : BufTy).Contents (Elt F) → (⟨S4096, .i32⟩ : BufTy).Contents (Elt F)),
    binary main_arg1 main_v2 main_v3 (addi : (⟨S4096, .i32⟩ : BufTy).Contents (Elt F) → (⟨S4096, .i32⟩ : BufTy).Contents (Elt F) → (⟨S4096, .i32⟩ : BufTy).Contents (Elt F)),
    ternary main_v1 main_v3 main_arg1 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    binary main_arg7 main_v5 main_v6 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg2 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 1000#32),
    unary main_c_2 main_v9 (broadcastInDim S4096 ![] bcast_S_S4096 : (⟨S_, .i32⟩ : BufTy).Contents (Elt F) → (⟨S4096, .i32⟩ : BufTy).Contents (Elt F)),
    binary main_arg2 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg2 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    binary main_arg8 main_v12 main_v13 ((fun x i => Host.gather gather_S1000x64_S4096x1_S4096x64_1_0_n_n_0_1_164 x i) : (⟨S1000x64, .f32⟩ : BufTy).Contents (Elt F) → (⟨S4096x1, .i32⟩ : BufTy).Contents (Elt F) → (⟨S4096x64, .f32⟩ : BufTy).Contents (Elt F)),
    nullary main_c_3 (constantI S_ 32 0#32),
    unary main_c_3 main_v14 (broadcastInDim S4096x200 ![] bcast_S_S4096x200 : (⟨S_, .i32⟩ : BufTy).Contents (Elt F) → (⟨S4096x200, .i32⟩ : BufTy).Contents (Elt F)),
    binary main_arg3 main_v14 main_v15 (cmpi .slt : (⟨S4096x200, .i32⟩ : BufTy).Contents (Elt F) → (⟨S4096x200, .i32⟩ : BufTy).Contents (Elt F) → (⟨S4096x200, .i1⟩ : BufTy).Contents (Elt F)),
    nullary main_c_4 (constantI S_ 32 100000#32),
    unary main_c_4 main_v16 (broadcastInDim S4096x200 ![] bcast_S_S4096x200 : (⟨S_, .i32⟩ : BufTy).Contents (Elt F) → (⟨S4096x200, .i32⟩ : BufTy).Contents (Elt F)),
    binary main_arg3 main_v16 main_v17 (addi : (⟨S4096x200, .i32⟩ : BufTy).Contents (Elt F) → (⟨S4096x200, .i32⟩ : BufTy).Contents (Elt F) → (⟨S4096x200, .i32⟩ : BufTy).Contents (Elt F)),
    ternary main_v15 main_v17 main_arg3 main_v18 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_v18 main_v19 (broadcastInDim S4096x200x1 ![0, 1] bcast_S4096x200_S4096x200x1_0_1 : (⟨S4096x200, .i32⟩ : BufTy).Contents (Elt F) → (⟨S4096x200x1, .i32⟩ : BufTy).Contents (Elt F)),
    binary main_arg7 main_v19 main_v20 ((fun x i => Host.gather gather_S100000x64_S4096x200x1_S4096x200x64_2_0_n_n_0_2_164 x i) : (⟨S100000x64, .f32⟩ : BufTy).Contents (Elt F) → (⟨S4096x200x1, .i32⟩ : BufTy).Contents (Elt F) → (⟨S4096x200x64, .f32⟩ : BufTy).Contents (Elt F)),
    nullary main_c_5 (constantI S_ 32 0#32),
    unary main_c_5 main_v21 (broadcastInDim S4096x200 ![] bcast_S_S4096x200 : (⟨S_, .i32⟩ : BufTy).Contents (Elt F) → (⟨S4096x200, .i32⟩ : BufTy).Contents (Elt F)),
    binary main_arg4 main_v21 main_v22 (cmpi .slt : (⟨S4096x200, .i32⟩ : BufTy).Contents (Elt F) → (⟨S4096x200, .i32⟩ : BufTy).Contents (Elt F) → (⟨S4096x200, .i1⟩ : BufTy).Contents (Elt F)),
    nullary main_c_6 (constantI S_ 32 1000#32),
    unary main_c_6 main_v23 (broadcastInDim S4096x200 ![] bcast_S_S4096x200 : (⟨S_, .i32⟩ : BufTy).Contents (Elt F) → (⟨S4096x200, .i32⟩ : BufTy).Contents (Elt F)),
    binary main_arg4 main_v23 main_v24 (addi : (⟨S4096x200, .i32⟩ : BufTy).Contents (Elt F) → (⟨S4096x200, .i32⟩ : BufTy).Contents (Elt F) → (⟨S4096x200, .i32⟩ : BufTy).Contents (Elt F)),
    ternary main_v22 main_v24 main_arg4 main_v25 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_v25 main_v26 (broadcastInDim S4096x200x1 ![0, 1] bcast_S4096x200_S4096x200x1_0_1 : (⟨S4096x200, .i32⟩ : BufTy).Contents (Elt F) → (⟨S4096x200x1, .i32⟩ : BufTy).Contents (Elt F)),
    binary main_arg8 main_v26 main_v27 ((fun x i => Host.gather gather_S1000x64_S4096x200x1_S4096x200x64_2_0_n_n_0_2_164 x i) : (⟨S1000x64, .f32⟩ : BufTy).Contents (Elt F) → (⟨S4096x200x1, .i32⟩ : BufTy).Contents (Elt F) → (⟨S4096x200x64, .f32⟩ : BufTy).Contents (Elt F)),
    binary main_v6 main_v13 main_v28 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)),
    binary main_v20 main_v27 main_v29 ((fun a b => concatenate S4096x200x128 2 [⟨S4096x200x64, a⟩, ⟨S4096x200x64, b⟩] concatenates_S4096x200x64_S4096x200x64_S4096x200x128_d2) : (⟨S4096x200x64, .f32⟩ : BufTy).Contents (Elt F) → (⟨S4096x200x64, .f32⟩ : BufTy).Contents (Elt F) → (⟨S4096x200x128, .f32⟩ : BufTy).Contents (Elt F)),
    nullary main_cst (constant S_ .f32 0x00000000#32),
    binary main_v29 main_cst main_v30 ((fun x v => Host.reduceAdd x v reducesTo_S4096x200x128_S4096x128_d1 h_S_) : (⟨S4096x200x128, .f32⟩ : BufTy).Contents (Elt F) → (⟨S_, .f32⟩ : BufTy).Contents (Elt F) → (⟨S4096x128, .f32⟩ : BufTy).Contents (Elt F)),
    nullary main_c_7 (constantI S_ 32 0#32),
    unary main_c_7 main_v31 (broadcastInDim S4096 ![] bcast_S_S4096 : (⟨S_, .i32⟩ : BufTy).Contents (Elt F) → (⟨S4096, .i32⟩ : BufTy).Contents (Elt F)),
    binary main_arg1 main_v31 main_v32 (cmpi .slt : (⟨S4096, .i32⟩ : BufTy).Contents (Elt F) → (⟨S4096, .i32⟩ : BufTy).Contents (Elt F) → (⟨S4096, .i1⟩ : BufTy).Contents (Elt F)),
    nullary main_c_8 (constantI S_ 32 100000#32),
    unary main_c_8 main_v33 (broadcastInDim S4096 ![] bcast_S_S4096 : (⟨S_, .i32⟩ : BufTy).Contents (Elt F) → (⟨S4096, .i32⟩ : BufTy).Contents (Elt F)),
    binary main_arg1 main_v33 main_v34 (addi : (⟨S4096, .i32⟩ : BufTy).Contents (Elt F) → (⟨S4096, .i32⟩ : BufTy).Contents (Elt F) → (⟨S4096, .i32⟩ : BufTy).Contents (Elt F)),
    ternary main_v32 main_v34 main_arg1 main_v35 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v35 main_v36 (broadcastInDim S4096x1 ![0] bcast_S4096_S4096x1_0 : (⟨S4096, .i32⟩ : BufTy).Contents (Elt F) → (⟨S4096x1, .i32⟩ : BufTy).Contents (Elt F)),
    binary main_arg9 main_v36 main_v37 ((fun x i => Host.gather gather_S100000x160_S4096x1_S4096x160_1_0_n_n_0_1_1160 x i) : (⟨S100000x160, .f32⟩ : BufTy).Contents (Elt F) → (⟨S4096x1, .i32⟩ : BufTy).Contents (Elt F) → (⟨S4096x160, .f32⟩ : BufTy).Contents (Elt F)),
    nullary main_c_9 (constantI S_ 32 0#32),
    unary main_c_9 main_v38 (broadcastInDim S4096 ![] bcast_S_S4096 : (⟨S_, .i32⟩ : BufTy).Contents (Elt F) → (⟨S4096, .i32⟩ : BufTy).Contents (Elt F)),
    binary main_arg2 main_v38 main_v39 (cmpi .slt : (⟨S4096, .i32⟩ : BufTy).Contents (Elt F) → (⟨S4096, .i32⟩ : BufTy).Contents (Elt F) → (⟨S4096, .i1⟩ : BufTy).Contents (Elt F)),
    nullary main_c_10 (constantI S_ 32 1000#32),
    unary main_c_10 main_v40 (broadcastInDim S4096 ![] bcast_S_S4096 : (⟨S_, .i32⟩ : BufTy).Contents (Elt F) → (⟨S4096, .i32⟩ : BufTy).Contents (Elt F)),
    binary main_arg2 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_arg2 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v42 main_v43 (broadcastInDim S4096x1 ![0] bcast_S4096_S4096x1_0 : (⟨S4096, .i32⟩ : BufTy).Contents (Elt F) → (⟨S4096x1, .i32⟩ : BufTy).Contents (Elt F)),
    binary main_arg10 main_v43 main_v44 ((fun x i => Host.gather gather_S1000x160_S4096x1_S4096x160_1_0_n_n_0_1_1160 x i) : (⟨S1000x160, .f32⟩ : BufTy).Contents (Elt F) → (⟨S4096x1, .i32⟩ : BufTy).Contents (Elt F) → (⟨S4096x160, .f32⟩ : BufTy).Contents (Elt F)),
    nullary main_c_11 (constantI S_ 32 0#32),
    unary main_c_11 main_v45 (broadcastInDim S4096x200 ![] bcast_S_S4096x200 : (⟨S_, .i32⟩ : BufTy).Contents (Elt F) → (⟨S4096x200, .i32⟩ : BufTy).Contents (Elt F)),
    binary main_arg3 main_v45 main_v46 (cmpi .slt : (⟨S4096x200, .i32⟩ : BufTy).Contents (Elt F) → (⟨S4096x200, .i32⟩ : BufTy).Contents (Elt F) → (⟨S4096x200, .i1⟩ : BufTy).Contents (Elt F)),
    nullary main_c_12 (constantI S_ 32 100000#32),
    unary main_c_12 main_v47 (broadcastInDim S4096x200 ![] bcast_S_S4096x200 : (⟨S_, .i32⟩ : BufTy).Contents (Elt F) → (⟨S4096x200, .i32⟩ : BufTy).Contents (Elt F)),
    binary main_arg3 main_v47 main_v48 (addi : (⟨S4096x200, .i32⟩ : BufTy).Contents (Elt F) → (⟨S4096x200, .i32⟩ : BufTy).Contents (Elt F) → (⟨S4096x200, .i32⟩ : BufTy).Contents (Elt F)),
    ternary main_v46 main_v48 main_arg3 main_v49 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_v49 main_v50 (broadcastInDim S4096x200x1 ![0, 1] bcast_S4096x200_S4096x200x1_0_1 : (⟨S4096x200, .i32⟩ : BufTy).Contents (Elt F) → (⟨S4096x200x1, .i32⟩ : BufTy).Contents (Elt F)),
    binary main_arg11 main_v50 main_v51 ((fun x i => Host.gather gather_S100000x16_S4096x200x1_S4096x200x16_2_0_n_n_0_2_116 x i) : (⟨S100000x16, .f32⟩ : BufTy).Contents (Elt F) → (⟨S4096x200x1, .i32⟩ : BufTy).Contents (Elt F) → (⟨S4096x200x16, .f32⟩ : BufTy).Contents (Elt F)),
    nullary main_c_13 (constantI S_ 32 0#32),
    unary main_c_13 main_v52 (broadcastInDim S4096x200 ![] bcast_S_S4096x200 : (⟨S_, .i32⟩ : BufTy).Contents (Elt F) → (⟨S4096x200, .i32⟩ : BufTy).Contents (Elt F)),
    binary main_arg4 main_v52 main_v53 (cmpi .slt : (⟨S4096x200, .i32⟩ : BufTy).Contents (Elt F) → (⟨S4096x200, .i32⟩ : BufTy).Contents (Elt F) → (⟨S4096x200, .i1⟩ : BufTy).Contents (Elt F)),
    nullary main_c_14 (constantI S_ 32 1000#32),
    unary main_c_14 main_v54 (broadcastInDim S4096x200 ![] bcast_S_S4096x200 : (⟨S_, .i32⟩ : BufTy).Contents (Elt F) → (⟨S4096x200, .i32⟩ : BufTy).Contents (Elt F)),
    binary main_arg4 main_v54 main_v55 (addi : (⟨S4096x200, .i32⟩ : BufTy).Contents (Elt F) → (⟨S4096x200, .i32⟩ : BufTy).Contents (Elt F) → (⟨S4096x200, .i32⟩ : BufTy).Contents (Elt F)),
    ternary main_v53 main_v55 main_arg4 main_v56 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_v56 main_v57 (broadcastInDim S4096x200x1 ![0, 1] bcast_S4096x200_S4096x200x1_0_1 : (⟨S4096x200, .i32⟩ : BufTy).Contents (Elt F) → (⟨S4096x200x1, .i32⟩ : BufTy).Contents (Elt F)),
    binary main_arg12 main_v57 main_v58 ((fun x i => Host.gather gather_S1000x16_S4096x200x1_S4096x200x16_2_0_n_n_0_2_116 x i) : (⟨S1000x16, .f32⟩ : BufTy).Contents (Elt F) → (⟨S4096x200x1, .i32⟩ : BufTy).Contents (Elt F) → (⟨S4096x200x16, .f32⟩ : BufTy).Contents (Elt F)),
    unary main_v37 main_v59 ((extractStridedSlice S4096x128 ![0, 0] · slices_S4096x160_S4096x128_0_0) : (⟨S4096x160, .f32⟩ : BufTy).Contents (Elt F) → (⟨S4096x128, .f32⟩ : BufTy).Contents (Elt F)),
    reshape main_v59 main_v60 rfl shapeCasts_S4096x128_S4096x16x8,
    unary main_v37 main_v61 ((extractStridedSlice S4096x32 ![0, 128] · slices_S4096x160_S4096x32_0_128) : (⟨S4096x160, .f32⟩ : BufTy).Contents (Elt F) → (⟨S4096x32, .f32⟩ : BufTy).Contents (Elt F)),
    reshape main_v61 main_v62 rfl shapeCasts_S4096x32_S4096x8x4,
    binary main_v51 main_v60 main_v63 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v63 main_v64 (Host.tanh : (⟨S4096x200x8, .f32⟩ : BufTy).Contents (Elt F) → (⟨S4096x200x8, .f32⟩ : BufTy).Contents (Elt F)),
    binary main_v64 main_v62 main_v65 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    binary main_v51 main_v51 main_v66 (mulf : (⟨S4096x200x16, .f32⟩ : BufTy).Contents (Elt F) → (⟨S4096x200x16, .f32⟩ : BufTy).Contents (Elt F) → (⟨S4096x200x16, .f32⟩ : BufTy).Contents (Elt F)),
    binary main_v66 main_v60 main_v67 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v67 main_v68 (Host.tanh : (⟨S4096x200x8, .f32⟩ : BufTy).Contents (Elt F) → (⟨S4096x200x8, .f32⟩ : BufTy).Contents (Elt F)),
    binary main_v68 main_v62 main_v69 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    binary main_v51 main_v51 main_v70 (mulf : (⟨S4096x200x16, .f32⟩ : BufTy).Contents (Elt F) → (⟨S4096x200x16, .f32⟩ : BufTy).Contents (Elt F) → (⟨S4096x200x16, .f32⟩ : BufTy).Contents (Elt F)),
    binary main_v70 main_v51 main_v71 (mulf : (⟨S4096x200x16, .f32⟩ : BufTy).Contents (Elt F) → (⟨S4096x200x16, .f32⟩ : BufTy).Contents (Elt F) → (⟨S4096x200x16, .f32⟩ : BufTy).Contents (Elt F)),
    binary main_v71 main_v60 main_v72 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v72 main_v73 (Host.tanh : (⟨S4096x200x8, .f32⟩ : BufTy).Contents (Elt F) → (⟨S4096x200x8, .f32⟩ : BufTy).Contents (Elt F)),
    binary main_v73 main_v62 main_v74 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    nary ![main_v64, main_v65, main_v68, main_v69, main_v73, main_v74] main_v75 (fun u => concatenate S4096x200x36 2 [⟨S4096x200x8, u 0⟩, ⟨S4096x200x4, u 1⟩, ⟨S4096x200x8, u 2⟩, ⟨S4096x200x4, u 3⟩, ⟨S4096x200x8, u 4⟩, ⟨S4096x200x4, u 5⟩] concatenates_S4096x200x8_S4096x200x4_S4096x200x8_S4096x200x4_S4096x200x8_S4096x200x4_S4096x200x36_d2),
    unary main_arg5 main_v76 (broadcastInDim S4096x200x1 ![0, 1] bcast_S4096x200_S4096x200x1_0_1 : (⟨S4096x200, .f32⟩ : BufTy).Contents (Elt F) → (⟨S4096x200x1, .f32⟩ : BufTy).Contents (Elt F)),
    unary main_v76 main_v77 (broadcastInDim S4096x200x36 ![0, 1, 2] bcast_S4096x200x1_S4096x200x36_0_1_2 : (⟨S4096x200x1, .f32⟩ : BufTy).Contents (Elt F) → (⟨S4096x200x36, .f32⟩ : BufTy).Contents (Elt F)),
    binary main_v75 main_v77 main_v78 (mulf : (⟨S4096x200x36, .f32⟩ : BufTy).Contents (Elt F) → (⟨S4096x200x36, .f32⟩ : BufTy).Contents (Elt F) → (⟨S4096x200x36, .f32⟩ : BufTy).Contents (Elt F)),
    nullary main_cst_15 (constant S_ .f32 0x00000000#32),
    binary main_v78 main_cst_15 main_v79 ((fun x v => Host.reduceAdd x v reducesTo_S4096x200x36_S4096x36_d1 h_S_) : (⟨S4096x200x36, .f32⟩ : BufTy).Contents (Elt F) → (⟨S_, .f32⟩ : BufTy).Contents (Elt F) → (⟨S4096x36, .f32⟩ : BufTy).Contents (Elt F)),
    unary main_v44 main_v80 ((extractStridedSlice S4096x128 ![0, 0] · slices_S4096x160_S4096x128_0_0) : (⟨S4096x160, .f32⟩ : BufTy).Contents (Elt F) → (⟨S4096x128, .f32⟩ : BufTy).Contents (Elt F)),
    reshape main_v80 main_v81 rfl shapeCasts_S4096x128_S4096x16x8,
    unary main_v44 main_v82 ((extractStridedSlice S4096x32 ![0, 128] · slices_S4096x160_S4096x32_0_128) : (⟨S4096x160, .f32⟩ : BufTy).Contents (Elt F) → (⟨S4096x32, .f32⟩ : BufTy).Contents (Elt F)),
    reshape main_v82 main_v83 rfl shapeCasts_S4096x32_S4096x8x4,
    binary main_v58 main_v81 main_v84 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v84 main_v85 (Host.tanh : (⟨S4096x200x8, .f32⟩ : BufTy).Contents (Elt F) → (⟨S4096x200x8, .f32⟩ : BufTy).Contents (Elt F)),
    binary main_v85 main_v83 main_v86 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    binary main_v58 main_v58 main_v87 (mulf : (⟨S4096x200x16, .f32⟩ : BufTy).Contents (Elt F) → (⟨S4096x200x16, .f32⟩ : BufTy).Contents (Elt F) → (⟨S4096x200x16, .f32⟩ : BufTy).Contents (Elt F)),
    binary main_v87 main_v81 main_v88 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v88 main_v89 (Host.tanh : (⟨S4096x200x8, .f32⟩ : BufTy).Contents (Elt F) → (⟨S4096x200x8, .f32⟩ : BufTy).Contents (Elt F)),
    binary main_v89 main_v83 main_v90 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    binary main_v58 main_v58 main_v91 (mulf : (⟨S4096x200x16, .f32⟩ : BufTy).Contents (Elt F) → (⟨S4096x200x16, .f32⟩ : BufTy).Contents (Elt F) → (⟨S4096x200x16, .f32⟩ : BufTy).Contents (Elt F)),
    binary main_v91 main_v58 main_v92 (mulf : (⟨S4096x200x16, .f32⟩ : BufTy).Contents (Elt F) → (⟨S4096x200x16, .f32⟩ : BufTy).Contents (Elt F) → (⟨S4096x200x16, .f32⟩ : BufTy).Contents (Elt F)),
    binary main_v92 main_v81 main_v93 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v93 main_v94 (Host.tanh : (⟨S4096x200x8, .f32⟩ : BufTy).Contents (Elt F) → (⟨S4096x200x8, .f32⟩ : BufTy).Contents (Elt F)),
    binary main_v94 main_v83 main_v95 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    nary ![main_v85, main_v86, main_v89, main_v90, main_v94, main_v95] main_v96 (fun u => concatenate S4096x200x36 2 [⟨S4096x200x8, u 0⟩, ⟨S4096x200x4, u 1⟩, ⟨S4096x200x8, u 2⟩, ⟨S4096x200x4, u 3⟩, ⟨S4096x200x8, u 4⟩, ⟨S4096x200x4, u 5⟩] concatenates_S4096x200x8_S4096x200x4_S4096x200x8_S4096x200x4_S4096x200x8_S4096x200x4_S4096x200x36_d2),
    unary main_arg5 main_v97 (broadcastInDim S4096x200x1 ![0, 1] bcast_S4096x200_S4096x200x1_0_1 : (⟨S4096x200, .f32⟩ : BufTy).Contents (Elt F) → (⟨S4096x200x1, .f32⟩ : BufTy).Contents (Elt F)),
    unary main_v97 main_v98 (broadcastInDim S4096x200x36 ![0, 1, 2] bcast_S4096x200x1_S4096x200x36_0_1_2 : (⟨S4096x200x1, .f32⟩ : BufTy).Contents (Elt F) → (⟨S4096x200x36, .f32⟩ : BufTy).Contents (Elt F)),
    binary main_v96 main_v98 main_v99 (mulf : (⟨S4096x200x36, .f32⟩ : BufTy).Contents (Elt F) → (⟨S4096x200x36, .f32⟩ : BufTy).Contents (Elt F) → (⟨S4096x200x36, .f32⟩ : BufTy).Contents (Elt F)),
    nullary main_cst_16 (constant S_ .f32 0x00000000#32),
    binary main_v99 main_cst_16 main_v100 ((fun x v => Host.reduceAdd x v reducesTo_S4096x200x36_S4096x36_d1 h_S_) : (⟨S4096x200x36, .f32⟩ : BufTy).Contents (Elt F) → (⟨S_, .f32⟩ : BufTy).Contents (Elt F) → (⟨S4096x36, .f32⟩ : BufTy).Contents (Elt F)),
    binary main_v79 main_v100 main_v101 ((fun a b => concatenate S4096x72 1 [⟨S4096x36, a⟩, ⟨S4096x36, b⟩] concatenates_S4096x36_S4096x36_S4096x72_d1) : (⟨S4096x36, .f32⟩ : BufTy).Contents (Elt F) → (⟨S4096x36, .f32⟩ : BufTy).Contents (Elt F) → (⟨S4096x72, .f32⟩ : BufTy).Contents (Elt F)),
    nary ![main_v28, main_v30, main_v101] main_v102 (fun u => concatenate S4096x328 1 [⟨S4096x128, u 0⟩, ⟨S4096x128, u 1⟩, ⟨S4096x72, u 2⟩] concatenates_S4096x128_S4096x128_S4096x72_S4096x328_d1) ]

/-- All but the last operation: everything up to the three column groups the result is joined from. -/
def opsHead : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg1 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 100000#32),
    unary main_c_0 main_v2 (broadcastInDim S4096 ![] bcast_S_S4096 : (⟨S_, .i32⟩ : BufTy).Contents (Elt F) → (⟨S4096, .i32⟩ : BufTy).Contents (Elt F)),
    binary main_arg1 main_v2 main_v3 (addi : (⟨S4096, .i32⟩ : BufTy).Contents (Elt F) → (⟨S4096, .i32⟩ : BufTy).Contents (Elt F) → (⟨S4096, .i32⟩ : BufTy).Contents (Elt F)),
    ternary main_v1 main_v3 main_arg1 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    binary main_arg7 main_v5 main_v6 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg2 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 1000#32),
    unary main_c_2 main_v9 (broadcastInDim S4096 ![] bcast_S_S4096 : (⟨S_, .i32⟩ : BufTy).Contents (Elt F) → (⟨S4096, .i32⟩ : BufTy).Contents (Elt F)),
    binary main_arg2 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg2 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    binary main_arg8 main_v12 main_v13 ((fun x i => Host.gather gather_S1000x64_S4096x1_S4096x64_1_0_n_n_0_1_164 x i) : (⟨S1000x64, .f32⟩ : BufTy).Contents (Elt F) → (⟨S4096x1, .i32⟩ : BufTy).Contents (Elt F) → (⟨S4096x64, .f32⟩ : BufTy).Contents (Elt F)),
    nullary main_c_3 (constantI S_ 32 0#32),
    unary main_c_3 main_v14 (broadcastInDim S4096x200 ![] bcast_S_S4096x200 : (⟨S_, .i32⟩ : BufTy).Contents (Elt F) → (⟨S4096x200, .i32⟩ : BufTy).Contents (Elt F)),
    binary main_arg3 main_v14 main_v15 (cmpi .slt : (⟨S4096x200, .i32⟩ : BufTy).Contents (Elt F) → (⟨S4096x200, .i32⟩ : BufTy).Contents (Elt F) → (⟨S4096x200, .i1⟩ : BufTy).Contents (Elt F)),
    nullary main_c_4 (constantI S_ 32 100000#32),
    unary main_c_4 main_v16 (broadcastInDim S4096x200 ![] bcast_S_S4096x200 : (⟨S_, .i32⟩ : BufTy).Contents (Elt F) → (⟨S4096x200, .i32⟩ : BufTy).Contents (Elt F)),
    binary main_arg3 main_v16 main_v17 (addi : (⟨S4096x200, .i32⟩ : BufTy).Contents (Elt F) → (⟨S4096x200, .i32⟩ : BufTy).Contents (Elt F) → (⟨S4096x200, .i32⟩ : BufTy).Contents (Elt F)),
    ternary main_v15 main_v17 main_arg3 main_v18 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_v18 main_v19 (broadcastInDim S4096x200x1 ![0, 1] bcast_S4096x200_S4096x200x1_0_1 : (⟨S4096x200, .i32⟩ : BufTy).Contents (Elt F) → (⟨S4096x200x1, .i32⟩ : BufTy).Contents (Elt F)),
    binary main_arg7 main_v19 main_v20 ((fun x i => Host.gather gather_S100000x64_S4096x200x1_S4096x200x64_2_0_n_n_0_2_164 x i) : (⟨S100000x64, .f32⟩ : BufTy).Contents (Elt F) → (⟨S4096x200x1, .i32⟩ : BufTy).Contents (Elt F) → (⟨S4096x200x64, .f32⟩ : BufTy).Contents (Elt F)),
    nullary main_c_5 (constantI S_ 32 0#32),
    unary main_c_5 main_v21 (broadcastInDim S4096x200 ![] bcast_S_S4096x200 : (⟨S_, .i32⟩ : BufTy).Contents (Elt F) → (⟨S4096x200, .i32⟩ : BufTy).Contents (Elt F)),
    binary main_arg4 main_v21 main_v22 (cmpi .slt : (⟨S4096x200, .i32⟩ : BufTy).Contents (Elt F) → (⟨S4096x200, .i32⟩ : BufTy).Contents (Elt F) → (⟨S4096x200, .i1⟩ : BufTy).Contents (Elt F)),
    nullary main_c_6 (constantI S_ 32 1000#32),
    unary main_c_6 main_v23 (broadcastInDim S4096x200 ![] bcast_S_S4096x200 : (⟨S_, .i32⟩ : BufTy).Contents (Elt F) → (⟨S4096x200, .i32⟩ : BufTy).Contents (Elt F)),
    binary main_arg4 main_v23 main_v24 (addi : (⟨S4096x200, .i32⟩ : BufTy).Contents (Elt F) → (⟨S4096x200, .i32⟩ : BufTy).Contents (Elt F) → (⟨S4096x200, .i32⟩ : BufTy).Contents (Elt F)),
    ternary main_v22 main_v24 main_arg4 main_v25 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_v25 main_v26 (broadcastInDim S4096x200x1 ![0, 1] bcast_S4096x200_S4096x200x1_0_1 : (⟨S4096x200, .i32⟩ : BufTy).Contents (Elt F) → (⟨S4096x200x1, .i32⟩ : BufTy).Contents (Elt F)),
    binary main_arg8 main_v26 main_v27 ((fun x i => Host.gather gather_S1000x64_S4096x200x1_S4096x200x64_2_0_n_n_0_2_164 x i) : (⟨S1000x64, .f32⟩ : BufTy).Contents (Elt F) → (⟨S4096x200x1, .i32⟩ : BufTy).Contents (Elt F) → (⟨S4096x200x64, .f32⟩ : BufTy).Contents (Elt F)),
    binary main_v6 main_v13 main_v28 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)),
    binary main_v20 main_v27 main_v29 ((fun a b => concatenate S4096x200x128 2 [⟨S4096x200x64, a⟩, ⟨S4096x200x64, b⟩] concatenates_S4096x200x64_S4096x200x64_S4096x200x128_d2) : (⟨S4096x200x64, .f32⟩ : BufTy).Contents (Elt F) → (⟨S4096x200x64, .f32⟩ : BufTy).Contents (Elt F) → (⟨S4096x200x128, .f32⟩ : BufTy).Contents (Elt F)),
    nullary main_cst (constant S_ .f32 0x00000000#32),
    binary main_v29 main_cst main_v30 ((fun x v => Host.reduceAdd x v reducesTo_S4096x200x128_S4096x128_d1 h_S_) : (⟨S4096x200x128, .f32⟩ : BufTy).Contents (Elt F) → (⟨S_, .f32⟩ : BufTy).Contents (Elt F) → (⟨S4096x128, .f32⟩ : BufTy).Contents (Elt F)),
    nullary main_c_7 (constantI S_ 32 0#32),
    unary main_c_7 main_v31 (broadcastInDim S4096 ![] bcast_S_S4096 : (⟨S_, .i32⟩ : BufTy).Contents (Elt F) → (⟨S4096, .i32⟩ : BufTy).Contents (Elt F)),
    binary main_arg1 main_v31 main_v32 (cmpi .slt : (⟨S4096, .i32⟩ : BufTy).Contents (Elt F) → (⟨S4096, .i32⟩ : BufTy).Contents (Elt F) → (⟨S4096, .i1⟩ : BufTy).Contents (Elt F)),
    nullary main_c_8 (constantI S_ 32 100000#32),
    unary main_c_8 main_v33 (broadcastInDim S4096 ![] bcast_S_S4096 : (⟨S_, .i32⟩ : BufTy).Contents (Elt F) → (⟨S4096, .i32⟩ : BufTy).Contents (Elt F)),
    binary main_arg1 main_v33 main_v34 (addi : (⟨S4096, .i32⟩ : BufTy).Contents (Elt F) → (⟨S4096, .i32⟩ : BufTy).Contents (Elt F) → (⟨S4096, .i32⟩ : BufTy).Contents (Elt F)),
    ternary main_v32 main_v34 main_arg1 main_v35 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v35 main_v36 (broadcastInDim S4096x1 ![0] bcast_S4096_S4096x1_0 : (⟨S4096, .i32⟩ : BufTy).Contents (Elt F) → (⟨S4096x1, .i32⟩ : BufTy).Contents (Elt F)),
    binary main_arg9 main_v36 main_v37 ((fun x i => Host.gather gather_S100000x160_S4096x1_S4096x160_1_0_n_n_0_1_1160 x i) : (⟨S100000x160, .f32⟩ : BufTy).Contents (Elt F) → (⟨S4096x1, .i32⟩ : BufTy).Contents (Elt F) → (⟨S4096x160, .f32⟩ : BufTy).Contents (Elt F)),
    nullary main_c_9 (constantI S_ 32 0#32),
    unary main_c_9 main_v38 (broadcastInDim S4096 ![] bcast_S_S4096 : (⟨S_, .i32⟩ : BufTy).Contents (Elt F) → (⟨S4096, .i32⟩ : BufTy).Contents (Elt F)),
    binary main_arg2 main_v38 main_v39 (cmpi .slt : (⟨S4096, .i32⟩ : BufTy).Contents (Elt F) → (⟨S4096, .i32⟩ : BufTy).Contents (Elt F) → (⟨S4096, .i1⟩ : BufTy).Contents (Elt F)),
    nullary main_c_10 (constantI S_ 32 1000#32),
    unary main_c_10 main_v40 (broadcastInDim S4096 ![] bcast_S_S4096 : (⟨S_, .i32⟩ : BufTy).Contents (Elt F) → (⟨S4096, .i32⟩ : BufTy).Contents (Elt F)),
    binary main_arg2 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_arg2 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v42 main_v43 (broadcastInDim S4096x1 ![0] bcast_S4096_S4096x1_0 : (⟨S4096, .i32⟩ : BufTy).Contents (Elt F) → (⟨S4096x1, .i32⟩ : BufTy).Contents (Elt F)),
    binary main_arg10 main_v43 main_v44 ((fun x i => Host.gather gather_S1000x160_S4096x1_S4096x160_1_0_n_n_0_1_1160 x i) : (⟨S1000x160, .f32⟩ : BufTy).Contents (Elt F) → (⟨S4096x1, .i32⟩ : BufTy).Contents (Elt F) → (⟨S4096x160, .f32⟩ : BufTy).Contents (Elt F)),
    nullary main_c_11 (constantI S_ 32 0#32),
    unary main_c_11 main_v45 (broadcastInDim S4096x200 ![] bcast_S_S4096x200 : (⟨S_, .i32⟩ : BufTy).Contents (Elt F) → (⟨S4096x200, .i32⟩ : BufTy).Contents (Elt F)),
    binary main_arg3 main_v45 main_v46 (cmpi .slt : (⟨S4096x200, .i32⟩ : BufTy).Contents (Elt F) → (⟨S4096x200, .i32⟩ : BufTy).Contents (Elt F) → (⟨S4096x200, .i1⟩ : BufTy).Contents (Elt F)),
    nullary main_c_12 (constantI S_ 32 100000#32),
    unary main_c_12 main_v47 (broadcastInDim S4096x200 ![] bcast_S_S4096x200 : (⟨S_, .i32⟩ : BufTy).Contents (Elt F) → (⟨S4096x200, .i32⟩ : BufTy).Contents (Elt F)),
    binary main_arg3 main_v47 main_v48 (addi : (⟨S4096x200, .i32⟩ : BufTy).Contents (Elt F) → (⟨S4096x200, .i32⟩ : BufTy).Contents (Elt F) → (⟨S4096x200, .i32⟩ : BufTy).Contents (Elt F)),
    ternary main_v46 main_v48 main_arg3 main_v49 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_v49 main_v50 (broadcastInDim S4096x200x1 ![0, 1] bcast_S4096x200_S4096x200x1_0_1 : (⟨S4096x200, .i32⟩ : BufTy).Contents (Elt F) → (⟨S4096x200x1, .i32⟩ : BufTy).Contents (Elt F)),
    binary main_arg11 main_v50 main_v51 ((fun x i => Host.gather gather_S100000x16_S4096x200x1_S4096x200x16_2_0_n_n_0_2_116 x i) : (⟨S100000x16, .f32⟩ : BufTy).Contents (Elt F) → (⟨S4096x200x1, .i32⟩ : BufTy).Contents (Elt F) → (⟨S4096x200x16, .f32⟩ : BufTy).Contents (Elt F)),
    nullary main_c_13 (constantI S_ 32 0#32),
    unary main_c_13 main_v52 (broadcastInDim S4096x200 ![] bcast_S_S4096x200 : (⟨S_, .i32⟩ : BufTy).Contents (Elt F) → (⟨S4096x200, .i32⟩ : BufTy).Contents (Elt F)),
    binary main_arg4 main_v52 main_v53 (cmpi .slt : (⟨S4096x200, .i32⟩ : BufTy).Contents (Elt F) → (⟨S4096x200, .i32⟩ : BufTy).Contents (Elt F) → (⟨S4096x200, .i1⟩ : BufTy).Contents (Elt F)),
    nullary main_c_14 (constantI S_ 32 1000#32),
    unary main_c_14 main_v54 (broadcastInDim S4096x200 ![] bcast_S_S4096x200 : (⟨S_, .i32⟩ : BufTy).Contents (Elt F) → (⟨S4096x200, .i32⟩ : BufTy).Contents (Elt F)),
    binary main_arg4 main_v54 main_v55 (addi : (⟨S4096x200, .i32⟩ : BufTy).Contents (Elt F) → (⟨S4096x200, .i32⟩ : BufTy).Contents (Elt F) → (⟨S4096x200, .i32⟩ : BufTy).Contents (Elt F)),
    ternary main_v53 main_v55 main_arg4 main_v56 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_v56 main_v57 (broadcastInDim S4096x200x1 ![0, 1] bcast_S4096x200_S4096x200x1_0_1 : (⟨S4096x200, .i32⟩ : BufTy).Contents (Elt F) → (⟨S4096x200x1, .i32⟩ : BufTy).Contents (Elt F)),
    binary main_arg12 main_v57 main_v58 ((fun x i => Host.gather gather_S1000x16_S4096x200x1_S4096x200x16_2_0_n_n_0_2_116 x i) : (⟨S1000x16, .f32⟩ : BufTy).Contents (Elt F) → (⟨S4096x200x1, .i32⟩ : BufTy).Contents (Elt F) → (⟨S4096x200x16, .f32⟩ : BufTy).Contents (Elt F)),
    unary main_v37 main_v59 ((extractStridedSlice S4096x128 ![0, 0] · slices_S4096x160_S4096x128_0_0) : (⟨S4096x160, .f32⟩ : BufTy).Contents (Elt F) → (⟨S4096x128, .f32⟩ : BufTy).Contents (Elt F)),
    reshape main_v59 main_v60 rfl shapeCasts_S4096x128_S4096x16x8,
    unary main_v37 main_v61 ((extractStridedSlice S4096x32 ![0, 128] · slices_S4096x160_S4096x32_0_128) : (⟨S4096x160, .f32⟩ : BufTy).Contents (Elt F) → (⟨S4096x32, .f32⟩ : BufTy).Contents (Elt F)),
    reshape main_v61 main_v62 rfl shapeCasts_S4096x32_S4096x8x4,
    binary main_v51 main_v60 main_v63 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v63 main_v64 (Host.tanh : (⟨S4096x200x8, .f32⟩ : BufTy).Contents (Elt F) → (⟨S4096x200x8, .f32⟩ : BufTy).Contents (Elt F)),
    binary main_v64 main_v62 main_v65 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    binary main_v51 main_v51 main_v66 (mulf : (⟨S4096x200x16, .f32⟩ : BufTy).Contents (Elt F) → (⟨S4096x200x16, .f32⟩ : BufTy).Contents (Elt F) → (⟨S4096x200x16, .f32⟩ : BufTy).Contents (Elt F)),
    binary main_v66 main_v60 main_v67 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v67 main_v68 (Host.tanh : (⟨S4096x200x8, .f32⟩ : BufTy).Contents (Elt F) → (⟨S4096x200x8, .f32⟩ : BufTy).Contents (Elt F)),
    binary main_v68 main_v62 main_v69 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    binary main_v51 main_v51 main_v70 (mulf : (⟨S4096x200x16, .f32⟩ : BufTy).Contents (Elt F) → (⟨S4096x200x16, .f32⟩ : BufTy).Contents (Elt F) → (⟨S4096x200x16, .f32⟩ : BufTy).Contents (Elt F)),
    binary main_v70 main_v51 main_v71 (mulf : (⟨S4096x200x16, .f32⟩ : BufTy).Contents (Elt F) → (⟨S4096x200x16, .f32⟩ : BufTy).Contents (Elt F) → (⟨S4096x200x16, .f32⟩ : BufTy).Contents (Elt F)),
    binary main_v71 main_v60 main_v72 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v72 main_v73 (Host.tanh : (⟨S4096x200x8, .f32⟩ : BufTy).Contents (Elt F) → (⟨S4096x200x8, .f32⟩ : BufTy).Contents (Elt F)),
    binary main_v73 main_v62 main_v74 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    nary ![main_v64, main_v65, main_v68, main_v69, main_v73, main_v74] main_v75 (fun u => concatenate S4096x200x36 2 [⟨S4096x200x8, u 0⟩, ⟨S4096x200x4, u 1⟩, ⟨S4096x200x8, u 2⟩, ⟨S4096x200x4, u 3⟩, ⟨S4096x200x8, u 4⟩, ⟨S4096x200x4, u 5⟩] concatenates_S4096x200x8_S4096x200x4_S4096x200x8_S4096x200x4_S4096x200x8_S4096x200x4_S4096x200x36_d2),
    unary main_arg5 main_v76 (broadcastInDim S4096x200x1 ![0, 1] bcast_S4096x200_S4096x200x1_0_1 : (⟨S4096x200, .f32⟩ : BufTy).Contents (Elt F) → (⟨S4096x200x1, .f32⟩ : BufTy).Contents (Elt F)),
    unary main_v76 main_v77 (broadcastInDim S4096x200x36 ![0, 1, 2] bcast_S4096x200x1_S4096x200x36_0_1_2 : (⟨S4096x200x1, .f32⟩ : BufTy).Contents (Elt F) → (⟨S4096x200x36, .f32⟩ : BufTy).Contents (Elt F)),
    binary main_v75 main_v77 main_v78 (mulf : (⟨S4096x200x36, .f32⟩ : BufTy).Contents (Elt F) → (⟨S4096x200x36, .f32⟩ : BufTy).Contents (Elt F) → (⟨S4096x200x36, .f32⟩ : BufTy).Contents (Elt F)),
    nullary main_cst_15 (constant S_ .f32 0x00000000#32),
    binary main_v78 main_cst_15 main_v79 ((fun x v => Host.reduceAdd x v reducesTo_S4096x200x36_S4096x36_d1 h_S_) : (⟨S4096x200x36, .f32⟩ : BufTy).Contents (Elt F) → (⟨S_, .f32⟩ : BufTy).Contents (Elt F) → (⟨S4096x36, .f32⟩ : BufTy).Contents (Elt F)),
    unary main_v44 main_v80 ((extractStridedSlice S4096x128 ![0, 0] · slices_S4096x160_S4096x128_0_0) : (⟨S4096x160, .f32⟩ : BufTy).Contents (Elt F) → (⟨S4096x128, .f32⟩ : BufTy).Contents (Elt F)),
    reshape main_v80 main_v81 rfl shapeCasts_S4096x128_S4096x16x8,
    unary main_v44 main_v82 ((extractStridedSlice S4096x32 ![0, 128] · slices_S4096x160_S4096x32_0_128) : (⟨S4096x160, .f32⟩ : BufTy).Contents (Elt F) → (⟨S4096x32, .f32⟩ : BufTy).Contents (Elt F)),
    reshape main_v82 main_v83 rfl shapeCasts_S4096x32_S4096x8x4,
    binary main_v58 main_v81 main_v84 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v84 main_v85 (Host.tanh : (⟨S4096x200x8, .f32⟩ : BufTy).Contents (Elt F) → (⟨S4096x200x8, .f32⟩ : BufTy).Contents (Elt F)),
    binary main_v85 main_v83 main_v86 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    binary main_v58 main_v58 main_v87 (mulf : (⟨S4096x200x16, .f32⟩ : BufTy).Contents (Elt F) → (⟨S4096x200x16, .f32⟩ : BufTy).Contents (Elt F) → (⟨S4096x200x16, .f32⟩ : BufTy).Contents (Elt F)),
    binary main_v87 main_v81 main_v88 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v88 main_v89 (Host.tanh : (⟨S4096x200x8, .f32⟩ : BufTy).Contents (Elt F) → (⟨S4096x200x8, .f32⟩ : BufTy).Contents (Elt F)),
    binary main_v89 main_v83 main_v90 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    binary main_v58 main_v58 main_v91 (mulf : (⟨S4096x200x16, .f32⟩ : BufTy).Contents (Elt F) → (⟨S4096x200x16, .f32⟩ : BufTy).Contents (Elt F) → (⟨S4096x200x16, .f32⟩ : BufTy).Contents (Elt F)),
    binary main_v91 main_v58 main_v92 (mulf : (⟨S4096x200x16, .f32⟩ : BufTy).Contents (Elt F) → (⟨S4096x200x16, .f32⟩ : BufTy).Contents (Elt F) → (⟨S4096x200x16, .f32⟩ : BufTy).Contents (Elt F)),
    binary main_v92 main_v81 main_v93 ((fun l r => Host.dotGeneral dot_S4096x200x16_S4096x16x8_S4096x200x8_2_1_1_2_0_0 none l r) : (⟨S4096x200x16, .f32⟩ : BufTy).Contents (Elt F) → (⟨S4096x16x8, .f32⟩ : BufTy).Contents (Elt F) → (⟨S4096x200x8, .f32⟩ : BufTy).Contents (Elt F)),
    unary main_v93 main_v94 (Host.tanh : (⟨S4096x200x8, .f32⟩ : BufTy).Contents (Elt F) → (⟨S4096x200x8, .f32⟩ : BufTy).Contents (Elt F)),
    binary main_v94 main_v83 main_v95 ((fun l r => Host.dotGeneral dot_S4096x200x8_S4096x8x4_S4096x200x4_2_1_1_2_0_0 none l r) : (⟨S4096x200x8, .f32⟩ : BufTy).Contents (Elt F) → (⟨S4096x8x4, .f32⟩ : BufTy).Contents (Elt F) → (⟨S4096x200x4, .f32⟩ : BufTy).Contents (Elt F)),
    nary ![main_v85, main_v86, main_v89, main_v90, main_v94, main_v95] main_v96 (fun u => concatenate S4096x200x36 2 [⟨S4096x200x8, u 0⟩, ⟨S4096x200x4, u 1⟩, ⟨S4096x200x8, u 2⟩, ⟨S4096x200x4, u 3⟩, ⟨S4096x200x8, u 4⟩, ⟨S4096x200x4, u 5⟩] concatenates_S4096x200x8_S4096x200x4_S4096x200x8_S4096x200x4_S4096x200x8_S4096x200x4_S4096x200x36_d2),
    unary main_arg5 main_v97 (broadcastInDim S4096x200x1 ![0, 1] bcast_S4096x200_S4096x200x1_0_1 : (⟨S4096x200, .f32⟩ : BufTy).Contents (Elt F) → (⟨S4096x200x1, .f32⟩ : BufTy).Contents (Elt F)),
    unary main_v97 main_v98 (broadcastInDim S4096x200x36 ![0, 1, 2] bcast_S4096x200x1_S4096x200x36_0_1_2 : (⟨S4096x200x1, .f32⟩ : BufTy).Contents (Elt F) → (⟨S4096x200x36, .f32⟩ : BufTy).Contents (Elt F)),
    binary main_v96 main_v98 main_v99 (mulf : (⟨S4096x200x36, .f32⟩ : BufTy).Contents (Elt F) → (⟨S4096x200x36, .f32⟩ : BufTy).Contents (Elt F) → (⟨S4096x200x36, .f32⟩ : BufTy).Contents (Elt F)),
    nullary main_cst_16 (constant S_ .f32 0x00000000#32),
    binary main_v99 main_cst_16 main_v100 ((fun x v => Host.reduceAdd x v reducesTo_S4096x200x36_S4096x36_d1 h_S_) : (⟨S4096x200x36, .f32⟩ : BufTy).Contents (Elt F) → (⟨S_, .f32⟩ : BufTy).Contents (Elt F) → (⟨S4096x36, .f32⟩ : BufTy).Contents (Elt F)),
    binary main_v79 main_v100 main_v101 ((fun a b => concatenate S4096x72 1 [⟨S4096x36, a⟩, ⟨S4096x36, b⟩] concatenates_S4096x36_S4096x36_S4096x72_d1) : (⟨S4096x36, .f32⟩ : BufTy).Contents (Elt F) → (⟨S4096x36, .f32⟩ : BufTy).Contents (Elt F) → (⟨S4096x72, .f32⟩ : BufTy).Contents (Elt F)) ]

/-- The last operation: the three column groups joined. -/
def opsTail : List (HloOp τ sig (Elt F)) :=
  [ nary ![main_v28, main_v30, main_v101] main_v102 (fun u => concatenate S4096x328 1 [⟨S4096x128, u 0⟩, ⟨S4096x128, u 1⟩, ⟨S4096x72, u 2⟩] concatenates_S4096x128_S4096x128_S4096x72_S4096x328_d1) ]

set_option maxRecDepth 8192 in
theorem ops_split : (ops : List (HloOp τ sig (Elt F))) = opsHead ++ opsTail := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., binary_bufs_sub .., unary_bufs_sub .., binary_bufs_sub .., binary_bufs_sub .., binary_bufs_sub .., unary_bufs_sub .., binary_bufs_sub .., binary_bufs_sub .., binary_bufs_sub .., binary_bufs_sub .., unary_bufs_sub .., binary_bufs_sub .., nary_bufs_sub .., unary_bufs_sub .., unary_bufs_sub .., binary_bufs_sub .., nullary_bufs_sub .., binary_bufs_sub .., unary_bufs_sub .., reshape_bufs_sub .., unary_bufs_sub .., reshape_bufs_sub .., binary_bufs_sub .., unary_bufs_sub .., binary_bufs_sub .., binary_bufs_sub .., binary_bufs_sub .., unary_bufs_sub .., binary_bufs_sub .., binary_bufs_sub .., binary_bufs_sub .., binary_bufs_sub .., unary_bufs_sub .., binary_bufs_sub .., nary_bufs_sub .., unary_bufs_sub .., unary_bufs_sub .., binary_bufs_sub .., nullary_bufs_sub .., binary_bufs_sub .., binary_bufs_sub .., nary_bufs_sub ..⟩

end Cert.ReferenceIdeal.RefRun

end
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.Spec.lean ====
/-
  The co-action unit of one sample, as plain formulas on the extended reals.

  One sample has a weight row `a` of 160 numbers — the first 128 read as a 16×8 matrix `w0` (entry (i,o) at position
  8·i+o), the last 32 as an 8×4 matrix `w1` (entry (i,o) at 128+4·i+o) —, a history `h` of 200 steps of 16 features, and a
  mask `mk` of 200 weights. For each of the three orders p the features are raised to the power p+1, sent through `w0`
  and tanh to 8 hidden units per step, and the hidden units through `w1` to 4 outputs per step; every one of these 12
  numbers per step is weighted by the step's mask and summed over the steps. The result row has 36 entries: for each
  order, the 8 masked sums of hidden units and then the 4 masked sums of outputs.

  Two spellings of the 4 outputs are stated. In the first the hidden units are summed over the steps FIRST and the sums
  are sent through `w1`; in the second every step is sent through `w1` and the outputs are summed. They agree when the
  weights and the mask are real numbers (tanh is always one): then every term is real and the two double sums are one
  sum in two orders. With an infinite weight or mask they need not agree — a product does not distribute over a sum
  that holds +∞ and -∞ terms.
-/
import Idealize.ShloMosaic.PureOps.Ideal
import Idealize.ShloMosaic.Lib.ValueIdx
import proofs.«158401_j37486474559594_2_alg».proof.Proof.LibRealEntries

noncomputable section

namespace Cert.Coaction

open Idealize.ShloMosaic Cert.Algebra

/-- x, x·x and (x·x)·x, as both programs multiply them. -/
def pw (p : Fin 3) (x : EReal) : EReal :=
  match p with
  | ⟨0, _⟩ => x
  | ⟨1, _⟩ => x * x
  | ⟨2, _⟩ => (x * x) * x

/-- Entry (i, o) of the 16×8 first-layer matrix in a weight row. -/
def w0 (a : Fin 160 → EReal) (i : Fin 16) (o : Fin 8) : EReal :=
  a ⟨8 * i.val + o.val, by have := i.isLt; have := o.isLt; omega⟩

/-- Entry (i, o) of the 8×4 second-layer matrix in a weight row. -/
def w1 (a : Fin 160 → EReal) (i : Fin 8) (o : Fin 4) : EReal :=
  a ⟨128 + 4 * i.val + o.val, by have := i.isLt; have := o.isLt; omega⟩

/-- Hidden unit o at step t of order p, the features on the left of each product. -/
def hidR (a : Fin 160 → EReal) (h : Fin 200 → Fin 16 → EReal) (p : Fin 3) (t : Fin 200) (o : Fin 8) : EReal :=
  Ideal.tanh (∑ i : Fin 16, pw p (h t i) * w0 a i o)

/-- The same with the weights on the left of each product. -/
def hidK (a : Fin 160 → EReal) (h : Fin 200 → Fin 16 → EReal) (p : Fin 3) (t : Fin 200) (o : Fin 8) : EReal :=
  Ideal.tanh (∑ i : Fin 16, w0 a i o * pw p (h t i))

theorem hidK_eq_hidR (a : Fin 160 → EReal) (h : Fin 200 → Fin 16 → EReal) (p : Fin 3) (t : Fin 200) (o : Fin 8) :
    hidK a h p t o = hidR a h p t o := by
  unfold hidK hidR
  exact congrArg Ideal.tanh (Finset.sum_congr rfl fun i _ => mul_comm _ _)

/-- tanh of an extended real is a real number. -/
theorem isReal_tanh (x : EReal) : IsReal (Ideal.tanh x) := by
  induction x using EReal.rec with
  | bot => exact ⟨-1, by simp⟩
  | coe r => exact ⟨Real.tanh r, rfl⟩
  | top => exact ⟨1, by simp⟩

/-- The masked sum over the steps of hidden unit o. -/
def s0R (a : Fin 160 → EReal) (h : Fin 200 → Fin 16 → EReal) (mk : Fin 200 → EReal) (p : Fin 3) (o : Fin 8) : EReal :=
  ∑ t : Fin 200, hidR a h p t o * mk t

def s0K (a : Fin 160 → EReal) (h : Fin 200 → Fin 16 → EReal) (mk : Fin 200 → EReal) (p : Fin 3) (o : Fin 8) : EReal :=
  ∑ t : Fin 200, hidK a h p t o * mk t

theorem s0K_eq_s0R (a : Fin 160 → EReal) (h : Fin 200 → Fin 16 → EReal) (mk : Fin 200 → EReal) (p : Fin 3) (o : Fin 8) :
    s0K a h mk p o = s0R a h mk p o := by
  unfold s0K s0R
  exact Finset.sum_congr rfl fun t _ => by rw [hidK_eq_hidR]

/-- Output o, every step sent through the second layer and the masked outputs summed. -/
def s1R (a : Fin 160 → EReal) (h : Fin 200 → Fin 16 → EReal) (mk : Fin 200 → EReal) (p : Fin 3) (o : Fin 4) : EReal :=
  ∑ t : Fin 200, (∑ i : Fin 8, hidR a h p t i * w1 a i o) * mk t

/-- Output o, the masked sums of the hidden units sent through the second layer. -/
def s1K (a : Fin 160 → EReal) (h : Fin 200 → Fin 16 → EReal) (mk : Fin 200 → EReal) (p : Fin 3) (o : Fin 4) : EReal :=
  ∑ i : Fin 8, s0K a h mk p i * w1 a i o

/-- For real weights and a real mask the two spellings of an output agree: all terms are real, and in the reals
    Σ_i (Σ_t T t i · M t) · W i = Σ_t (Σ_i T t i · W i) · M t. -/
theorem s1K_eq_s1R (a : Fin 160 → EReal) (h : Fin 200 → Fin 16 → EReal) (mk : Fin 200 → EReal)
    (ha : ∀ k, IsReal (a k)) (hm : ∀ t, IsReal (mk t)) (p : Fin 3) (o : Fin 4) :
    s1K a h mk p o = s1R a h mk p o := by
  choose T hT using fun t i => isReal_tanh (∑ j : Fin 16, pw p (h t j) * w0 a j i)
  choose M hM using hm
  choose W hW using fun i : Fin 8 => ha ⟨128 + 4 * i.val + o.val, by have := i.isLt; have := o.isLt; omega⟩
  have e1 : ∀ t i, hidR a h p t i = (T t i : EReal) := fun t i => hT t i
  have e2 : ∀ i, w1 a i o = (W i : EReal) := fun i => hW i
  unfold s1K s1R
  simp only [s0K_eq_s0R]
  unfold s0R
  simp only [e1, e2, hM, ← EReal.coe_mul, ← coe_sum]
  congr 1
  simp only [Finset.sum_mul]
  rw [Finset.sum_comm]
  exact Finset.sum_congr rfl fun t _ => Finset.sum_congr rfl fun i _ => by ring

/-- The 36 entries of a result row from the masked sums: for each order, 8 hidden sums then 4 output sums. -/
def row36 (S0 : Fin 3 → Fin 8 → EReal) (S1 : Fin 3 → Fin 4 → EReal) (q : Fin 36) : EReal :=
  if hq : q.val % 12 < 8 then S0 ⟨q.val / 12, by have := q.isLt; omega⟩ ⟨q.val % 12, hq⟩
  else S1 ⟨q.val / 12, by have := q.isLt; omega⟩ ⟨q.val % 12 - 8, by omega⟩

/-- The result row, outputs summed after the second layer. -/
def caR (a : Fin 160 → EReal) (h : Fin 200 → Fin 16 → EReal) (mk : Fin 200 → EReal) : Fin 36 → EReal :=
  row36 (s0R a h mk) (s1R a h mk)

/-- The result row, hidden units summed before the second layer. -/
def caK (a : Fin 160 → EReal) (h : Fin 200 → Fin 16 → EReal) (mk : Fin 200 → EReal) : Fin 36 → EReal :=
  row36 (s0K a h mk) (s1K a h mk)

theorem caK_eq_caR (a : Fin 160 → EReal) (h : Fin 200 → Fin 16 → EReal) (mk : Fin 200 → EReal)
    (ha : ∀ k, IsReal (a k)) (hm : ∀ t, IsReal (mk t)) : caK a h mk = caR a h mk := by
  funext q
  unfold caK caR row36
  split
  · exact s0K_eq_s0R a h mk _ _
  · exact s1K_eq_s1R a h mk ha hm _ _

/-! ## Rows of the arrays -/

/-- Row b of a [4096,160] weight array. -/
def rowA (ad : (⟨2, ![4096, 160]⟩ : Shape).Idx → EReal) (b : Fin 4096) : Fin 160 → EReal :=
  fun k => ad (ValueIdx.ix2 b k)

/-- Sample b of a [4096,200,16] history array: step t, feature i. -/
def rowH (his : (⟨3, ![4096, 200, 16]⟩ : Shape).Idx → EReal) (b : Fin 4096) : Fin 200 → Fin 16 → EReal :=
  fun t i => his (ValueIdx.ix3 b t i)

/-- Row b of a [4096,200] mask. -/
def rowM (mask : (⟨2, ![4096, 200]⟩ : Shape).Idx → EReal) (b : Fin 4096) : Fin 200 → EReal :=
  fun t => mask (ValueIdx.ix2 b t)

end Cert.Coaction

end
-- ==== Proof.LibAxisLayout.lean ====
/-
  Arrays of three axes re-laid, each operation read at an index given by its coordinates.

  * two leading axes merged or split: an [A,B,m] array viewed as [N,m] with N = A·B has, in row b·B+t and column j,
    the entry (b,t,j); and back;
  * a unit axis added or dropped: [N,m] ↔ [N,1,m] and [A,B] → [A,B,1];
  * a broadcast between arrays of three axes: each coordinate is kept, or is 0 where the operand's axis has extent one;
  * a sum along the last or the middle axis as a finite sum over that coordinate;
  * a concatenation along the last axis of arrays of three axes, and along the rows of matrices, read in a chosen piece.
-/
import Idealize.ShloMosaic.Lib.Pipeline.Value
import Idealize.ShloMosaic.Lib.ValueIdx
import Idealize.ShloMosaic.PureOps.Ideal.Laws

noncomputable section

open scoped BigOperators

namespace Idealize.ShloMosaic.AxisLayout

open Idealize.ShloMosaic Idealize.ShloMosaic.ValueIdx

variable {α : Type}

/-! ## Two leading axes merged or split -/

/-- An [A,B,m] array viewed as [N,m]: row `b·B+t`, column `j` is the entry (b,t,j). -/
theorem cast_merge_apply {A B N m : ℕ} (x : (⟨3, ![A, B, m]⟩ : Shape).Idx → α)
    (h : (⟨3, ![A, B, m]⟩ : Shape).ShapeCasts ⟨2, ![N, m]⟩) (b : Fin A) (t : Fin B) (j : Fin m) (r : Fin N)
    (hr : r.val = b.val * B + t.val) :
    shapeCast ⟨2, ![N, m]⟩ x h (ix2 r j) = x (ix3 b t j) :=
  shapeCast_apply x h _ _ (by
    rw [Shape.rowMajor_val_three, Shape.rowMajor_val_two]
    show (b.val * B + t.val) * m + j.val = r.val * m + j.val
    rw [hr])

/-- An [N,m] array viewed as [A,B,m]: the entry (b,t,j) is row `b·B+t`, column `j`. -/
theorem cast_split_apply {A B N m : ℕ} (x : (⟨2, ![N, m]⟩ : Shape).Idx → α)
    (h : (⟨2, ![N, m]⟩ : Shape).ShapeCasts ⟨3, ![A, B, m]⟩) (b : Fin A) (t : Fin B) (j : Fin m) (r : Fin N)
    (hr : r.val = b.val * B + t.val) :
    shapeCast ⟨3, ![A, B, m]⟩ x h (ix3 b t j) = x (ix2 r j) :=
  shapeCast_apply x h _ _ (by
    rw [Shape.rowMajor_val_three, Shape.rowMajor_val_two]
    show r.val * m + j.val = (b.val * B + t.val) * m + j.val
    rw [hr])

/-! ## A unit axis added or dropped -/

/-- An [N,m] array viewed as [N,1,m]. -/
theorem cast_addMid_apply {N m : ℕ} (x : (⟨2, ![N, m]⟩ : Shape).Idx → α)
    (h : (⟨2, ![N, m]⟩ : Shape).ShapeCasts ⟨3, ![N, 1, m]⟩) (r : Fin N) (z : Fin 1) (j : Fin m) :
    shapeCast ⟨3, ![N, 1, m]⟩ x h (ix3 r z j) = x (ix2 r j) :=
  shapeCast_apply x h _ _ (by
    rw [Shape.rowMajor_val_three, Shape.rowMajor_val_two]
    show r.val * m + j.val = (r.val * 1 + z.val) * m + j.val
    have hz : z.val = 0 := by omega
    rw [hz, Nat.mul_one, Nat.add_zero])

/-- An [N,1,m] array viewed as [N,m]. -/
theorem cast_dropMid_apply {N m : ℕ} (x : (⟨3, ![N, 1, m]⟩ : Shape).Idx → α)
    (h : (⟨3, ![N, 1, m]⟩ : Shape).ShapeCasts ⟨2, ![N, m]⟩) (r : Fin N) (z : Fin 1) (j : Fin m) :
    shapeCast ⟨2, ![N, m]⟩ x h (ix2 r j) = x (ix3 r z j) :=
  shapeCast_apply x h _ _ (by
    rw [Shape.rowMajor_val_three, Shape.rowMajor_val_two]
    show (r.val * 1 + z.val) * m + j.val = r.val * m + j.val
    have hz : z.val = 0 := by omega
    rw [hz, Nat.mul_one, Nat.add_zero])

/-- An [A,B] array viewed as [A,B,1]. -/
theorem cast_addLast_apply {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    rw [Shape.rowMajor_val_three, Shape.rowMajor_val_two]
    show a.val * B + b.val = (a.val * B + b.val) * 1 + z.val
    have hz : z.val = 0 := by omega
    rw [hz, Nat.mul_one, Nat.add_zero])

/-! ## A broadcast between arrays of three axes -/

/-- A broadcast of an [a0,a1,a2] array to [b0,b1,b2], read at (j0,j1,j2): the operand at the coordinates that are
    `j`'s where the operand's axis is not of extent one, and 0 where it is. -/
theorem bcast3_apply {a0 a1 a2 b0 b1 b2 : ℕ} (x : (⟨3, ![a0, a1, a2]⟩ : Shape).Idx → α)
    (h : (⟨3, ![a0, a1, a2]⟩ : Shape).Broadcasts ⟨3, ![b0, b1, b2]⟩)
    (j0 : Fin b0) (j1 : Fin b1) (j2 : Fin b2) (k0 : Fin a0) (k1 : Fin a1) (k2 : Fin a2)
    (h0 : k0.val = if a0 = 1 then 0 else j0.val) (h1 : k1.val = if a1 = 1 then 0 else j1.val)
    (h2 : k2.val = if a2 = 1 then 0 else j2.val) :
    broadcastTo ⟨3, ![b0, b1, b2]⟩ x h (ix3 j0 j1 j2) = x (ix3 k0 k1 k2) :=
  broadcastTo_apply x h _ _ (fun a => by
    match a with
    | ⟨0, _⟩ => exact h0
    | ⟨1, _⟩ => exact h1
    | ⟨2, _⟩ => exact h2)

/-! ## A sum along one axis -/

/-- The reduced index (a,b) with the last coordinate `k` put back is (a,b,k). -/
theorem lift_last {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c; apply Fin.ext
  fin_cases c <;> rfl

/-- The reduced index (a,e) with the middle coordinate `k` put back is (a,k,e). -/
theorem lift_mid {A B m : ℕ} (h : (⟨3, ![A, B, m]⟩ : Shape).Reduces [1] (⟨2, ![A, m]⟩ : Shape)) (a : Fin A) (e : Fin m)
    (k : Fin ((⟨3, ![A, B, m]⟩ : Shape).size 1)) : h.lift (ix2 a e) k = ix3 a (⟨k.val, k.isLt⟩ : Fin B) e := by
  funext c; apply Fin.ext
  fin_cases c <;> rfl

/-- A sum along the last axis of an [A,B,m] array, at (a,b): the sum over `k` of the entries (a,b,k). -/
theorem sum_last_apply {A B m : ℕ} {φ : FTy} (x : FVec Ideal (⟨3, ![A, B, m]⟩ : Shape) φ) (acc : BitVec φ.bits)
    (h : (⟨3, ![A, B, m]⟩ : Shape).Reduces [2] (⟨2, ![A, B]⟩ : Shape)) (hφ : FKind.Formats φ) (hacc : acc = FKind.add.neutral φ hφ)
    (a : Fin A) (b : Fin B) :
    multiReduction .add [2] (⟨2, ![A, B]⟩ : Shape) x acc h hφ hacc (ix2 a b) = ∑ k : Fin m, (x (ix3 a b k) : EReal) :=
  (Ideal.multiReduction_add_single x acc h hφ hacc (ix2 a b)).trans
    (Finset.sum_congr rfl fun k _ => congrArg x (lift_last h a b k))

/-- A sum along the middle axis of an [A,B,m] array, at (a,e): the sum over `k` of the entries (a,k,e). -/
theorem sum_mid_apply {A B m : ℕ} {φ : FTy} (x : FVec Ideal (⟨3, ![A, B, m]⟩ : Shape) φ) (acc : BitVec φ.bits)
    (h : (⟨3, ![A, B, m]⟩ : Shape).Reduces [1] (⟨2, ![A, m]⟩ : Shape)) (hφ : FKind.Formats φ) (hacc : acc = FKind.add.neutral φ hφ)
    (a : Fin A) (e : Fin m) :
    multiReduction .add [1] (⟨2, ![A, m]⟩ : Shape) x acc h hφ hacc (ix2 a e) = ∑ k : Fin B, (x (ix3 a k e) : EReal) :=
  (Ideal.multiReduction_add_single x acc h hφ hacc (ix2 a e)).trans
    (Finset.sum_congr rfl fun k _ => congrArg x (lift_mid h a e k))

/-- The sum along the last axis as a kernel prints it for f32: the accumulator the literal zero pattern, its side
    condition the plain equation of two literals. -/
theorem sum_last_zero {A B m : ℕ} (x : FVec Ideal (⟨3, ![A, B, m]⟩ : Shape) .f32)
    (h : (⟨3, ![A, B, m]⟩ : Shape).Reduces [2] (⟨2, ![A, B]⟩ : Shape)) (hφ : FKind.Formats .f32)
    (hacc : (0x00000000#32 : BitVec 32) = 0x00000000#32) (a : Fin A) (b : Fin B) :
    multiReduction .add [2] (⟨2, ![A, B]⟩ : Shape) x 0x00000000#32 h hφ hacc (ix2 a b) = ∑ k : Fin m, (x (ix3 a b k) : EReal) :=
  sum_last_apply x 0x00000000#32 h hφ hacc a b

/-- The sum along the middle axis as a kernel prints it for f32. -/
theorem sum_mid_zero {A B m : ℕ} (x : FVec Ideal (⟨3, ![A, B, m]⟩ : Shape) .f32)
    (h : (⟨3, ![A, B, m]⟩ : Shape).Reduces [1] (⟨2, ![A, m]⟩ : Shape)) (hφ : FKind.Formats .f32)
    (hacc : (0x00000000#32 : BitVec 32) = 0x00000000#32) (a : Fin A) (e : Fin m) :
    multiReduction .add [1] (⟨2, ![A, m]⟩ : Shape) x 0x00000000#32 h hφ hacc (ix2 a e) = ∑ k : Fin B, (x (ix3 a k e) : EReal) :=
  sum_mid_apply x 0x00000000#32 h hφ hacc a e

/-! ## A concatenation read in a chosen piece -/

/-- A concatenation of arrays of three axes along the LAST axis, read at (a,b,r) with `r` in piece `k`: that piece
    at (a,b,j), where `j` is `r` less the extents `pre` of the pieces before it. -/
theorem concat_last_piece {A B M : ℕ} (xs : List ((s : Shape) × (s.Idx → α)))
    (h : Shape.Concatenates (xs.map (·.1)) (⟨3, ![A, B, M]⟩ : Shape) 2)
    (k : ℕ) (hk : k < xs.length) {m₁ : ℕ} (x₁ : (⟨3, ![A, B, m₁]⟩ : Shape).Idx → α)
    (hxk : xs[k] = ⟨(⟨3, ![A, B, m₁]⟩ : Shape), x₁⟩) (pre : ℕ)
    (hpre : (((xs.take k).map (·.1)).map fun s : Shape =>
      if h : s.rank = (⟨3, ![A, B, M]⟩ : Shape).rank then s.size ((2 : Fin (⟨3, ![A, B, M]⟩ : Shape).rank).cast h.symm) else 0).sum = pre)
    (a : Fin A) (b : Fin B) (j : Fin m₁) (r : Fin M) (hr : pre + j.val = r.val) :
    concatenate (⟨3, ![A, B, M]⟩ : Shape) 2 xs h (ix3 a b r) = x₁ (ix3 a b j) :=
  concatenate_apply_piece 2 xs h (ix3 a b r) k hk _ x₁ hxk rfl pre hpre (ix3 a b j)
    (fun c hc => by
      match c with
      | ⟨0, _⟩ => rfl
      | ⟨1, _⟩ => rfl
      | ⟨2, _⟩ => exact absurd rfl hc)
    hr

/-- A concatenation of matrices along the ROWS, read at (r,c) with `r` in piece `k`: that piece at (j,c). -/
theorem concat_rows_piece {M N : ℕ} (xs : List ((s : Shape) × (s.Idx → α)))
    (h : Shape.Concatenates (xs.map (·.1)) (⟨2, ![M, N]⟩ : Shape) 0)
    (k : ℕ) (hk : k < xs.length) {m₁ : ℕ} (x₁ : (⟨2, ![m₁, N]⟩ : Shape).Idx → α)
    (hxk : xs[k] = ⟨(⟨2, ![m₁, N]⟩ : Shape), x₁⟩) (pre : ℕ)
    (hpre : (((xs.take k).map (·.1)).map fun s : Shape =>
      if h : s.rank = (⟨2, ![M, N]⟩ : Shape).rank then s.size ((0 : Fin (⟨2, ![M, N]⟩ : Shape).rank).cast h.symm) else 0).sum = pre)
    (j : Fin m₁) (c : Fin N) (r : Fin M) (hr : pre + j.val = r.val) :
    concatenate (⟨2, ![M, N]⟩ : Shape) 0 xs h (ix2 r c) = x₁ (ix2 j c) :=
  concatenate_apply_piece 0 xs h (ix2 r c) k hk _ x₁ hxk rfl pre hpre (ix2 j c)
    (fun d hd => by
      match d with
      | ⟨0, _⟩ => exact absurd rfl hd
      | ⟨1, _⟩ => rfl)
    hr

end Idealize.ShloMosaic.AxisLayout

end
-- ==== Proof.RefCoaction.lean ====
/-
  The reference's co-action branch as one function of a weight array, a history array and the mask, and its value at
  every entry: row b of the result is the co-action row of sample b's weights, history and mask.

  The branch slices the 160 weights of a sample into a 16×8 and an 8×4 matrix, forms the history's first three powers,
  sends each through the first matrix and tanh and then through the second matrix, lays the six arrays side by side
  along the last axis (8, 4, 8, 4, 8, 4 columns), multiplies every step by its mask and sums over the steps.
-/
import Idealize.ShloMosaic.Lib.ValueIdx
import Idealize.ShloMosaic.Lib.Pipeline.Value
import Idealize.ShloMosaic.Lib.IdealHost
import Idealize.ShloMosaic.PureOps.Ideal.Laws
import proofs.«158401_j37486474559594_2_alg».proof.Proof.Spec
import proofs.«158401_j37486474559594_2_alg».proof.Proof.LibAxisLayout
import proofs.«158401_j37486474559594_2_alg».proof.Proof.Gen.ReferenceIdeal

noncomputable section

open scoped BigOperators

namespace Cert.ReferenceIdeal.RefValue

open Cert.ReferenceIdeal Cert.ReferenceIdeal.Gen Idealize.ShloMosaic Idealize.ShloMosaic.ValueIdx
  Idealize.ShloMosaic.AxisLayout Cert.Coaction

/-! ## The stages -/

/-- The first-layer weights: columns 0 … 127 of every weight row, viewed as [4096,16,8]. -/
def firstW (ad : FVec Ideal S4096x160 .f32) : FVec Ideal S4096x16x8 .f32 :=
  shapeCast _ (extractStridedSlice S4096x128 ![0, 0] ad slices_S4096x160_S4096x128_0_0) shapeCasts_S4096x128_S4096x16x8

/-- The second-layer weights: columns 128 … 159 of every weight row, viewed as [4096,8,4]. -/
def secondW (ad : FVec Ideal S4096x160 .f32) : FVec Ideal S4096x8x4 .f32 :=
  shapeCast _ (extractStridedSlice S4096x32 ![0, 128] ad slices_S4096x160_S4096x32_0_128) shapeCasts_S4096x32_S4096x8x4

/-- The history raised to the power p+1, multiplied as the reference multiplies it. -/
def powH (his : FVec Ideal S4096x200x16 .f32) (p : Fin 3) : FVec Ideal S4096x200x16 .f32 :=
  match p with
  | ⟨0, _⟩ => his
  | ⟨1, _⟩ => mulf his his
  | ⟨2, _⟩ => mulf (mulf his his) his

/-- The hidden units of order p: tanh of the powered history times the first-layer weights. -/
def hidP (ad : FVec Ideal S4096x160 .f32) (his : FVec Ideal S4096x200x16 .f32) (p : Fin 3) : FVec Ideal S4096x200x8 .f32 :=
  Host.tanh (Host.dotGeneral dot_S4096x200x16_S4096x16x8_S4096x200x8_2_1_1_2_0_0 none (powH his p) (firstW ad))

/-- The outputs of order p: the hidden units times the second-layer weights. -/
def outP (ad : FVec Ideal S4096x160 .f32) (his : FVec Ideal S4096x200x16 .f32) (p : Fin 3) : FVec Ideal S4096x200x4 .f32 :=
  Host.dotGeneral dot_S4096x200x8_S4096x8x4_S4096x200x4_2_1_1_2_0_0 none (hidP ad his p) (secondW ad)

/-- The six arrays side by side along the last axis. -/
def catP (ad : FVec Ideal S4096x160 .f32) (his : FVec Ideal S4096x200x16 .f32) : FVec Ideal S4096x200x36 .f32 :=
  concatenate S4096x200x36 2
    [⟨S4096x200x8, hidP ad his ⟨0, by decide⟩⟩, ⟨S4096x200x4, outP ad his ⟨0, by decide⟩⟩,
     ⟨S4096x200x8, hidP ad his ⟨1, by decide⟩⟩, ⟨S4096x200x4, outP ad his ⟨1, by decide⟩⟩,
     ⟨S4096x200x8, hidP ad his ⟨2, by decide⟩⟩, ⟨S4096x200x4, outP ad his ⟨2, by decide⟩⟩]
    concatenates_S4096x200x8_S4096x200x4_S4096x200x8_S4096x200x4_S4096x200x8_S4096x200x4_S4096x200x36_d2

/-- The mask of every step repeated along the 36 columns. -/
def maskB (mask : FVec Ideal S4096x200 .f32) : FVec Ideal S4096x200x36 .f32 :=
  broadcastInDim S4096x200x36 ![0, 1, 2] bcast_S4096x200x1_S4096x200x36_0_1_2
    (broadcastInDim S4096x200x1 ![0, 1] bcast_S4096x200_S4096x200x1_0_1 mask)

/-- The co-action branch: the masked columns summed over the steps. -/
def refCA (ad : FVec Ideal S4096x160 .f32) (his : FVec Ideal S4096x200x16 .f32) (mask : FVec Ideal S4096x200 .f32) :
    FVec Ideal S4096x36 .f32 :=
  Host.reduceAdd (mulf (catP ad his) (maskB mask)) (constant (F := Ideal) S_ .f32 0x00000000#32)
    reducesTo_S4096x200x36_S4096x36_d1 h_S_

/-! ## The weights at an index -/

/-- Entry (b,i,o) of the first-layer weights is column 8·i+o of row b. -/
theorem firstW_apply (ad : FVec Ideal S4096x160 .f32) (b : Fin 4096) (i : Fin 16) (o : Fin 8) :
    firstW ad (ix3 b i o) = w0 (rowA ad b) i o := by
  have hc : 8 * i.val + o.val < 128 := by have := i.isLt; have := o.isLt; omega
  unfold firstW
  rw [shapeCast_apply _ shapeCasts_S4096x128_S4096x16x8 (ix3 b i o) (ix2 b (⟨8 * i.val + o.val, hc⟩ : Fin 128)) (by
    rw [Shape.rowMajor_val_two, Shape.rowMajor_val_three]
    show b.val * 128 + (8 * i.val + o.val) = (b.val * 16 + i.val) * 8 + o.val
    omega)]
  exact extractStridedSlice_apply ![0, 0] ad slices_S4096x160_S4096x128_0_0 _
    (ix2 b (⟨8 * i.val + o.val, by omega⟩ : Fin 160)) (fun a => by
      match a with
      | ⟨0, _⟩ => show b.val = 0 + b.val; omega
      | ⟨1, _⟩ => show 8 * i.val + o.val = 0 + (8 * i.val + o.val); omega)

/-- Entry (b,i,o) of the second-layer weights is column 128+4·i+o of row b. -/
theorem secondW_apply (ad : FVec Ideal S4096x160 .f32) (b : Fin 4096) (i : Fin 8) (o : Fin 4) :
    secondW ad (ix3 b i o) = w1 (rowA ad b) i o := by
  have hc : 4 * i.val + o.val < 32 := by have := i.isLt; have := o.isLt; omega
  unfold secondW
  rw [shapeCast_apply _ shapeCasts_S4096x32_S4096x8x4 (ix3 b i o) (ix2 b (⟨4 * i.val + o.val, hc⟩ : Fin 32)) (by
    rw [Shape.rowMajor_val_two, Shape.rowMajor_val_three]
    show b.val * 32 + (4 * i.val + o.val) = (b.val * 8 + i.val) * 4 + o.val
    omega)]
  exact extractStridedSlice_apply ![0, 128] ad slices_S4096x160_S4096x32_0_128 _
    (ix2 b (⟨128 + 4 * i.val + o.val, by omega⟩ : Fin 160)) (fun a => by
      match a with
      | ⟨0, _⟩ => show b.val = 0 + b.val; omega
      | ⟨1, _⟩ => show 128 + 4 * i.val + o.val = 128 + (4 * i.val + o.val); omega)

/-- The powered history at an index. -/
theorem powH_apply (his : FVec Ideal S4096x200x16 .f32) (p : Fin 3) (b : Fin 4096) (t : Fin 200) (i : Fin 16) :
    powH his p (ix3 b t i) = pw p (rowH his b t i) := by
  match p with
  | ⟨0, _⟩ => rfl
  | ⟨1, _⟩ => rfl
  | ⟨2, _⟩ => rfl

/-! ## The two products at an index -/

/-- The left operand's index of the first product keeps the sample coordinate. -/
theorem dotFirst_lhs0 (i : S4096x200x8.Idx) (q : dot_S4096x200x16_S4096x16x8_S4096x200x8_2_1_1_2_0_0.contr.Idx) :
    (dot_S4096x200x16_S4096x16x8_S4096x200x8_2_1_1_2_0_0.lhsIdx i q 0).val = (i 0).val := by
  unfold DotDims.lhsIdx
  rw [dif_pos (show (0 : Fin S4096x200x16.rank) ∈ dot_S4096x200x16_S4096x16x8_S4096x200x8_2_1_1_2_0_0.lhsBatch by decide)]
  rfl
/-- The left operand's index of the first product keeps the step coordinate. -/
theorem dotFirst_lhs1 (i : S4096x200x8.Idx) (q : dot_S4096x200x16_S4096x16x8_S4096x200x8_2_1_1_2_0_0.contr.Idx) :
    (dot_S4096x200x16_S4096x16x8_S4096x200x8_2_1_1_2_0_0.lhsIdx i q 1).val = (i 1).val := by
  unfold DotDims.lhsIdx
  rw [dif_neg (show ¬(1 : Fin S4096x200x16.rank) ∈ dot_S4096x200x16_S4096x16x8_S4096x200x8_2_1_1_2_0_0.lhsBatch by decide), dif_pos (show (1 : Fin S4096x200x16.rank) ∈ dot_S4096x200x16_S4096x16x8_S4096x200x8_2_1_1_2_0_0.lhsNonContracting by decide)]
  rfl
/-- The left operand's index of the first product has the summed coordinate last. -/
theorem dotFirst_lhs2 (i : S4096x200x8.Idx) (q : dot_S4096x200x16_S4096x16x8_S4096x200x8_2_1_1_2_0_0.contr.Idx) :
    (dot_S4096x200x16_S4096x16x8_S4096x200x8_2_1_1_2_0_0.lhsIdx i q 2).val = (q ⟨0, by decide⟩).val :=
  dot_S4096x200x16_S4096x16x8_S4096x200x8_2_1_1_2_0_0.lhsIdx_val_of_single rfl i q
/-- The right operand's index of the first product keeps the sample coordinate. -/
theorem dotFirst_rhs0 (i : S4096x200x8.Idx) (q : dot_S4096x200x16_S4096x16x8_S4096x200x8_2_1_1_2_0_0.contr.Idx) :
    (dot_S4096x200x16_S4096x16x8_S4096x200x8_2_1_1_2_0_0.rhsIdx i q 0).val = (i 0).val := by
  unfold DotDims.rhsIdx
  rw [dif_pos (show (0 : Fin S4096x16x8.rank) ∈ dot_S4096x200x16_S4096x16x8_S4096x200x8_2_1_1_2_0_0.rhsBatch by decide)]
  rfl
/-- The right operand's index of the first product has the summed coordinate in the middle. -/
theorem dotFirst_rhs1 (i : S4096x200x8.Idx) (q : dot_S4096x200x16_S4096x16x8_S4096x200x8_2_1_1_2_0_0.contr.Idx) :
    (dot_S4096x200x16_S4096x16x8_S4096x200x8_2_1_1_2_0_0.rhsIdx i q 1).val = (q ⟨0, by decide⟩).val :=
  dot_S4096x200x16_S4096x16x8_S4096x200x8_2_1_1_2_0_0.rhsIdx_val_of_single rfl i q
/-- The right operand's index of the first product keeps the output coordinate. -/
theorem dotFirst_rhs2 (i : S4096x200x8.Idx) (q : dot_S4096x200x16_S4096x16x8_S4096x200x8_2_1_1_2_0_0.contr.Idx) :
    (dot_S4096x200x16_S4096x16x8_S4096x200x8_2_1_1_2_0_0.rhsIdx i q 2).val = (i 2).val := by
  unfold DotDims.rhsIdx
  rw [dif_neg (show ¬(2 : Fin S4096x16x8.rank) ∈ dot_S4096x200x16_S4096x16x8_S4096x200x8_2_1_1_2_0_0.rhsBatch by decide), dif_pos (show (2 : Fin S4096x16x8.rank) ∈ dot_S4096x200x16_S4096x16x8_S4096x200x8_2_1_1_2_0_0.rhsNonContracting by decide)]
  rfl
/-- The left operand's index of the second product keeps the sample coordinate. -/
theorem dotSecond_lhs0 (i : S4096x200x4.Idx) (q : dot_S4096x200x8_S4096x8x4_S4096x200x4_2_1_1_2_0_0.contr.Idx) :
    (dot_S4096x200x8_S4096x8x4_S4096x200x4_2_1_1_2_0_0.lhsIdx i q 0).val = (i 0).val := by
  unfold DotDims.lhsIdx
  rw [dif_pos (show (0 : Fin S4096x200x8.rank) ∈ dot_S4096x200x8_S4096x8x4_S4096x200x4_2_1_1_2_0_0.lhsBatch by decide)]
  rfl
/-- The left operand's index of the second product keeps the step coordinate. -/
theorem dotSecond_lhs1 (i : S4096x200x4.Idx) (q : dot_S4096x200x8_S4096x8x4_S4096x200x4_2_1_1_2_0_0.contr.Idx) :
    (dot_S4096x200x8_S4096x8x4_S4096x200x4_2_1_1_2_0_0.lhsIdx i q 1).val = (i 1).val := by
  unfold DotDims.lhsIdx
  rw [dif_neg (show ¬(1 : Fin S4096x200x8.rank) ∈ dot_S4096x200x8_S4096x8x4_S4096x200x4_2_1_1_2_0_0.lhsBatch by decide), dif_pos (show (1 : Fin S4096x200x8.rank) ∈ dot_S4096x200x8_S4096x8x4_S4096x200x4_2_1_1_2_0_0.lhsNonContracting by decide)]
  rfl
/-- The left operand's index of the second product has the summed coordinate last. -/
theorem dotSecond_lhs2 (i : S4096x200x4.Idx) (q : dot_S4096x200x8_S4096x8x4_S4096x200x4_2_1_1_2_0_0.contr.Idx) :
    (dot_S4096x200x8_S4096x8x4_S4096x200x4_2_1_1_2_0_0.lhsIdx i q 2).val = (q ⟨0, by decide⟩).val :=
  dot_S4096x200x8_S4096x8x4_S4096x200x4_2_1_1_2_0_0.lhsIdx_val_of_single rfl i q
/-- The right operand's index of the second product keeps the sample coordinate. -/
theorem dotSecond_rhs0 (i : S4096x200x4.Idx) (q : dot_S4096x200x8_S4096x8x4_S4096x200x4_2_1_1_2_0_0.contr.Idx) :
    (dot_S4096x200x8_S4096x8x4_S4096x200x4_2_1_1_2_0_0.rhsIdx i q 0).val = (i 0).val := by
  unfold DotDims.rhsIdx
  rw [dif_pos (show (0 : Fin S4096x8x4.rank) ∈ dot_S4096x200x8_S4096x8x4_S4096x200x4_2_1_1_2_0_0.rhsBatch by decide)]
  rfl
/-- The right operand's index of the second product has the summed coordinate in the middle. -/
theorem dotSecond_rhs1 (i : S4096x200x4.Idx) (q : dot_S4096x200x8_S4096x8x4_S4096x200x4_2_1_1_2_0_0.contr.Idx) :
    (dot_S4096x200x8_S4096x8x4_S4096x200x4_2_1_1_2_0_0.rhsIdx i q 1).val = (q ⟨0, by decide⟩).val :=
  dot_S4096x200x8_S4096x8x4_S4096x200x4_2_1_1_2_0_0.rhsIdx_val_of_single rfl i q
/-- The right operand's index of the second product keeps the output coordinate. -/
theorem dotSecond_rhs2 (i : S4096x200x4.Idx) (q : dot_S4096x200x8_S4096x8x4_S4096x200x4_2_1_1_2_0_0.contr.Idx) :
    (dot_S4096x200x8_S4096x8x4_S4096x200x4_2_1_1_2_0_0.rhsIdx i q 2).val = (i 2).val := by
  unfold DotDims.rhsIdx
  rw [dif_neg (show ¬(2 : Fin S4096x8x4.rank) ∈ dot_S4096x200x8_S4096x8x4_S4096x200x4_2_1_1_2_0_0.rhsBatch by decide), dif_pos (show (2 : Fin S4096x8x4.rank) ∈ dot_S4096x200x8_S4096x8x4_S4096x200x4_2_1_1_2_0_0.rhsNonContracting by decide)]
  rfl

/-- The first product at (b,t,o): the sum over the 16 features of the left operand at (b,t,k) times the right at (b,k,o). -/
theorem dotFirst_apply (l : FVec Ideal S4096x200x16 .f32) (r : FVec Ideal S4096x16x8 .f32) (b : Fin 4096) (t : Fin 200) (o : Fin 8) :
    Host.dotGeneral dot_S4096x200x16_S4096x16x8_S4096x200x8_2_1_1_2_0_0 none l r (ix3 b t o)
      = ∑ k : Fin 16, l (ix3 b t k) * r (ix3 b k o) := by
  simp only [Host.dotGeneral]
  rw [Ideal.dotGeneral_apply, ← Equiv.sum_comp (ValueIdx.contrEquiv1 dot_S4096x200x16_S4096x16x8_S4096x200x8_2_1_1_2_0_0 16 rfl rfl).symm]
  refine Finset.sum_congr rfl fun k _ => ?_
  have hk := ValueIdx.contrEquiv1_symm_val dot_S4096x200x16_S4096x16x8_S4096x200x8_2_1_1_2_0_0 16 rfl rfl k
  have el : dot_S4096x200x16_S4096x16x8_S4096x200x8_2_1_1_2_0_0.lhsIdx (ix3 b t o)
      ((ValueIdx.contrEquiv1 dot_S4096x200x16_S4096x16x8_S4096x200x8_2_1_1_2_0_0 16 rfl rfl).symm k) = ix3 b t k :=
    funext fun a => Fin.ext (by
      match a with
      | ⟨0, _⟩ => exact dotFirst_lhs0 _ _
      | ⟨1, _⟩ => exact dotFirst_lhs1 _ _
      | ⟨2, _⟩ => exact (dotFirst_lhs2 _ _).trans hk)
  have er : dot_S4096x200x16_S4096x16x8_S4096x200x8_2_1_1_2_0_0.rhsIdx (ix3 b t o)
      ((ValueIdx.contrEquiv1 dot_S4096x200x16_S4096x16x8_S4096x200x8_2_1_1_2_0_0 16 rfl rfl).symm k) = ix3 b k o :=
    funext fun a => Fin.ext (by
      match a with
      | ⟨0, _⟩ => exact dotFirst_rhs0 _ _
      | ⟨1, _⟩ => exact (dotFirst_rhs1 _ _).trans hk
      | ⟨2, _⟩ => exact dotFirst_rhs2 _ _)
  rw [el, er]

/-- The second product at (b,t,o): the sum over the 8 hidden units of the left operand at (b,t,k) times the right at (b,k,o). -/
theorem dotSecond_apply (l : FVec Ideal S4096x200x8 .f32) (r : FVec Ideal S4096x8x4 .f32) (b : Fin 4096) (t : Fin 200) (o : Fin 4) :
    Host.dotGeneral dot_S4096x200x8_S4096x8x4_S4096x200x4_2_1_1_2_0_0 none l r (ix3 b t o)
      = ∑ k : Fin 8, l (ix3 b t k) * r (ix3 b k o) := by
  simp only [Host.dotGeneral]
  rw [Ideal.dotGeneral_apply, ← Equiv.sum_comp (ValueIdx.contrEquiv1 dot_S4096x200x8_S4096x8x4_S4096x200x4_2_1_1_2_0_0 8 rfl rfl).symm]
  refine Finset.sum_congr rfl fun k _ => ?_
  have hk := ValueIdx.contrEquiv1_symm_val dot_S4096x200x8_S4096x8x4_S4096x200x4_2_1_1_2_0_0 8 rfl rfl k
  have el : dot_S4096x200x8_S4096x8x4_S4096x200x4_2_1_1_2_0_0.lhsIdx (ix3 b t o)
      ((ValueIdx.contrEquiv1 dot_S4096x200x8_S4096x8x4_S4096x200x4_2_1_1_2_0_0 8 rfl rfl).symm k) = ix3 b t k :=
    funext fun a => Fin.ext (by
      match a with
      | ⟨0, _⟩ => exact dotSecond_lhs0 _ _
      | ⟨1, _⟩ => exact dotSecond_lhs1 _ _
      | ⟨2, _⟩ => exact (dotSecond_lhs2 _ _).trans hk)
  have er : dot_S4096x200x8_S4096x8x4_S4096x200x4_2_1_1_2_0_0.rhsIdx (ix3 b t o)
      ((ValueIdx.contrEquiv1 dot_S4096x200x8_S4096x8x4_S4096x200x4_2_1_1_2_0_0 8 rfl rfl).symm k) = ix3 b k o :=
    funext fun a => Fin.ext (by
      match a with
      | ⟨0, _⟩ => exact dotSecond_rhs0 _ _
      | ⟨1, _⟩ => exact (dotSecond_rhs1 _ _).trans hk
      | ⟨2, _⟩ => exact dotSecond_rhs2 _ _)
  rw [el, er]

/-- A hidden unit at (b,t,o) is the specification's, of sample b's weights and history. -/
theorem hidP_apply (ad : FVec Ideal S4096x160 .f32) (his : FVec Ideal S4096x200x16 .f32) (p : Fin 3)
    (b : Fin 4096) (t : Fin 200) (o : Fin 8) :
    hidP ad his p (ix3 b t o) = hidR (rowA ad b) (rowH his b) p t o := by
  unfold hidP hidR
  show Ideal.tanh (Host.dotGeneral dot_S4096x200x16_S4096x16x8_S4096x200x8_2_1_1_2_0_0 none (powH his p) (firstW ad) (ix3 b t o)) = _
  rw [dotFirst_apply]
  exact congrArg Ideal.tanh (Finset.sum_congr rfl fun k _ => by rw [powH_apply, firstW_apply])

/-- An output at (b,t,o): the sum over the hidden units of the unit times its second-layer weight. -/
theorem outP_apply (ad : FVec Ideal S4096x160 .f32) (his : FVec Ideal S4096x200x16 .f32) (p : Fin 3)
    (b : Fin 4096) (t : Fin 200) (o : Fin 4) :
    outP ad his p (ix3 b t o) = ∑ i : Fin 8, hidR (rowA ad b) (rowH his b) p t i * w1 (rowA ad b) i o := by
  unfold outP
  rw [dotSecond_apply]
  exact Finset.sum_congr rfl fun k _ => by rw [hidP_apply, secondW_apply]

/-! ## The six arrays side by side, read in a chosen piece -/

/-- Column 12·p+o, o < 8, of the joined array is hidden unit o of order p. -/
theorem catP_hid (ad : FVec Ideal S4096x160 .f32) (his : FVec Ideal S4096x200x16 .f32) (p : Fin 3) (o : Fin 8) (q : Fin 36)
    (hq : q.val = 12 * p.val + o.val) (b : Fin 4096) (t : Fin 200) :
    catP ad his (ix3 b t q) = hidP ad his p (ix3 b t o) := by
  unfold catP
  match p, hq with
  | ⟨0, _⟩, hq => exact concat_last_piece _ _ 0 (by show (0 : ℕ) < 6; decide) _ rfl 0 rfl b t o q (by have : q.val = 12 * 0 + o.val := hq; omega)
  | ⟨1, _⟩, hq => exact concat_last_piece _ _ 2 (by show (2 : ℕ) < 6; decide) _ rfl 12 rfl b t o q (by have : q.val = 12 * 1 + o.val := hq; omega)
  | ⟨2, _⟩, hq => exact concat_last_piece _ _ 4 (by show (4 : ℕ) < 6; decide) _ rfl 24 rfl b t o q (by have : q.val = 12 * 2 + o.val := hq; omega)

/-- Column 12·p+8+o, o < 4, of the joined array is output o of order p. -/
theorem catP_out (ad : FVec Ideal S4096x160 .f32) (his : FVec Ideal S4096x200x16 .f32) (p : Fin 3) (o : Fin 4) (q : Fin 36)
    (hq : q.val = 12 * p.val + 8 + o.val) (b : Fin 4096) (t : Fin 200) :
    catP ad his (ix3 b t q) = outP ad his p (ix3 b t o) := by
  unfold catP
  match p, hq with
  | ⟨0, _⟩, hq => exact concat_last_piece _ _ 1 (by show (1 : ℕ) < 6; decide) _ rfl 8 rfl b t o q (by have : q.val = 12 * 0 + 8 + o.val := hq; omega)
  | ⟨1, _⟩, hq => exact concat_last_piece _ _ 3 (by show (3 : ℕ) < 6; decide) _ rfl 20 rfl b t o q (by have : q.val = 12 * 1 + 8 + o.val := hq; omega)
  | ⟨2, _⟩, hq => exact concat_last_piece _ _ 5 (by show (5 : ℕ) < 6; decide) _ rfl 32 rfl b t o q (by have : q.val = 12 * 2 + 8 + o.val := hq; omega)

/-! ## The mask and the sum over the steps -/

/-- The repeated mask at (b,t,q) is the mask of step t of sample b. -/
theorem maskB_apply (mask : FVec Ideal S4096x200 .f32) (b : Fin 4096) (t : Fin 200) (q : Fin 36) :
    maskB mask (ix3 b t q) = rowM mask b t := by
  unfold maskB
  rw [broadcastInDim_apply _ bcast_S4096x200x1_S4096x200x36_0_1_2 _ (ix3 b t q) (ix3 b t (⟨0, Nat.one_pos⟩ : Fin 1)) (fun a => by
    match a with
    | ⟨0, _⟩ => show b.val = if (4096 : Nat) = 1 then 0 else b.val; rw [if_neg (by decide)]
    | ⟨1, _⟩ => show t.val = if (200 : Nat) = 1 then 0 else t.val; rw [if_neg (by decide)]
    | ⟨2, _⟩ => show 0 = if (1 : Nat) = 1 then 0 else q.val; rw [if_pos rfl])]
  exact broadcastInDim_apply _ bcast_S4096x200_S4096x200x1_0_1 mask _ (ix2 b t) (fun a => by
    match a with
    | ⟨0, _⟩ => show b.val = if (4096 : Nat) = 1 then 0 else b.val; rw [if_neg (by decide)]
    | ⟨1, _⟩ => show t.val = if (200 : Nat) = 1 then 0 else t.val; rw [if_neg (by decide)])

/-- The sum over the steps from the zero constant, at (b,q): the sum over t of the entries (b,t,q). -/
theorem sumSteps_apply (x : FVec Ideal S4096x200x36 .f32) (b : Fin 4096) (q : Fin 36) :
    Host.reduceAdd x (constant (F := Ideal) S_ .f32 0x00000000#32) reducesTo_S4096x200x36_S4096x36_d1 h_S_ (ix2 b q)
      = ∑ t : Fin 200, x (ix3 b t q) := by
  rw [ValueIdx.hostReduceAdd_apply, Ideal.hostReduceAdd_single reducesTo_S4096x200x36_S4096x36_d1 (by decide),
    constant_apply, Ideal.ofBits_zero_f32, zero_add]
  refine Finset.sum_congr rfl fun k _ => congrArg x (funext fun a => Fin.ext (by
    match a with
    | ⟨0, _⟩ => rfl
    | ⟨1, _⟩ => rfl
    | ⟨2, _⟩ => rfl))

/-! ## The branch at an entry -/

/-- Column 12·p+o, o < 8, of row b: the masked sum of hidden unit o of order p. -/
theorem refCA_hid (ad : FVec Ideal S4096x160 .f32) (his : FVec Ideal S4096x200x16 .f32) (mask : FVec Ideal S4096x200 .f32)
    (b : Fin 4096) (p : Fin 3) (o : Fin 8) (q : Fin 36) (hq : q.val = 12 * p.val + o.val) :
    refCA ad his mask (ix2 b q) = s0R (rowA ad b) (rowH his b) (rowM mask b) p o := by
  unfold refCA s0R
  rw [sumSteps_apply]
  exact Finset.sum_congr rfl fun t _ => by
    rw [mulf_apply, catP_hid ad his p o q hq, hidP_apply, maskB_apply]

/-- Column 12·p+8+o, o < 4, of row b: the masked sum of output o of order p. -/
theorem refCA_out (ad : FVec Ideal S4096x160 .f32) (his : FVec Ideal S4096x200x16 .f32) (mask : FVec Ideal S4096x200 .f32)
    (b : Fin 4096) (p : Fin 3) (o : Fin 4) (q : Fin 36) (hq : q.val = 12 * p.val + 8 + o.val) :
    refCA ad his mask (ix2 b q) = s1R (rowA ad b) (rowH his b) (rowM mask b) p o := by
  unfold refCA s1R
  rw [sumSteps_apply]
  exact Finset.sum_congr rfl fun t _ => by
    rw [mulf_apply, catP_out ad his p o q hq, outP_apply, maskB_apply]

/-- Row b of the branch is the co-action row of sample b's weights, history and mask. -/
theorem refCA_apply (ad : FVec Ideal S4096x160 .f32) (his : FVec Ideal S4096x200x16 .f32) (mask : FVec Ideal S4096x200 .f32)
    (b : Fin 4096) (q : Fin 36) :
    refCA ad his mask (ix2 b q) = caR (rowA ad b) (rowH his b) (rowM mask b) q := by
  unfold caR row36
  have hq36 := q.isLt
  split
  · next hlt => exact refCA_hid ad his mask b _ _ q (by show q.val = 12 * (q.val / 12) + q.val % 12; omega)
  · next hge => exact refCA_out ad his mask b _ _ q (by show q.val = 12 * (q.val / 12) + 8 + (q.val % 12 - 8); omega)

end Cert.ReferenceIdeal.RefValue

end
-- ==== Proof.RefStages.lean ====
/-
  The reference's result as one function of its arguments, stage by stage.

  Every row number is first wrapped (a negative one counts from the end of its table) and every embedding is a gather
  of table rows at the wrapped numbers. The result's 328 columns are: the item and category embeddings of the sample
  (128 columns); the item and category embeddings of the 200 history steps, joined and summed over the steps (128
  columns); and the co-action columns of the item branch and of the category branch (36 columns each), each branch the
  co-action function of its gathered weight rows, its gathered history and the mask.
-/
import proofs.«158401_j37486474559594_2_alg».proof.Proof.RefCoaction

noncomputable section

namespace Cert.ReferenceIdeal.Stage

open Cert.ReferenceIdeal Cert.ReferenceIdeal.Gen Cert.ReferenceIdeal.RefValue Idealize.ShloMosaic

/-- Row numbers of one sample each, a negative one counted from the end of a table of height `n`, as a [4096,1] array. -/
def rowIdx (n : BitVec 32) (x : (⟨S4096, .i32⟩ : BufTy).Contents (Elt Ideal)) : (⟨S4096x1, .i32⟩ : BufTy).Contents (Elt Ideal) :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 n))) x)

/-- Row numbers of the 200 history steps, wrapped the same way, as a [4096,200,1] array. -/
def hisIdx (n : BitVec 32) (x : (⟨S4096x200, .i32⟩ : BufTy).Contents (Elt Ideal)) : (⟨S4096x200x1, .i32⟩ : BufTy).Contents (Elt Ideal) :=
  broadcastInDim S4096x200x1 ![0, 1] bcast_S4096x200_S4096x200x1_0_1
    (select (cmpi .slt x (broadcastInDim S4096x200 ![] bcast_S_S4096x200 (constantI S_ 32 0#32)))
      (addi x (broadcastInDim S4096x200 ![] bcast_S_S4096x200 (constantI S_ 32 n))) x)

/-- The item embedding of each sample. -/
def embItem (x1 : (⟨S4096, .i32⟩ : BufTy).Contents (Elt Ideal)) (x7 : (⟨S100000x64, .f32⟩ : BufTy).Contents (Elt Ideal)) :
    (⟨S4096x64, .f32⟩ : BufTy).Contents (Elt Ideal) :=
  Host.gather gather_S100000x64_S4096x1_S4096x64_1_0_n_n_0_1_164 x7 (rowIdx 100000#32 x1)

/-- The category embedding of each sample. -/
def embCate (x2 : (⟨S4096, .i32⟩ : BufTy).Contents (Elt Ideal)) (x8 : (⟨S1000x64, .f32⟩ : BufTy).Contents (Elt Ideal)) :
    (⟨S4096x64, .f32⟩ : BufTy).Contents (Elt Ideal) :=
  Host.gather gather_S1000x64_S4096x1_S4096x64_1_0_n_n_0_1_164 x8 (rowIdx 1000#32 x2)

/-- The item embeddings of the history steps. -/
def hisEmbItem (x3 : (⟨S4096x200, .i32⟩ : BufTy).Contents (Elt Ideal)) (x7 : (⟨S100000x64, .f32⟩ : BufTy).Contents (Elt Ideal)) :
    (⟨S4096x200x64, .f32⟩ : BufTy).Contents (Elt Ideal) :=
  Host.gather gather_S100000x64_S4096x200x1_S4096x200x64_2_0_n_n_0_2_164 x7 (hisIdx 100000#32 x3)

/-- The category embeddings of the history steps. -/
def hisEmbCate (x4 : (⟨S4096x200, .i32⟩ : BufTy).Contents (Elt Ideal)) (x8 : (⟨S1000x64, .f32⟩ : BufTy).Contents (Elt Ideal)) :
    (⟨S4096x200x64, .f32⟩ : BufTy).Contents (Elt Ideal) :=
  Host.gather gather_S1000x64_S4096x200x1_S4096x200x64_2_0_n_n_0_2_164 x8 (hisIdx 1000#32 x4)

/-- Columns 0 … 127: the two sample embeddings side by side. -/
def embedCols (x1 x2 : (⟨S4096, .i32⟩ : BufTy).Contents (Elt Ideal)) (x7 : (⟨S100000x64, .f32⟩ : BufTy).Contents (Elt Ideal))
    (x8 : (⟨S1000x64, .f32⟩ : BufTy).Contents (Elt Ideal)) : (⟨S4096x128, .f32⟩ : BufTy).Contents (Elt Ideal) :=
  concatenate S4096x128 1 [⟨S4096x64, embItem x1 x7⟩, ⟨S4096x64, embCate x2 x8⟩] concatenates_S4096x64_S4096x64_S4096x128_d1

/-- The zero the sums start from. -/
def zeroS : (⟨S_, .f32⟩ : BufTy).Contents (Elt Ideal) := constant (F := Ideal) S_ .f32 0x00000000#32

/-- The two history embeddings side by side, per step. -/
def histJoined (x3 x4 : (⟨S4096x200, .i32⟩ : BufTy).Contents (Elt Ideal)) (x7 : (⟨S100000x64, .f32⟩ : BufTy).Contents (Elt Ideal))
    (x8 : (⟨S1000x64, .f32⟩ : BufTy).Contents (Elt Ideal)) : (⟨S4096x200x128, .f32⟩ : BufTy).Contents (Elt Ideal) :=
  concatenate S4096x200x128 2 [⟨S4096x200x64, hisEmbItem x3 x7⟩, ⟨S4096x200x64, hisEmbCate x4 x8⟩]
    concatenates_S4096x200x64_S4096x200x64_S4096x200x128_d2

/-- Columns 128 … 255: the joined history embeddings summed over the steps. -/
def histCols (x3 x4 : (⟨S4096x200, .i32⟩ : BufTy).Contents (Elt Ideal)) (x7 : (⟨S100000x64, .f32⟩ : BufTy).Contents (Elt Ideal))
    (x8 : (⟨S1000x64, .f32⟩ : BufTy).Contents (Elt Ideal)) : (⟨S4096x128, .f32⟩ : BufTy).Contents (Elt Ideal) :=
  Host.reduceAdd (F := Ideal) (φ := .f32) (histJoined x3 x4 x7 x8) zeroS reducesTo_S4096x200x128_S4096x128_d1 h_S_

/-- The item co-action weight rows of each sample. -/
def wItem (x1 : (⟨S4096, .i32⟩ : BufTy).Contents (Elt Ideal)) (x9 : (⟨S100000x160, .f32⟩ : BufTy).Contents (Elt Ideal)) :
    (⟨S4096x160, .f32⟩ : BufTy).Contents (Elt Ideal) :=
  Host.gather gather_S100000x160_S4096x1_S4096x160_1_0_n_n_0_1_1160 x9 (rowIdx 100000#32 x1)

/-- The category co-action weight rows of each sample. -/
def wCate (x2 : (⟨S4096, .i32⟩ : BufTy).Contents (Elt Ideal)) (x10 : (⟨S1000x160, .f32⟩ : BufTy).Contents (Elt Ideal)) :
    (⟨S4096x160, .f32⟩ : BufTy).Contents (Elt Ideal) :=
  Host.gather gather_S1000x160_S4096x1_S4096x160_1_0_n_n_0_1_1160 x10 (rowIdx 1000#32 x2)

/-- The item co-action inputs of the history steps. -/
def hItem (x3 : (⟨S4096x200, .i32⟩ : BufTy).Contents (Elt Ideal)) (x11 : (⟨S100000x16, .f32⟩ : BufTy).Contents (Elt Ideal)) :
    (⟨S4096x200x16, .f32⟩ : BufTy).Contents (Elt Ideal) :=
  Host.gather gather_S100000x16_S4096x200x1_S4096x200x16_2_0_n_n_0_2_116 x11 (hisIdx 100000#32 x3)

/-- The category co-action inputs of the history steps. -/
def hCate (x4 : (⟨S4096x200, .i32⟩ : BufTy).Contents (Elt Ideal)) (x12 : (⟨S1000x16, .f32⟩ : BufTy).Contents (Elt Ideal)) :
    (⟨S4096x200x16, .f32⟩ : BufTy).Contents (Elt Ideal) :=
  Host.gather gather_S1000x16_S4096x200x1_S4096x200x16_2_0_n_n_0_2_116 x12 (hisIdx 1000#32 x4)

/-- Columns 256 … 327: the item branch's and the category branch's co-action columns side by side. -/
def coactCols (x1 x2 : (⟨S4096, .i32⟩ : BufTy).Contents (Elt Ideal)) (x3 x4 : (⟨S4096x200, .i32⟩ : BufTy).Contents (Elt Ideal))
    (x5 : (⟨S4096x200, .f32⟩ : BufTy).Contents (Elt Ideal)) (x9 : (⟨S100000x160, .f32⟩ : BufTy).Contents (Elt Ideal))
    (x10 : (⟨S1000x160, .f32⟩ : BufTy).Contents (Elt Ideal)) (x11 : (⟨S100000x16, .f32⟩ : BufTy).Contents (Elt Ideal))
    (x12 : (⟨S1000x16, .f32⟩ : BufTy).Contents (Elt Ideal)) : (⟨S4096x72, .f32⟩ : BufTy).Contents (Elt Ideal) :=
  concatenate S4096x72 1 [⟨S4096x36, refCA (wItem x1 x9) (hItem x3 x11) x5⟩, ⟨S4096x36, refCA (wCate x2 x10) (hCate x4 x12) x5⟩]
    concatenates_S4096x36_S4096x36_S4096x72_d1

/-- The reference's result: the three column groups side by side. -/
def resultR (x1 x2 : (⟨S4096, .i32⟩ : BufTy).Contents (Elt Ideal)) (x3 x4 : (⟨S4096x200, .i32⟩ : BufTy).Contents (Elt Ideal))
    (x5 : (⟨S4096x200, .f32⟩ : BufTy).Contents (Elt Ideal)) (x7 : (⟨S100000x64, .f32⟩ : BufTy).Contents (Elt Ideal))
    (x8 : (⟨S1000x64, .f32⟩ : BufTy).Contents (Elt Ideal)) (x9 : (⟨S100000x160, .f32⟩ : BufTy).Contents (Elt Ideal))
    (x10 : (⟨S1000x160, .f32⟩ : BufTy).Contents (Elt Ideal)) (x11 : (⟨S100000x16, .f32⟩ : BufTy).Contents (Elt Ideal))
    (x12 : (⟨S1000x16, .f32⟩ : BufTy).Contents (Elt Ideal)) : (⟨S4096x328, .f32⟩ : BufTy).Contents (Elt Ideal) :=
  concatenate S4096x328 1 [⟨S4096x128, embedCols x1 x2 x7 x8⟩, ⟨S4096x128, histCols x3 x4 x7 x8⟩,
      ⟨S4096x72, coactCols x1 x2 x3 x4 x5 x9 x10 x11 x12⟩]
    concatenates_S4096x128_S4096x128_S4096x72_S4096x328_d1

end Cert.ReferenceIdeal.Stage

end
-- ==== Proof.RefRunRes.lean ====
/-
  The reference's result buffer after its line of operations.

  Up to its last operation the line computes three arrays: the two sample embeddings joined, the joined history
  embeddings summed over the steps, and the item and the category co-action branch joined. Each is read back through
  the head of the line as its staged function of the arguments. The last operation joins the three column groups,
  which is the staged result.
-/
import proofs.«158401_j37486474559594_2_alg».proof.Proof.RefRunOps
import proofs.«158401_j37486474559594_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 16000000 in
/-- After the head of the line, the first column group: the two sample embeddings side by side. -/
theorem head_embed (V : Valuation τ sig (Elt Ideal)) :
    after (opsHead (F := Ideal)) V (Proc.devRef .tc main_v28)
      = Stage.embedCols (V (Proc.devRef .tc main_arg1)) (V (Proc.devRef .tc main_arg2)) (V (Proc.devRef .tc main_arg7)) (V (Proc.devRef .tc main_arg8)) := by
  unfold opsHead
  host_results_cat
  rfl

set_option maxRecDepth 8192 in
set_option maxHeartbeats 16000000 in
/-- After the head of the line, the second column group: the joined history embeddings summed over the steps. -/
theorem head_hist (V : Valuation τ sig (Elt Ideal)) :
    after (opsHead (F := Ideal)) V (Proc.devRef .tc main_v30)
      = Stage.histCols (V (Proc.devRef .tc main_arg3)) (V (Proc.devRef .tc main_arg4)) (V (Proc.devRef .tc main_arg7)) (V (Proc.devRef .tc main_arg8)) := by
  unfold opsHead
  host_results_cat
  rfl

set_option maxRecDepth 8192 in
set_option maxHeartbeats 16000000 in
/-- After the head of the line, the third column group: the item and the category co-action branch side by side. -/
theorem head_coact (V : Valuation τ sig (Elt Ideal)) :
    after (opsHead (F := Ideal)) V (Proc.devRef .tc main_v101)
      = Stage.coactCols (V (Proc.devRef .tc main_arg1)) (V (Proc.devRef .tc main_arg2)) (V (Proc.devRef .tc main_arg3)) (V (Proc.devRef .tc main_arg4)) (V (Proc.devRef .tc main_arg5)) (V (Proc.devRef .tc main_arg9)) (V (Proc.devRef .tc main_arg10)) (V (Proc.devRef .tc main_arg11)) (V (Proc.devRef .tc main_arg12)) := by
  unfold opsHead
  host_results_cat
  rfl

set_option maxRecDepth 8192 in
set_option maxHeartbeats 4000000 in
/-- The result buffer after the whole line, from any contents: the staged function of the contents of the eleven
    arguments it depends on. -/
theorem result_after (V : Valuation τ sig (Elt Ideal)) :
    after (ops (F := Ideal)) V (Proc.devRef .tc main_v102)
      = Stage.resultR (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, after_append]
  generalize hW : after (opsHead (F := Ideal)) V = W
  have e28 := head_embed V
  have e30 := head_hist V
  have e101 := head_coact V
  rw [hW] at e28 e30 e101
  unfold opsTail
  host_results_cat
  show concatenate S4096x328 1 [⟨S4096x128, W (Proc.devRef .tc main_v28)⟩, ⟨S4096x128, W (Proc.devRef .tc main_v30)⟩,
      ⟨S4096x72, W (Proc.devRef .tc main_v101)⟩] concatenates_S4096x128_S4096x128_S4096x72_S4096x328_d1 = _
  rw [e28, e30, e101]
  rfl

end Cert.ReferenceIdeal.RefRun

end
-- ==== Proof.RefRunArgs.lean ====
/-
  The reference's arguments after its line of operations: no operation of the line writes an argument buffer, so each
  holds after the line what it held before.
-/
import proofs.«158401_j37486474559594_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- Argument 0 is as launched. -/
theorem arg0_after (V : Valuation τ sig (Elt Ideal)) :
    after (ops (F := Ideal)) V (Proc.devRef .tc main_arg0) = V (Proc.devRef .tc main_arg0) := by
  after_results_simp

set_option maxRecDepth 8192 in
set_option maxHeartbeats 4000000 in
/-- Argument 1 is as launched. -/
theorem arg1_after (V : Valuation τ sig (Elt Ideal)) :
    after (ops (F := Ideal)) V (Proc.devRef .tc main_arg1) = V (Proc.devRef .tc main_arg1) := by
  after_results_simp

set_option maxRecDepth 8192 in
set_option maxHeartbeats 4000000 in
/-- Argument 2 is as launched. -/
theorem arg2_after (V : Valuation τ sig (Elt Ideal)) :
    after (ops (F := Ideal)) V (Proc.devRef .tc main_arg2) = V (Proc.devRef .tc main_arg2) := by
  after_results_simp

set_option maxRecDepth 8192 in
set_option maxHeartbeats 4000000 in
/-- Argument 3 is as launched. -/
theorem arg3_after (V : Valuation τ sig (Elt Ideal)) :
    after (ops (F := Ideal)) V (Proc.devRef .tc main_arg3) = V (Proc.devRef .tc main_arg3) := by
  after_results_simp

set_option maxRecDepth 8192 in
set_option maxHeartbeats 4000000 in
/-- Argument 4 is as launched. -/
theorem arg4_after (V : Valuation τ sig (Elt Ideal)) :
    after (ops (F := Ideal)) V (Proc.devRef .tc main_arg4) = V (Proc.devRef .tc main_arg4) := by
  after_results_simp

set_option maxRecDepth 8192 in
set_option maxHeartbeats 4000000 in
/-- Argument 5 is as launched. -/
theorem arg5_after (V : Valuation τ sig (Elt Ideal)) :
    after (ops (F := Ideal)) V (Proc.devRef .tc main_arg5) = V (Proc.devRef .tc main_arg5) := by
  after_results_simp

set_option maxRecDepth 8192 in
set_option maxHeartbeats 4000000 in
/-- Argument 6 is as launched. -/
theorem arg6_after (V : Valuation τ sig (Elt Ideal)) :
    after (ops (F := Ideal)) V (Proc.devRef .tc main_arg6) = V (Proc.devRef .tc main_arg6) := by
  after_results_simp

set_option maxRecDepth 8192 in
set_option maxHeartbeats 4000000 in
/-- Argument 7 is as launched. -/
theorem arg7_after (V : Valuation τ sig (Elt Ideal)) :
    after (ops (F := Ideal)) V (Proc.devRef .tc main_arg7) = V (Proc.devRef .tc main_arg7) := by
  after_results_simp

set_option maxRecDepth 8192 in
set_option maxHeartbeats 4000000 in
/-- Argument 8 is as launched. -/
theorem arg8_after (V : Valuation τ sig (Elt Ideal)) :
    after (ops (F := Ideal)) V (Proc.devRef .tc main_arg8) = V (Proc.devRef .tc main_arg8) := by
  after_results_simp

set_option maxRecDepth 8192 in
set_option maxHeartbeats 4000000 in
/-- Argument 9 is as launched. -/
theorem arg9_after (V : Valuation τ sig (Elt Ideal)) :
    after (ops (F := Ideal)) V (Proc.devRef .tc main_arg9) = V (Proc.devRef .tc main_arg9) := by
  after_results_simp

set_option maxRecDepth 8192 in
set_option maxHeartbeats 4000000 in
/-- Argument 10 is as launched. -/
theorem arg10_after (V : Valuation τ sig (Elt Ideal)) :
    after (ops (F := Ideal)) V (Proc.devRef .tc main_arg10) = V (Proc.devRef .tc main_arg10) := by
  after_results_simp

set_option maxRecDepth 8192 in
set_option maxHeartbeats 4000000 in
/-- Argument 11 is as launched. -/
theorem arg11_after (V : Valuation τ sig (Elt Ideal)) :
    after (ops (F := Ideal)) V (Proc.devRef .tc main_arg11) = V (Proc.devRef .tc main_arg11) := by
  after_results_simp

set_option maxRecDepth 8192 in
set_option maxHeartbeats 4000000 in
/-- Argument 12 is as launched. -/
theorem arg12_after (V : Valuation τ sig (Elt Ideal)) :
    after (ops (F := Ideal)) V (Proc.devRef .tc main_arg12) = V (Proc.devRef .tc main_arg12) := by
  after_results_simp

end Cert.ReferenceIdeal.RefRun

end
-- ==== Proof.RefRun.lean ====
/-
  The reference's run: a straight line of host operations, so every weakly fair execution terminates without a fault with
  every buffer at the operations' composed value of the launch contents; the result buffer is then the staged function of
  the arguments, and the arguments are as launched.
-/
import proofs.«158401_j37486474559594_2_alg».proof.Proof.RefRunRes
import proofs.«158401_j37486474559594_2_alg».proof.Proof.RefRunArgs

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- Every weakly fair execution of the reference terminates without a fault, with the result at the staged function of the
    arguments and the thirteen arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102)
        = Stage.resultR (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v102).trans ((result_after _).trans rfl),
      (h c main_arg0).trans ((arg0_after _).trans rfl),
      (h c main_arg1).trans ((arg1_after _).trans rfl),
      (h c main_arg2).trans ((arg2_after _).trans rfl),
      (h c main_arg3).trans ((arg3_after _).trans rfl),
      (h c main_arg4).trans ((arg4_after _).trans rfl),
      (h c main_arg5).trans ((arg5_after _).trans rfl),
      (h c main_arg6).trans ((arg6_after _).trans rfl),
      (h c main_arg7).trans ((arg7_after _).trans rfl),
      (h c main_arg8).trans ((arg8_after _).trans rfl),
      (h c main_arg9).trans ((arg9_after _).trans rfl),
      (h c main_arg10).trans ((arg10_after _).trans rfl),
      (h c main_arg11).trans ((arg11_after _).trans rfl),
      (h c main_arg12).trans ((arg12_after _).trans rfl)⟩)
    (run_seq scopedRefs_eq scopedSems_eq defs main (fun _ => ops) main_eq (fun _ => ops_sub) m ρ)

end Cert.ReferenceIdeal.RefRun

end
-- ==== Proof.KFrame.lean ====
import proofs.«158401_j37486474559594_2_alg».proof.Proof.Gen.Kernel.Launch
import proofs.«158401_j37486474559594_2_alg».proof.Proof.Gen.Kernel.Skeleton
import proofs.«158401_j37486474559594_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The frame run of `Kernel`

@main is eighty host operations, one region over a grid of sixteen points, and one closing host
operation (a concatenation of three arrays along the columns). The region stages six windows: five
inputs, each fetched at every point, and one output, written back at every point. At a point the body
reads the five input blocks whole, reads the output block (the value is dropped), and stores one
block computed from the five inputs over the whole of the output block. Hence every execution
terminates without a fault, each input array ends as the region found it, and no host operation writes
an argument array: the thirteen arguments end as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers of core `c` as the region finds them: the launch memory after the eighty host
    operations that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region allocates. -/
theorem hostOps0_fresh : (hostOps0 : List (HloOp τ sig (Elt F))).Forall fun op => op.fresh = ∅ := by
  simp only [List.Forall]; repeat' constructor
/-- Nor does the one after it. -/
theorem hostOps1_fresh : (hostOps1 : List (HloOp τ sig (Elt F))).Forall fun op => op.fresh = ∅ := by
  simp only [List.Forall]; repeat' constructor

/-- @main is the host operations before the region, the region, and the host operation after it: it reduces to the
    region continued by that last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing concatenation touches unscoped TensorCore references only: arrays of the region or buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result only, and that result is none of the six windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region

Each of the eighty host operations before the region writes its own result buffer, and no result buffer is
an argument: the region finds every argument as launched. -/

set_option maxHeartbeats 4000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! The closing concatenation writes its own result, which is no argument; an argument that is no window's array is
therefore, after the whole run, what the region found. -/

/-- Argument 0 is no window's array and the closing operation does not write it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Argument 1 is no window's array and the closing operation does not write it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Argument 2 is no window's array and the closing operation does not write it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Argument 3 is no window's array and the closing operation does not write it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Argument 4 is no window's array and the closing operation does not write it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Argument 6 is no window's array and the closing operation does not write it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Argument 7 is no window's array and the closing operation does not write it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Argument 8 is no window's array and the closing operation does not write it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Argument 9 is no window's array and the closing operation does not write it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Argument 10 is no window's array and the closing operation does not write it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- Argument 11 is no window's array and the closing operation does not write it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Argument 12 is no window's array and the closing operation does not write it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not the point fetches it: an
    unfetched point has the block index of the point before, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not the point fetches it: an
    unfetched point has the block index of the point before, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not the point fetches it: an
    unfetched point has the block index of the point before, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether or not the point fetches it: an
    unfetched point has the block index of the point before, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether or not the point fetches it: an
    unfetched point has the block index of the point before, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every window's array at what the
    proof data computes and every other unscoped buffer as the closing operation leaves it, ends with the thirteen
    arguments as launched: argument 5 is input window 4's array, and an input's array ends as the region found it; each
    other argument is no window's array and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 4).trans (((dats 0 c).arrAt_in 4 rfl _).trans ((hA c 4).trans (V_main_arg5 m c))),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c)⟩) h

/-! ## The body's accesses: each buffer is read or written whole -/

/-- The whole of a 256×200 buffer (the mask block, window 4). -/
abbrev r0_0 : Rect S256x200 := Rect.unit (s := S256x200) ![0, 0] S256x200.size inb_S256x200_S256x200_0_0
/-- The whole of a 256×160 buffer (windows 0 and 2). -/
abbrev r0_1 : Rect S256x160 := Rect.unit (s := S256x160) ![0, 0] S256x160.size inb_S256x160_S256x160_0_0
/-- The whole of a 256×16×200 buffer (windows 1 and 3). -/
abbrev r0_2 : Rect S256x16x200 := Rect.unit (s := S256x16x200) ![0, 0, 0] S256x16x200.size inb_S256x16x200_S256x16x200_0_0_0
/-- The whole of a 256×72 buffer (the output block, window 5). -/
abbrev r0_3 : Rect S256x72 := Rect.unit (s := S256x72) ![0, 0] S256x72.size inb_S256x72_S256x72_0_0

/-! ## What the body leaves in the output block -/

/-- The output block after the body, from the five input blocks: one store over the whole block, of the two 36-column
    halves side by side — the first computed from the mask block and the blocks of windows 0 and 1, the second from
    the mask block and the blocks of windows 2 and 3. -/
def out0_5 (x0 : Vec F S256x160 .f32) (x1 : Vec F S256x16x200 .f32) (x2 : Vec F S256x160 .f32) (x3 : Vec F S256x16x200 .f32) (x4 : Vec F S256x200 .f32) : Vec F S256x72 .f32 :=
  View.canon [⟨r0_3, k0_pay1 (k0_pay2 (View.ld x4 r0_0)) (k0_pay3 (View.ld x4 r0_0) (View.ld x0 r0_1) (View.ld x1 r0_2)) (View.ld x2 r0_1) (View.ld x3 r0_2)⟩]

/-- The one store covers the output block. -/
theorem cover0_5 (p0 : Vec F S256x72 .f32) (y : S256x72.Idx) :
    ∃ pc ∈ ([⟨r0_3, p0⟩] : List (View.Piece (Elt F) S256x72 .f32)), y ∈ pc.1.set :=
  View.cover_of_tiled [⟨r0_3, p0⟩] S256x72.size (by rfl) y

/-! ## The body's triple -/

set_option maxHeartbeats 4000000 in
/-- The body on whole staging memrefs — the five inputs' at contents `x0 … x4`, the output's at anything — runs to its
    continuation with the inputs' as they were and the output's at `out0_5` of the inputs: it loads the five inputs
    (four of them in its first part), loads the output buffer without using the value, and stores over all of it. -/
theorem sound_kernel (c : Dev nD) (E : Set ℕ) (i : grid0.Coords)
    (arg1 : Memref sig .tc .vmem S256x160 .f32) (harg1 : arg1.IsWhole) (arg2 : Memref sig .tc .vmem S256x16x200 .f32) (harg2 : arg2.IsWhole)
    (arg3 : Memref sig .tc .vmem S256x160 .f32) (harg3 : arg3.IsWhole) (arg4 : Memref sig .tc .vmem S256x16x200 .f32) (harg4 : arg4.IsWhole)
    (arg5 : Memref sig .tc .vmem S256x200 .f32) (harg5 : arg5.IsWhole) (arg6 : Memref sig .tc .vmem S256x72 .f32) (harg6 : arg6.IsWhole)
    (x0 : Vec F S256x160 .f32) (x1 : Vec F S256x16x200 .f32) (x2 : Vec F S256x160 .f32) (x3 : Vec F S256x16x200 .f32) (x4 : Vec F S256x200 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__coaction_kernel i arg1 harg1 arg2 harg2 arg3 harg3 arg4 harg4 arg5 harg5 arg6 harg6) K := by
  simp only [cc0__coaction_kernel_eq_skeleton]; unfold cc0__coaction_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them; after the body at point `t`
    each input's buffer at its block and the output's at `out0_5` of the five input blocks; the invariant holds the
    scoped rest and the generator register, which the body never touches; nothing is owed; shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`: the invariant, the core's debt, and the six current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates without a
    fault, and ends with every window's array at what the proof data computes and every other unscoped buffer as the
    closing operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and the thirteen argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.KIFrame.lean ====
import proofs.«158401_j37486474559594_2_alg».proof.Proof.Gen.KernelIdeal.Launch
import proofs.«158401_j37486474559594_2_alg».proof.Proof.Gen.KernelIdeal.Skeleton
import proofs.«158401_j37486474559594_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The frame run of `KernelIdeal`

@main is eighty host operations, one region over a grid of sixteen points, and one closing host
operation (a concatenation of three arrays along the columns). The region stages six windows: five
inputs, each fetched at every point, and one output, written back at every point. At a point the body
reads the five input blocks whole, reads the output block (the value is dropped), and stores one
block computed from the five inputs over the whole of the output block. Hence every execution
terminates without a fault, each input array ends as the region found it, and no host operation writes
an argument array: the thirteen arguments end as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers of core `c` as the region finds them: the launch memory after the eighty host
    operations that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region allocates. -/
theorem hostOps0_fresh : (hostOps0 : List (HloOp τ sig (Elt F))).Forall fun op => op.fresh = ∅ := by
  simp only [List.Forall]; repeat' constructor
/-- Nor does the one after it. -/
theorem hostOps1_fresh : (hostOps1 : List (HloOp τ sig (Elt F))).Forall fun op => op.fresh = ∅ := by
  simp only [List.Forall]; repeat' constructor

/-- @main is the host operations before the region, the region, and the host operation after it: it reduces to the
    region continued by that last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing concatenation touches unscoped TensorCore references only: arrays of the region or buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result only, and that result is none of the six windows' arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region

Each of the eighty host operations before the region writes its own result buffer, and no result buffer is
an argument: the region finds every argument as launched. -/

set_option maxHeartbeats 4000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! The closing concatenation writes its own result, which is no argument; an argument that is no window's array is
therefore, after the whole run, what the region found. -/

/-- Argument 0 is no window's array and the closing operation does not write it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Argument 1 is no window's array and the closing operation does not write it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Argument 2 is no window's array and the closing operation does not write it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Argument 3 is no window's array and the closing operation does not write it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Argument 4 is no window's array and the closing operation does not write it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Argument 6 is no window's array and the closing operation does not write it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Argument 7 is no window's array and the closing operation does not write it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Argument 8 is no window's array and the closing operation does not write it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Argument 9 is no window's array and the closing operation does not write it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Argument 10 is no window's array and the closing operation does not write it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- Argument 11 is no window's array and the closing operation does not write it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Argument 12 is no window's array and the closing operation does not write it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not the point fetches it: an
    unfetched point has the block index of the point before, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not the point fetches it: an
    unfetched point has the block index of the point before, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not the point fetches it: an
    unfetched point has the block index of the point before, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether or not the point fetches it: an
    unfetched point has the block index of the point before, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether or not the point fetches it: an
    unfetched point has the block index of the point before, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every window's array at what the
    proof data computes and every other unscoped buffer as the closing operation leaves it, ends with the thirteen
    arguments as launched: argument 5 is input window 4's array, and an input's array ends as the region found it; each
    other argument is no window's array and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 4).trans (((dats 0 c).arrAt_in 4 rfl _).trans ((hA c 4).trans (V_main_arg5 m c))),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c)⟩) h

/-! ## The body's accesses: each buffer is read or written whole -/

/-- The whole of a 256×200 buffer (the mask block, window 4). -/
abbrev r0_0 : Rect S256x200 := Rect.unit (s := S256x200) ![0, 0] S256x200.size inb_S256x200_S256x200_0_0
/-- The whole of a 256×160 buffer (windows 0 and 2). -/
abbrev r0_1 : Rect S256x160 := Rect.unit (s := S256x160) ![0, 0] S256x160.size inb_S256x160_S256x160_0_0
/-- The whole of a 256×16×200 buffer (windows 1 and 3). -/
abbrev r0_2 : Rect S256x16x200 := Rect.unit (s := S256x16x200) ![0, 0, 0] S256x16x200.size inb_S256x16x200_S256x16x200_0_0_0
/-- The whole of a 256×72 buffer (the output block, window 5). -/
abbrev r0_3 : Rect S256x72 := Rect.unit (s := S256x72) ![0, 0] S256x72.size inb_S256x72_S256x72_0_0

/-! ## What the body leaves in the output block -/

/-- The output block after the body, from the five input blocks: one store over the whole block, of the two 36-column
    halves side by side — the first computed from the mask block and the blocks of windows 0 and 1, the second from
    the mask block and the blocks of windows 2 and 3. -/
def out0_5 (x0 : Vec F S256x160 .f32) (x1 : Vec F S256x16x200 .f32) (x2 : Vec F S256x160 .f32) (x3 : Vec F S256x16x200 .f32) (x4 : Vec F S256x200 .f32) : Vec F S256x72 .f32 :=
  View.canon [⟨r0_3, k0_pay1 (k0_pay2 (View.ld x4 r0_0)) (k0_pay3 (View.ld x4 r0_0) (View.ld x0 r0_1) (View.ld x1 r0_2)) (View.ld x2 r0_1) (View.ld x3 r0_2)⟩]

/-- The one store covers the output block. -/
theorem cover0_5 (p0 : Vec F S256x72 .f32) (y : S256x72.Idx) :
    ∃ pc ∈ ([⟨r0_3, p0⟩] : List (View.Piece (Elt F) S256x72 .f32)), y ∈ pc.1.set :=
  View.cover_of_tiled [⟨r0_3, p0⟩] S256x72.size (by rfl) y

/-! ## The body's triple -/

set_option maxHeartbeats 4000000 in
/-- The body on whole staging memrefs — the five inputs' at contents `x0 … x4`, the output's at anything — runs to its
    continuation with the inputs' as they were and the output's at `out0_5` of the inputs: it loads the five inputs
    (four of them in its first part), loads the output buffer without using the value, and stores over all of it. -/
theorem sound_kernel (c : Dev nD) (E : Set ℕ) (i : grid0.Coords)
    (arg1 : Memref sig .tc .vmem S256x160 .f32) (harg1 : arg1.IsWhole) (arg2 : Memref sig .tc .vmem S256x16x200 .f32) (harg2 : arg2.IsWhole)
    (arg3 : Memref sig .tc .vmem S256x160 .f32) (harg3 : arg3.IsWhole) (arg4 : Memref sig .tc .vmem S256x16x200 .f32) (harg4 : arg4.IsWhole)
    (arg5 : Memref sig .tc .vmem S256x200 .f32) (harg5 : arg5.IsWhole) (arg6 : Memref sig .tc .vmem S256x72 .f32) (harg6 : arg6.IsWhole)
    (x0 : Vec F S256x160 .f32) (x1 : Vec F S256x16x200 .f32) (x2 : Vec F S256x160 .f32) (x3 : Vec F S256x16x200 .f32) (x4 : Vec F S256x200 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__coaction_kernel i arg1 harg1 arg2 harg2 arg3 harg3 arg4 harg4 arg5 harg5 arg6 harg6) K := by
  simp only [cc0__coaction_kernel_eq_skeleton]; unfold cc0__coaction_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them; after the body at point `t`
    each input's buffer at its block and the output's at `out0_5` of the five input blocks; the invariant holds the
    scoped rest and the generator register, which the body never touches; nothing is owed; shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`: the invariant, the core's debt, and the six current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates without a
    fault, and ends with every window's array at what the proof data computes and every other unscoped buffer as the
    closing operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and the thirteen argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.SpecRows.lean ====
/-
  Reading a 36-entry result row: entry 12·p + o (o < 8) is hidden sum o of order p, entry 12·p + 8 + o (o < 4) is
  output sum o of order p; and the three powers at their literal orders.
-/
import proofs.«158401_j37486474559594_2_alg».proof.Proof.Spec

noncomputable section

namespace Cert.Coaction

theorem pw_zero (x : EReal) : pw 0 x = x := rfl
theorem pw_one (x : EReal) : pw 1 x = x * x := rfl
theorem pw_two (x : EReal) : pw 2 x = (x * x) * x := rfl

theorem row36_s0 (S0 : Fin 3 → Fin 8 → EReal) (S1 : Fin 3 → Fin 4 → EReal) (q : Fin 36) (p : Fin 3) (o : Fin 8)
    (h : q.val = 12 * p.val + o.val) : row36 S0 S1 q = S0 p o := by
  have hp := p.isLt; have ho := o.isLt
  have h1 : q.val % 12 = o.val := by omega
  have h2 : q.val / 12 = p.val := by omega
  unfold row36
  rw [dif_pos (by omega)]
  congr 1
  · exact Fin.ext h2
  · exact Fin.ext h1

theorem row36_s1 (S0 : Fin 3 → Fin 8 → EReal) (S1 : Fin 3 → Fin 4 → EReal) (q : Fin 36) (p : Fin 3) (o : Fin 4)
    (h : q.val = 12 * p.val + 8 + o.val) : row36 S0 S1 q = S1 p o := by
  have hp := p.isLt; have ho := o.isLt
  have h1 : q.val % 12 = 8 + o.val := by omega
  have h2 : q.val / 12 = p.val := by omega
  unfold row36
  rw [dif_neg (by omega)]
  congr 1
  · exact Fin.ext h2
  · exact Fin.ext (by show q.val % 12 - 8 = o.val; omega)

end Cert.Coaction

end
-- ==== Proof.LibConcatCols.lean ====
/-
  A concatenation of matrices along their COLUMNS, read at an index. The result's entry (r, c) comes from the piece whose
  span of columns holds c -- the piece k with (the widths of the pieces before it) <= c < (those widths) + (its width) --
  at row r and column c less those widths.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- A concatenation of matrices along the columns, read at (r, c) with c in piece k: that piece at (r, j), where
    pre + j = c and pre is the total width of the pieces before piece k. -/
theorem concat_cols_piece {M N : ℕ} (xs : List ((s : Shape) × (s.Idx → α)))
    (h : Shape.Concatenates (xs.map (·.1)) (⟨2, ![M, N]⟩ : Shape) 1)
    (k : ℕ) (hk : k < xs.length) {n₁ : ℕ} (x₁ : (⟨2, ![M, n₁]⟩ : Shape).Idx → α)
    (hxk : xs[k] = ⟨(⟨2, ![M, n₁]⟩ : Shape), x₁⟩) (pre : ℕ)
    (hpre : (((xs.take k).map (·.1)).map fun s : Shape =>
      if h : s.rank = (⟨2, ![M, N]⟩ : Shape).rank then s.size ((1 : Fin (⟨2, ![M, N]⟩ : Shape).rank).cast h.symm) else 0).sum = pre)
    (r : Fin M) (j : Fin n₁) (c : Fin N) (hc : pre + j.val = c.val) :
    concatenate (⟨2, ![M, N]⟩ : Shape) 1 xs h (ix2 r c) = x₁ (ix2 r j) :=
  concatenate_apply_piece 1 xs h (ix2 r c) k hk _ x₁ hxk rfl pre hpre (ix2 r j)
    (fun d hd => by
      match d with
      | ⟨0, _⟩ => rfl
      | ⟨1, _⟩ => exact absurd rfl hd)
    hc

end Idealize.ShloMosaic.ConcatCols

end
-- ==== Proof.KerBranch.lean ====
/-
  One branch of the kernel body on a block of 256 samples, read entry by entry.

  The body receives a [256,160] block of weight rows, a [256,16,200] block of histories laid out (sample, feature,
  step) and the mask block as [256,1,200]. The first 128 columns of a weight row, regrouped [16,8], are the first
  layer; columns 128..159, regrouped [8,4], the second. For each power of the history (x, x·x, (x·x)·x) the matrix
  unit multiplies the first layer's transpose into it sample by sample, tanh is taken, the mask multiplied in and
  the 200 steps summed: 8 numbers per sample. Those 8 numbers, broadcast along a new last axis, are multiplied by the
  second layer and summed over the 8: 4 numbers per sample. The six pieces (8,4,8,4,8,4) are laid side by side.

  Entry (r, q) of the result depends on sample r alone, and is the row formula `Cert.Coaction.caK` of that sample's
  weight row, history and mask.
-/
import proofs.«158401_j37486474559594_2_alg».proof.Proof.Gen.KernelIdeal.Skeleton
import proofs.«158401_j37486474559594_2_alg».proof.Proof.Spec
import proofs.«158401_j37486474559594_2_alg».proof.Proof.SpecRows
import proofs.«158401_j37486474559594_2_alg».proof.Proof.LibAxisLayout
import proofs.«158401_j37486474559594_2_alg».proof.Proof.LibConcatCols
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen Idealize.ShloMosaic Idealize.ShloMosaic.ValueIdx
open Idealize.ShloMosaic.AxisLayout Idealize.ShloMosaic.ConcatCols Cert.Coaction

/-! ## The branch as one function of its three blocks -/

/-- The first layer of each sample of the block: columns 0..127 of its weight row as a 16×8 matrix. -/
def W0 (ad : Vec Ideal S256x160 .f32) : FVec Ideal S256x16x8 .f32 :=
  shapeCast S256x16x8 (extractStridedSlice S256x128 ![0, 0] (shapeCast S256x160 ad shapeCasts_S256x160_S256x160)
    slices_S256x160_o0_0_S256x128) shapeCasts_S256x128_S256x16x8

/-- The second layer: columns 128..159 as an 8×4 matrix. -/
def W1 (ad : Vec Ideal S256x160 .f32) : FVec Ideal S256x8x4 .f32 :=
  shapeCast S256x8x4 (extractStridedSlice S256x32 ![0, 128] (shapeCast S256x160 ad shapeCasts_S256x160_S256x160)
    slices_S256x160_o0_128_S256x32) shapeCasts_S256x32_S256x8x4

/-- The three powers of the history block. -/
def H1 (his : Vec Ideal S256x16x200 .f32) : FVec Ideal S256x16x200 .f32 :=
  shapeCast S256x16x200 his shapeCasts_S256x16x200_S256x16x200
def H2 (his : Vec Ideal S256x16x200 .f32) : FVec Ideal S256x16x200 .f32 := mulf (H1 his) (H1 his)
def H3 (his : Vec Ideal S256x16x200 .f32) : FVec Ideal S256x16x200 .f32 := mulf (H2 his) (H1 his)

/-- The masked sums over the steps of the 8 hidden units, per sample. -/
def hidSum (w0 : FVec Ideal S256x16x8 .f32) (hp : FVec Ideal S256x16x200 .f32) (mk : FVec Ideal S256x1x200 .f32) :
    FVec Ideal S256x8 .f32 :=
  multiReduction .add [2] S256x8
    (mulf (tanh (matmul dot_S256x16x8_S256x16x200_S256x8x200_1_1_2_2_0_0 none w0 hp (constant S256x8x200 .f32 0x00000000#32)))
      (broadcastTo S256x8x200 mk broadcasts_S256x1x200_S256x8x200))
    0x00000000#32 reduces_S256x8x200_S256x8 (.inl rfl) rfl

/-- The 4 outputs from the 8 sums and the second layer, per sample. -/
def outSum (s0 : FVec Ideal S256x8 .f32) (w1 : FVec Ideal S256x8x4 .f32) : FVec Ideal S256x4 .f32 :=
  multiReduction .add [1] S256x4
    (mulf (broadcastTo S256x8x4 (shapeCast S256x8x1 s0 shapeCasts_S256x8_S256x8x1) broadcasts_S256x8x1_S256x8x4) w1)
    0x00000000#32 reduces_S256x8x4_S256x4 (.inl rfl) rfl

/-- One branch: the six pieces side by side. -/
def branchK (ad : Vec Ideal S256x160 .f32) (his : Vec Ideal S256x16x200 .f32) (mk : FVec Ideal S256x1x200 .f32) :
    FVec Ideal S256x36 .f32 :=
  concatenate S256x36 1
    [⟨S256x8, hidSum (W0 ad) (H1 his) mk⟩, ⟨S256x4, outSum (hidSum (W0 ad) (H1 his) mk) (W1 ad)⟩,
     ⟨S256x8, hidSum (W0 ad) (H2 his) mk⟩, ⟨S256x4, outSum (hidSum (W0 ad) (H2 his) mk) (W1 ad)⟩,
     ⟨S256x8, hidSum (W0 ad) (H3 his) mk⟩, ⟨S256x4, outSum (hidSum (W0 ad) (H3 his) mk) (W1 ad)⟩]
    Cert.KernelIdeal.Facts₀.concatenates_S256x8_S256x4_S256x8_S256x4_S256x8_S256x4_S256x36_d1

/-- The body's first payload is the branch of the item blocks. -/
theorem pay3_eq (v0 : Vec Ideal S256x200 .f32) (v2 : Vec Ideal S256x160 .f32) (v8 : Vec Ideal S256x16x200 .f32) :
    k0_pay3 v0 v2 v8 = branchK v2 v8 (k0_pay2 v0) := rfl

/-- The stored block is the two branches side by side. -/
theorem pay1_eq (v1 : FVec Ideal S256x1x200 .f32) (v39 : FVec Ideal S256x36 .f32) (v40 : Vec Ideal S256x160 .f32)
    (v46 : Vec Ideal S256x16x200 .f32) :
    k0_pay1 v1 v39 v40 v46
      = concatenate S256x72 1 [⟨S256x36, v39⟩, ⟨S256x36, branchK v40 v46 v1⟩] concatenates_S256x36_S256x36_S256x72_d1 := rfl

/-! ## The pieces at an index -/

theorem W0_apply (ad : Vec Ideal S256x160 .f32) (r : Fin 256) (i : Fin 16) (o : Fin 8) :
    W0 ad (ix3 r i o) = ad (ix2 r (⟨8 * i.val + o.val, by have := i.isLt; have := o.isLt; omega⟩ : Fin 160)) := by
  unfold W0
  rw [shapeCast_apply _ shapeCasts_S256x128_S256x16x8 (ix3 r i o)
      (ix2 r (⟨8 * i.val + o.val, by have := i.isLt; have := o.isLt; omega⟩ : Fin 128)) (by
        rw [Shape.rowMajor_val_three, Shape.rowMajor_val_two]
        show r.val * 128 + (8 * i.val + o.val) = (r.val * 16 + i.val) * 8 + o.val
        omega),
    extractStridedSlice_apply ![0, 0] _ slices_S256x160_o0_0_S256x128 _
      (ix2 r (⟨8 * i.val + o.val, by have := i.isLt; have := o.isLt; omega⟩ : Fin 160)) (fun a => by
        match a with
        | ⟨0, _⟩ => exact (Nat.zero_add _).symm
        | ⟨1, _⟩ => exact (Nat.zero_add _).symm),
    shapeCast_self]

theorem W1_apply (ad : Vec Ideal S256x160 .f32) (r : Fin 256) (i : Fin 8) (o : Fin 4) :
    W1 ad (ix3 r i o) = ad (ix2 r (⟨128 + 4 * i.val + o.val, by have := i.isLt; have := o.isLt; omega⟩ : Fin 160)) := by
  unfold W1
  rw [shapeCast_apply _ shapeCasts_S256x32_S256x8x4 (ix3 r i o)
      (ix2 r (⟨4 * i.val + o.val, by have := i.isLt; have := o.isLt; omega⟩ : Fin 32)) (by
        rw [Shape.rowMajor_val_three, Shape.rowMajor_val_two]
        show r.val * 32 + (4 * i.val + o.val) = (r.val * 8 + i.val) * 4 + o.val
        omega),
    extractStridedSlice_apply ![0, 128] _ slices_S256x160_o0_128_S256x32 _
      (ix2 r (⟨128 + 4 * i.val + o.val, by have := i.isLt; have := o.isLt; omega⟩ : Fin 160)) (fun a => by
        match a with
        | ⟨0, _⟩ => exact (Nat.zero_add _).symm
        | ⟨1, _⟩ => exact (Nat.add_assoc 128 _ _)),
    shapeCast_self]

theorem H1_apply (his : Vec Ideal S256x16x200 .f32) (j : S256x16x200.Idx) : H1 his j = his j := by
  unfold H1; rw [shapeCast_self]

theorem H2_apply (his : Vec Ideal S256x16x200 .f32) (j : S256x16x200.Idx) : H2 his j = his j * his j := by
  unfold H2; rw [mulf_apply, H1_apply]

theorem H3_apply (his : Vec Ideal S256x16x200 .f32) (j : S256x16x200.Idx) : H3 his j = (his j * his j) * his j := by
  unfold H3; rw [mulf_apply, H2_apply, H1_apply]

/-! ### The matrix unit's product: batch axis 0, the feature axis of both operands contracted -/

theorem lhs_0 (j : S256x8x200.Idx) (q : dot_S256x16x8_S256x16x200_S256x8x200_1_1_2_2_0_0.contr.Idx) : (dot_S256x16x8_S256x16x200_S256x8x200_1_1_2_2_0_0.lhsIdx j q 0).val = (j 0).val := by
  unfold DotDims.lhsIdx
  rw [dif_pos (show (0 : Fin S256x16x8.rank) ∈ dot_S256x16x8_S256x16x200_S256x8x200_1_1_2_2_0_0.lhsBatch by decide)]
  rfl
theorem lhs_1 (j : S256x8x200.Idx) (q : dot_S256x16x8_S256x16x200_S256x8x200_1_1_2_2_0_0.contr.Idx) : (dot_S256x16x8_S256x16x200_S256x8x200_1_1_2_2_0_0.lhsIdx j q 1).val = (q ⟨0, by decide⟩).val :=
  dot_S256x16x8_S256x16x200_S256x8x200_1_1_2_2_0_0.lhsIdx_val_of_single rfl j q
theorem lhs_2 (j : S256x8x200.Idx) (q : dot_S256x16x8_S256x16x200_S256x8x200_1_1_2_2_0_0.contr.Idx) : (dot_S256x16x8_S256x16x200_S256x8x200_1_1_2_2_0_0.lhsIdx j q 2).val = (j 1).val := by
  unfold DotDims.lhsIdx
  rw [dif_neg (show ¬(2 : Fin S256x16x8.rank) ∈ dot_S256x16x8_S256x16x200_S256x8x200_1_1_2_2_0_0.lhsBatch by decide),
    dif_pos (show (2 : Fin S256x16x8.rank) ∈ dot_S256x16x8_S256x16x200_S256x8x200_1_1_2_2_0_0.lhsNonContracting by decide)]
  rfl
theorem rhs_0 (j : S256x8x200.Idx) (q : dot_S256x16x8_S256x16x200_S256x8x200_1_1_2_2_0_0.contr.Idx) : (dot_S256x16x8_S256x16x200_S256x8x200_1_1_2_2_0_0.rhsIdx j q 0).val = (j 0).val := by
  unfold DotDims.rhsIdx
  rw [dif_pos (show (0 : Fin S256x16x200.rank) ∈ dot_S256x16x8_S256x16x200_S256x8x200_1_1_2_2_0_0.rhsBatch by decide)]
  rfl
theorem rhs_1 (j : S256x8x200.Idx) (q : dot_S256x16x8_S256x16x200_S256x8x200_1_1_2_2_0_0.contr.Idx) : (dot_S256x16x8_S256x16x200_S256x8x200_1_1_2_2_0_0.rhsIdx j q 1).val = (q ⟨0, by decide⟩).val :=
  dot_S256x16x8_S256x16x200_S256x8x200_1_1_2_2_0_0.rhsIdx_val_of_single rfl j q
theorem rhs_2 (j : S256x8x200.Idx) (q : dot_S256x16x8_S256x16x200_S256x8x200_1_1_2_2_0_0.contr.Idx) : (dot_S256x16x8_S256x16x200_S256x8x200_1_1_2_2_0_0.rhsIdx j q 2).val = (j 2).val := by
  unfold DotDims.rhsIdx
  rw [dif_neg (show ¬(2 : Fin S256x16x200.rank) ∈ dot_S256x16x8_S256x16x200_S256x8x200_1_1_2_2_0_0.rhsBatch by decide),
    dif_pos (show (2 : Fin S256x16x200.rank) ∈ dot_S256x16x8_S256x16x200_S256x8x200_1_1_2_2_0_0.rhsNonContracting by decide)]
  rfl

/-- Entry (r, o, t) of the product into zeros: the sum over the 16 features of first-layer (i, o) times power (i, t). -/
theorem mm_apply (w0 : FVec Ideal S256x16x8 .f32) (hp : FVec Ideal S256x16x200 .f32) (r : Fin 256) (o : Fin 8) (t : Fin 200) :
    matmul dot_S256x16x8_S256x16x200_S256x8x200_1_1_2_2_0_0 none w0 hp (constant S256x8x200 .f32 0x00000000#32) (ix3 r o t)
      = ∑ i : Fin 16, w0 (ix3 r i o) * hp (ix3 r i t) := by
  refine (Ideal.matmul_constant_zero_apply dot_S256x16x8_S256x16x200_S256x8x200_1_1_2_2_0_0 none w0 hp (ix3 r o t)).trans ?_
  rw [← Equiv.sum_comp (contrEquiv1 dot_S256x16x8_S256x16x200_S256x8x200_1_1_2_2_0_0 16 rfl rfl).symm]
  refine Finset.sum_congr rfl fun k _ => ?_
  have hk := contrEquiv1_symm_val dot_S256x16x8_S256x16x200_S256x8x200_1_1_2_2_0_0 16 rfl rfl k
  have el : dot_S256x16x8_S256x16x200_S256x8x200_1_1_2_2_0_0.lhsIdx (ix3 r o t) ((contrEquiv1 dot_S256x16x8_S256x16x200_S256x8x200_1_1_2_2_0_0 16 rfl rfl).symm k) = ix3 r k o :=
    funext fun a => Fin.ext (by
      match a with
      | ⟨0, _⟩ => exact lhs_0 _ _
      | ⟨1, _⟩ => exact (lhs_1 _ _).trans hk
      | ⟨2, _⟩ => exact lhs_2 _ _)
  have er : dot_S256x16x8_S256x16x200_S256x8x200_1_1_2_2_0_0.rhsIdx (ix3 r o t) ((contrEquiv1 dot_S256x16x8_S256x16x200_S256x8x200_1_1_2_2_0_0 16 rfl rfl).symm k) = ix3 r k t :=
    funext fun a => Fin.ext (by
      match a with
      | ⟨0, _⟩ => exact rhs_0 _ _
      | ⟨1, _⟩ => exact (rhs_1 _ _).trans hk
      | ⟨2, _⟩ => exact rhs_2 _ _)
  rw [el, er]

/-- The masked sum of hidden unit o of sample r. -/
theorem hidSum_apply (w0 : FVec Ideal S256x16x8 .f32) (hp : FVec Ideal S256x16x200 .f32) (mk : FVec Ideal S256x1x200 .f32)
    (r : Fin 256) (o : Fin 8) :
    hidSum w0 hp mk (ix2 r o)
      = ∑ t : Fin 200, Ideal.tanh (∑ i : Fin 16, w0 (ix3 r i o) * hp (ix3 r i t)) * mk (ix3 r (0 : Fin 1) t) := by
  unfold hidSum
  rw [sum_last_zero]
  refine Finset.sum_congr rfl fun t _ => ?_
  rw [mulf_apply, bcast3_apply mk broadcasts_S256x1x200_S256x8x200 r o t r (0 : Fin 1) t (by simp) (by simp) (by simp)]
  show Ideal.tanh (matmul dot_S256x16x8_S256x16x200_S256x8x200_1_1_2_2_0_0 none w0 hp (constant S256x8x200 .f32 0x00000000#32) (ix3 r o t)) * _ = _
  rw [mm_apply]

/-- Output o of sample r from the sums and the second layer. -/
theorem outSum_apply (s0 : FVec Ideal S256x8 .f32) (w1 : FVec Ideal S256x8x4 .f32) (r : Fin 256) (o : Fin 4) :
    outSum s0 w1 (ix2 r o) = ∑ i : Fin 8, s0 (ix2 r i) * w1 (ix3 r i o) := by
  unfold outSum
  rw [sum_mid_zero]
  refine Finset.sum_congr rfl fun i _ => ?_
  rw [mulf_apply, bcast3_apply _ broadcasts_S256x8x1_S256x8x4 r i o r i (0 : Fin 1) (by simp) (by simp) (by simp),
    cast_addLast_apply]

/-! ## The branch at an index -/

/-- Six pieces of widths 8,4,8,4,8,4 side by side, read at (r, q): the row of 36 entries whose hidden sums are the
    wide pieces' entries of row r and whose output sums the narrow ones'. -/
theorem cat6_apply (x0 x2 x4 : S256x8.Idx → EReal) (x1 x3 x5 : S256x4.Idx → EReal) (r : Fin 256) (q : Fin 36)
    (S0 : Fin 3 → Fin 8 → EReal) (S1 : Fin 3 → Fin 4 → EReal)
    (h0 : ∀ o, x0 (ix2 r o) = S0 0 o) (h1 : ∀ o, x1 (ix2 r o) = S1 0 o)
    (h2 : ∀ o, x2 (ix2 r o) = S0 1 o) (h3 : ∀ o, x3 (ix2 r o) = S1 1 o)
    (h4 : ∀ o, x4 (ix2 r o) = S0 2 o) (h5 : ∀ o, x5 (ix2 r o) = S1 2 o) :
    concatenate S256x36 1 [⟨S256x8, x0⟩, ⟨S256x4, x1⟩, ⟨S256x8, x2⟩, ⟨S256x4, x3⟩, ⟨S256x8, x4⟩, ⟨S256x4, x5⟩]
      Cert.KernelIdeal.Facts₀.concatenates_S256x8_S256x4_S256x8_S256x4_S256x8_S256x4_S256x36_d1 (ix2 r q) = row36 S0 S1 q := by
  have hq := q.isLt
  rcases (by omega : q.val < 8 ∨ (8 ≤ q.val ∧ q.val < 12) ∨ (12 ≤ q.val ∧ q.val < 20) ∨ (20 ≤ q.val ∧ q.val < 24)
      ∨ (24 ≤ q.val ∧ q.val < 32) ∨ (32 ≤ q.val ∧ q.val < 36)) with h | h | h | h | h | h
  · rw [concat_cols_piece ([⟨S256x8, x0⟩, ⟨S256x4, x1⟩, ⟨S256x8, x2⟩, ⟨S256x4, x3⟩, ⟨S256x8, x4⟩, ⟨S256x4, x5⟩] : List ((s : Shape) × (s.Idx → EReal))) Cert.KernelIdeal.Facts₀.concatenates_S256x8_S256x4_S256x8_S256x4_S256x8_S256x4_S256x36_d1 0 (by simp) x0 rfl 0 rfl r (⟨q.val, h⟩ : Fin 8) q (by simp),
      row36_s0 S0 S1 q 0 ⟨q.val, h⟩ (by simp), h0]
  · rw [concat_cols_piece ([⟨S256x8, x0⟩, ⟨S256x4, x1⟩, ⟨S256x8, x2⟩, ⟨S256x4, x3⟩, ⟨S256x8, x4⟩, ⟨S256x4, x5⟩] : List ((s : Shape) × (s.Idx → EReal))) Cert.KernelIdeal.Facts₀.concatenates_S256x8_S256x4_S256x8_S256x4_S256x8_S256x4_S256x36_d1 1 (by simp) x1 rfl 8 rfl r (⟨q.val - 8, by omega⟩ : Fin 4) q (by show 8 + (q.val - 8) = q.val; omega),
      row36_s1 S0 S1 q 0 ⟨q.val - 8, by omega⟩ (by show q.val = 12 * 0 + 8 + (q.val - 8); omega), h1]
  · rw [concat_cols_piece ([⟨S256x8, x0⟩, ⟨S256x4, x1⟩, ⟨S256x8, x2⟩, ⟨S256x4, x3⟩, ⟨S256x8, x4⟩, ⟨S256x4, x5⟩] : List ((s : Shape) × (s.Idx → EReal))) Cert.KernelIdeal.Facts₀.concatenates_S256x8_S256x4_S256x8_S256x4_S256x8_S256x4_S256x36_d1 2 (by simp) x2 rfl 12 rfl r (⟨q.val - 12, by omega⟩ : Fin 8) q (by show 12 + (q.val - 12) = q.val; omega),
      row36_s0 S0 S1 q 1 ⟨q.val - 12, by omega⟩ (by show q.val = 12 * 1 + (q.val - 12); omega), h2]
  · rw [concat_cols_piece ([⟨S256x8, x0⟩, ⟨S256x4, x1⟩, ⟨S256x8, x2⟩, ⟨S256x4, x3⟩, ⟨S256x8, x4⟩, ⟨S256x4, x5⟩] : List ((s : Shape) × (s.Idx → EReal))) Cert.KernelIdeal.Facts₀.concatenates_S256x8_S256x4_S256x8_S256x4_S256x8_S256x4_S256x36_d1 3 (by simp) x3 rfl 20 rfl r (⟨q.val - 20, by omega⟩ : Fin 4) q (by show 20 + (q.val - 20) = q.val; omega),
      row36_s1 S0 S1 q 1 ⟨q.val - 20, by omega⟩ (by show q.val = 12 * 1 + 8 + (q.val - 20); omega), h3]
  · rw [concat_cols_piece ([⟨S256x8, x0⟩, ⟨S256x4, x1⟩, ⟨S256x8, x2⟩, ⟨S256x4, x3⟩, ⟨S256x8, x4⟩, ⟨S256x4, x5⟩] : List ((s : Shape) × (s.Idx → EReal))) Cert.KernelIdeal.Facts₀.concatenates_S256x8_S256x4_S256x8_S256x4_S256x8_S256x4_S256x36_d1 4 (by simp) x4 rfl 24 rfl r (⟨q.val - 24, by omega⟩ : Fin 8) q (by show 24 + (q.val - 24) = q.val; omega),
      row36_s0 S0 S1 q 2 ⟨q.val - 24, by omega⟩ (by show q.val = 12 * 2 + (q.val - 24); omega), h4]
  · rw [concat_cols_piece ([⟨S256x8, x0⟩, ⟨S256x4, x1⟩, ⟨S256x8, x2⟩, ⟨S256x4, x3⟩, ⟨S256x8, x4⟩, ⟨S256x4, x5⟩] : List ((s : Shape) × (s.Idx → EReal))) Cert.KernelIdeal.Facts₀.concatenates_S256x8_S256x4_S256x8_S256x4_S256x8_S256x4_S256x36_d1 5 (by simp) x5 rfl 32 rfl r (⟨q.val - 32, by omega⟩ : Fin 4) q (by show 32 + (q.val - 32) = q.val; omega),
      row36_s1 S0 S1 q 2 ⟨q.val - 32, by omega⟩ (by show q.val = 12 * 2 + 8 + (q.val - 32); omega), h5]

/-- A masked hidden sum of the block is the row formula's, for a power block `hp` that is entrywise the p-th power. -/
theorem hidSum_spec (ad : Vec Ideal S256x160 .f32) (his : Vec Ideal S256x16x200 .f32) (mk : FVec Ideal S256x1x200 .f32)
    (p : Fin 3) (hp : FVec Ideal S256x16x200 .f32) (hhp : ∀ j, hp j = pw p (his j)) (r : Fin 256) (o : Fin 8) :
    hidSum (W0 ad) hp mk (ix2 r o)
      = s0K (fun k => ad (ix2 r k)) (fun t i => his (ix3 r i t)) (fun t => mk (ix3 r (0 : Fin 1) t)) p o := by
  rw [hidSum_apply]
  unfold s0K hidK w0
  refine Finset.sum_congr rfl fun t _ => ?_
  refine congrArg (fun z => Ideal.tanh z * mk (ix3 r (0 : Fin 1) t)) ?_
  refine Finset.sum_congr rfl fun i _ => ?_
  rw [W0_apply, hhp]

/-- An output sum of the block is the row formula's. -/
theorem outSum_spec (ad : Vec Ideal S256x160 .f32) (his : Vec Ideal S256x16x200 .f32) (mk : FVec Ideal S256x1x200 .f32)
    (p : Fin 3) (hp : FVec Ideal S256x16x200 .f32) (hhp : ∀ j, hp j = pw p (his j)) (r : Fin 256) (o : Fin 4) :
    outSum (hidSum (W0 ad) hp mk) (W1 ad) (ix2 r o)
      = s1K (fun k => ad (ix2 r k)) (fun t i => his (ix3 r i t)) (fun t => mk (ix3 r (0 : Fin 1) t)) p o := by
  rw [outSum_apply]
  unfold s1K w1
  refine Finset.sum_congr rfl fun i _ => ?_
  rw [hidSum_spec ad his mk p hp hhp, W1_apply]

/-- Entry (r, q) of a branch is entry q of the row formula of sample r's weight row, history and mask. -/
theorem branchK_apply (ad : Vec Ideal S256x160 .f32) (his : Vec Ideal S256x16x200 .f32) (mk : FVec Ideal S256x1x200 .f32)
    (r : Fin 256) (q : Fin 36) :
    branchK ad his mk (ix2 r q)
      = caK (fun k => ad (ix2 r k)) (fun t i => his (ix3 r i t)) (fun t => mk (ix3 r (0 : Fin 1) t)) q := by
  unfold branchK caK
  exact cat6_apply _ _ _ _ _ _ r q _ _
    (fun o => hidSum_spec ad his mk 0 _ (fun j => by rw [H1_apply, pw_zero]) r o)
    (fun o => outSum_spec ad his mk 0 _ (fun j => by rw [H1_apply, pw_zero]) r o)
    (fun o => hidSum_spec ad his mk 1 _ (fun j => by rw [H2_apply, pw_one]) r o)
    (fun o => outSum_spec ad his mk 1 _ (fun j => by rw [H2_apply, pw_one]) r o)
    (fun o => hidSum_spec ad his mk 2 _ (fun j => by rw [H3_apply, pw_two]) r o)
    (fun o => outSum_spec ad his mk 2 _ (fun j => by rw [H3_apply, pw_two]) r o)

end Cert.KernelIdeal.KerValue

end
-- ==== Proof.KerHost.lean ====
/-
  The arrays the kernel's host side computes before the region, as functions of the arguments.

  An index array is first wrapped the way jnp wraps negative indices — an entry below zero has the table's length added —
  and given a trailing unit axis; the table's rows are then gathered at those indices. The first 128 result columns are
  the two single-row gathers side by side; the next 128 the two history gathers each summed over the 200 steps, side by
  side; the co-action unit takes the gathered weight rows, the gathered histories with their last two axes exchanged
  (sample, feature, step), and the mask.
-/
import proofs.«158401_j37486474559594_2_alg».proof.Proof.Gen.KernelIdeal
import Idealize.ShloMosaic.PureOps.Ideal

noncomputable section

namespace Cert.KernelIdeal.KerValue

open Cert.KernelIdeal Cert.KernelIdeal.Facts₀ Idealize.ShloMosaic

/-- A [4096] index vector wrapped at table length `N`, as a [4096,1] column. -/
def wrapB (N : BitVec 32) (x : (⟨S4096, .i32⟩ : BufTy).Contents (Elt Ideal)) : (⟨S4096x1, .i32⟩ : BufTy).Contents (Elt Ideal) :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 N))) x)

/-- A [4096,200] index array wrapped at table length `N`, as [4096,200,1]. -/
def wrapH (N : BitVec 32) (x : (⟨S4096x200, .i32⟩ : BufTy).Contents (Elt Ideal)) : (⟨S4096x200x1, .i32⟩ : BufTy).Contents (Elt Ideal) :=
  broadcastInDim S4096x200x1 ![0, 1] bcast_S4096x200_S4096x200x1_0_1
    (select (cmpi .slt x (broadcastInDim S4096x200 ![] bcast_S_S4096x200 (constantI S_ 32 0#32)))
      (addi x (broadcastInDim S4096x200 ![] bcast_S_S4096x200 (constantI S_ 32 N))) x)

def midB (a7 : (⟨S100000x64, .f32⟩ : BufTy).Contents (Elt Ideal)) (a1 : (⟨S4096, .i32⟩ : BufTy).Contents (Elt Ideal)) :
    (⟨S4096x64, .f32⟩ : BufTy).Contents (Elt Ideal) :=
  Host.gather gather_S100000x64_S4096x1_S4096x64_1_0_n_n_0_1_164 a7 (wrapB 100000#32 a1)

def cateB (a8 : (⟨S1000x64, .f32⟩ : BufTy).Contents (Elt Ideal)) (a2 : (⟨S4096, .i32⟩ : BufTy).Contents (Elt Ideal)) :
    (⟨S4096x64, .f32⟩ : BufTy).Contents (Elt Ideal) :=
  Host.gather gather_S1000x64_S4096x1_S4096x64_1_0_n_n_0_1_164 a8 (wrapB 1000#32 a2)

def midHis (a7 : (⟨S100000x64, .f32⟩ : BufTy).Contents (Elt Ideal)) (a3 : (⟨S4096x200, .i32⟩ : BufTy).Contents (Elt Ideal)) :
    (⟨S4096x200x64, .f32⟩ : BufTy).Contents (Elt Ideal) :=
  Host.gather gather_S100000x64_S4096x200x1_S4096x200x64_2_0_n_n_0_2_164 a7 (wrapH 100000#32 a3)

def cateHis (a8 : (⟨S1000x64, .f32⟩ : BufTy).Contents (Elt Ideal)) (a4 : (⟨S4096x200, .i32⟩ : BufTy).Contents (Elt Ideal)) :
    (⟨S4096x200x64, .f32⟩ : BufTy).Contents (Elt Ideal) :=
  Host.gather gather_S1000x64_S4096x200x1_S4096x200x64_2_0_n_n_0_2_164 a8 (wrapH 1000#32 a4)

def adItem (a9 : (⟨S100000x160, .f32⟩ : BufTy).Contents (Elt Ideal)) (a1 : (⟨S4096, .i32⟩ : BufTy).Contents (Elt Ideal)) :
    (⟨S4096x160, .f32⟩ : BufTy).Contents (Elt Ideal) :=
  Host.gather gather_S100000x160_S4096x1_S4096x160_1_0_n_n_0_1_1160 a9 (wrapB 100000#32 a1)

def adCate (a10 : (⟨S1000x160, .f32⟩ : BufTy).Contents (Elt Ideal)) (a2 : (⟨S4096, .i32⟩ : BufTy).Contents (Elt Ideal)) :
    (⟨S4096x160, .f32⟩ : BufTy).Contents (Elt Ideal) :=
  Host.gather gather_S1000x160_S4096x1_S4096x160_1_0_n_n_0_1_1160 a10 (wrapB 1000#32 a2)

def hisItem (a11 : (⟨S100000x16, .f32⟩ : BufTy).Contents (Elt Ideal)) (a3 : (⟨S4096x200, .i32⟩ : BufTy).Contents (Elt Ideal)) :
    (⟨S4096x200x16, .f32⟩ : BufTy).Contents (Elt Ideal) :=
  Host.gather gather_S100000x16_S4096x200x1_S4096x200x16_2_0_n_n_0_2_116 a11 (wrapH 100000#32 a3)

def hisCate (a12 : (⟨S1000x16, .f32⟩ : BufTy).Contents (Elt Ideal)) (a4 : (⟨S4096x200, .i32⟩ : BufTy).Contents (Elt Ideal)) :
    (⟨S4096x200x16, .f32⟩ : BufTy).Contents (Elt Ideal) :=
  Host.gather gather_S1000x16_S4096x200x1_S4096x200x16_2_0_n_n_0_2_116 a12 (wrapH 1000#32 a4)

/-- A gathered history with its step and feature axes exchanged: (sample, feature, step). -/
def hisT (x : (⟨S4096x200x16, .f32⟩ : BufTy).Contents (Elt Ideal)) : (⟨S4096x16x200, .f32⟩ : BufTy).Contents (Elt Ideal) :=
  transpose S4096x16x200 [0, 2, 1] x transposes_S4096x200x16_S4096x16x200_0_2_1

/-- Two [4096,64] arrays side by side. -/
def cat64 (x y : (⟨S4096x64, .f32⟩ : BufTy).Contents (Elt Ideal)) : (⟨S4096x128, .f32⟩ : BufTy).Contents (Elt Ideal) :=
  concatenate S4096x128 1 [⟨S4096x64, x⟩, ⟨S4096x64, y⟩] concatenates_S4096x64_S4096x64_S4096x128_d1

/-- A [4096,200,64] array summed over its 200 steps, from zero. -/
def sumSteps (x : (⟨S4096x200x64, .f32⟩ : BufTy).Contents (Elt Ideal)) : (⟨S4096x64, .f32⟩ : BufTy).Contents (Elt Ideal) :=
  Host.reduceAdd x (constant (F := Ideal) S_ .f32 0x00000000#32) reducesTo_S4096x200x64_S4096x64_d1 h_S_

/-- The three parts of the result side by side: 128 + 128 + 72 columns. -/
def cat3 (x y : (⟨S4096x128, .f32⟩ : BufTy).Contents (Elt Ideal)) (z : (⟨S4096x72, .f32⟩ : BufTy).Contents (Elt Ideal)) :
    (⟨S4096x328, .f32⟩ : BufTy).Contents (Elt Ideal) :=
  concatenate S4096x328 1 [⟨S4096x128, x⟩, ⟨S4096x128, y⟩, ⟨S4096x72, z⟩] concatenates_S4096x128_S4096x128_S4096x72_S4096x328_d1

end Cert.KernelIdeal.KerValue

end
-- ==== Proof.KerValue.lean ====
/-
  What the kernel's result array holds after the run, as one function of the argument arrays.

  The region's output array is [4096,72]; grid point t writes rows 256·t .. 256·t+255 of it, computed from the same rows
  of the five input arrays. Row b of the output depends on row b of the inputs alone: its first 36 entries are the
  co-action row of the item weights, the item history and the mask of sample b, the last 36 that of the category
  weights and history. The sixteen blocks tile the array, so the array ends holding that function everywhere. The
  closing host operation lays the two host-computed [4096,128] arrays and this array side by side.
-/
import proofs.«158401_j37486474559594_2_alg».proof.Proof.KIFrame
import proofs.«158401_j37486474559594_2_alg».proof.Proof.KerBranch
import proofs.«158401_j37486474559594_2_alg».proof.Proof.KerHost
import proofs.«158401_j37486474559594_2_alg».proof.Proof.LibHostResults
import Idealize.ShloMosaic.Lib.Pipeline.Value
import Idealize.ShloMosaic.Lib.StableHlo.Run

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.ValueIdx
open Idealize.ShloMosaic.AxisLayout Idealize.ShloMosaic.ConcatCols Idealize.ShloMosaic.StableHlo
open Idealize.SL.Sem Cert.Coaction
open Idealize.ShloMosaic.Pipeline (Dat)

/-! ## The output array as one function of the five input arrays -/

/-- The [4096,72] co-action array from the weight arrays, the histories laid out (sample, feature, step) and the mask:
    row b is the item row formula then the category row formula of sample b. -/
def G72K (adI : S4096x160.Idx → EReal) (hI : S4096x16x200.Idx → EReal) (adC : S4096x160.Idx → EReal)
    (hC : S4096x16x200.Idx → EReal) (mask : S4096x200.Idx → EReal) : S4096x72.Idx → EReal :=
  fun i =>
    if h : (i 1).val < 36 then
      caK (fun k => adI (ix2 (i 0 : Fin 4096) k)) (fun t f => hI (ix3 (i 0 : Fin 4096) f t))
        (fun t => mask (ix2 (i 0 : Fin 4096) t)) ⟨(i 1).val, h⟩
    else
      caK (fun k => adC (ix2 (i 0 : Fin 4096) k)) (fun t f => hC (ix3 (i 0 : Fin 4096) f t))
        (fun t => mask (ix2 (i 0 : Fin 4096) t)) ⟨(i 1).val - 36, by have := idx2_lt1 i; omega⟩

/-- Row r of block T is row 256·T + r of the array. -/
def rowOf (T : Nat) (hT : T < 16) (r : Fin 256) : Fin 4096 := ⟨256 * T + r.val, by have := r.isLt; omega⟩

/-- The mask block with its unit axis, read back. -/
theorem pay2_apply (x4 : Vec Ideal S256x200 .f32) (r : Fin 256) (t : Fin 200) :
    k0_pay2 x4 (ix3 r (0 : Fin 1) t) = x4 (ix2 r t) := by
  unfold k0_pay2
  exact cast_addMid_apply x4 shapeCasts_S256x200_S256x1x200 r 0 t

/-- The stored block, entry by entry: if the five loaded blocks are rows 256·T.. of five arrays, the stored block is the
    same rows of `G72K` of those arrays. -/
theorem block_apply (x0 : Vec Ideal S256x160 .f32) (x1 : Vec Ideal S256x16x200 .f32) (x2 : Vec Ideal S256x160 .f32)
    (x3 : Vec Ideal S256x16x200 .f32) (x4 : Vec Ideal S256x200 .f32)
    (A0 : S4096x160.Idx → EReal) (A1 : S4096x16x200.Idx → EReal) (A2 : S4096x160.Idx → EReal)
    (A3 : S4096x16x200.Idx → EReal) (A4 : S4096x200.Idx → EReal) (T : Nat) (hT : T < 16)
    (h0 : ∀ (r : Fin 256) (k : Fin 160), x0 (ix2 r k) = A0 (ix2 (rowOf T hT r) k))
    (h1 : ∀ (r : Fin 256) (f : Fin 16) (t : Fin 200), x1 (ix3 r f t) = A1 (ix3 (rowOf T hT r) f t))
    (h2 : ∀ (r : Fin 256) (k : Fin 160), x2 (ix2 r k) = A2 (ix2 (rowOf T hT r) k))
    (h3 : ∀ (r : Fin 256) (f : Fin 16) (t : Fin 200), x3 (ix3 r f t) = A3 (ix3 (rowOf T hT r) f t))
    (h4 : ∀ (r : Fin 256) (t : Fin 200), x4 (ix2 r t) = A4 (ix2 (rowOf T hT r) t))
    (y : S256x72.Idx) :
    k0_pay1 (k0_pay2 x4) (k0_pay3 x4 x0 x1) x2 x3 y
      = G72K A0 A1 A2 A3 A4 (ix2 (rowOf T hT (y 0)) (y 1)) := by
  obtain ⟨r, q, rfl⟩ : ∃ (r : Fin 256) (q : Fin 72), y = ix2 r q := ⟨y 0, y 1, eq_ix2 y⟩
  rw [pay1_eq, pay3_eq]
  show _ = G72K A0 A1 A2 A3 A4 (ix2 (rowOf T hT r) q)
  unfold G72K
  by_cases hq : q.val < 36
  · rw [dif_pos (show ((ix2 (rowOf T hT r) q : S4096x72.Idx) 1).val < 36 from hq)]
    rw [concat_cols_piece ([⟨S256x36, branchK x0 x1 (k0_pay2 x4)⟩, ⟨S256x36, branchK x2 x3 (k0_pay2 x4)⟩] : List ((s : Shape) × (s.Idx → EReal))) concatenates_S256x36_S256x36_S256x72_d1 0 (by simp) (branchK x0 x1 (k0_pay2 x4)) rfl 0 rfl r
      (⟨q.val, hq⟩ : Fin 36) q (by simp), branchK_apply]
    have e0 : (fun k => x0 (ix2 r k)) = fun k => A0 (ix2 (rowOf T hT r) k) := funext fun k => h0 r k
    have e1 : (fun (t : Fin 200) (f : Fin 16) => x1 (ix3 r f t)) = fun t f => A1 (ix3 (rowOf T hT r) f t) :=
      funext fun t => funext fun f => h1 r f t
    have e4 : (fun t => k0_pay2 x4 (ix3 r (0 : Fin 1) t)) = fun t => A4 (ix2 (rowOf T hT r) t) :=
      funext fun t => (pay2_apply x4 r t).trans (h4 r t)
    rw [e0, e1, e4]
  · have hq72 := q.isLt
    rw [dif_neg (show ¬ ((ix2 (rowOf T hT r) q : S4096x72.Idx) 1).val < 36 from hq)]
    rw [concat_cols_piece ([⟨S256x36, branchK x0 x1 (k0_pay2 x4)⟩, ⟨S256x36, branchK x2 x3 (k0_pay2 x4)⟩] : List ((s : Shape) × (s.Idx → EReal))) concatenates_S256x36_S256x36_S256x72_d1 1 (by simp) (branchK x2 x3 (k0_pay2 x4)) rfl 36 rfl r
      (⟨q.val - 36, by omega⟩ : Fin 36) q (by show 36 + (q.val - 36) = q.val; omega), branchK_apply]
    have e2 : (fun k => x2 (ix2 r k)) = fun k => A2 (ix2 (rowOf T hT r) k) := funext fun k => h2 r k
    have e3 : (fun (t : Fin 200) (f : Fin 16) => x3 (ix3 r f t)) = fun t f => A3 (ix3 (rowOf T hT r) f t) :=
      funext fun t => funext fun f => h3 r f t
    have e4 : (fun t => k0_pay2 x4 (ix3 r (0 : Fin 1) t)) = fun t => A4 (ix2 (rowOf T hT r) t) :=
      funext fun t => (pay2_apply x4 r t).trans (h4 r t)
    rw [e2, e3, e4]

/-! ## What each grid point writes back, and the cover -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: every window's block index is (t, 0) or (t, 0, 0). -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

set_option maxHeartbeats 8000000 in
/-- What point t writes back is block t of `G72K` of the arrays as the region finds them. -/
theorem flushed5_eq (c : Dev nD) (t : Fin cfg0.N) :
    (dats m 0 c).flushed 5 t = ((cfg0.win 5).blk t).view.read (Elt Ideal)
      (G72K (V m c main_v38) (V m c main_v60) (V m c main_v45) (V m c main_v61) (V m c main_arg5)) := by
  show (cfg0.win 5).cut (grid0.coords t) ((dats m 0 c).after 5 t) = _
  rw [after0_5]
  unfold out0_5
  rw [View.canon_unit_zero hz2]
  simp only [View.ld_unit_zero (S := S256x200) hz2, View.ld_unit_zero (S := S256x160) hz2,
    View.ld_unit_zero (S := S256x16x200) hz3]
  obtain ⟨e00, e01, e10, e11, e12, e20, e21, e30, e31, e32, e40, e41, e50, e51⟩ := idx_facts t
  have ht : t.val < 16 := lt_of_lt_of_eq (show t.val < grid0.N from t.isLt) N_0
  funext y
  show k0_pay1 (k0_pay2 (iblk m c 4 t)) (k0_pay3 (iblk m c 4 t) (iblk m c 0 t) (iblk m c 1 t)) (iblk m c 2 t) (iblk m c 3 t) y
    = G72K (V m c main_v38) (V m c main_v60) (V m c main_v45) (V m c main_v61) (V m c main_arg5) (((cfg0.win 5).blk t).view.emb y)
  have hy0 : (y 0).val < 256 := (y 0).isLt
  have hy1 : (y 1).val < 72 := (y 1).isLt
  refine (block_apply (iblk m c 0 t) (iblk m c 1 t) (iblk m c 2 t) (iblk m c 3 t) (iblk m c 4 t)
    (V m c main_v38) (V m c main_v60) (V m c main_v45) (V m c main_v61) (V m c main_arg5) t.val ht ?_ ?_ ?_ ?_ ?_ y).trans
    (congrArg (G72K (V m c main_v38) (V m c main_v60) (V m c main_v45) (V m c main_v61) (V m c main_arg5)) ?_)
  · intro r k
    have hr := r.isLt
    show V m c main_v38 (((cfg0.win 0).blk t).view.emb (ix2 r k)) = _
    refine congrArg (V m c main_v38) (funext fun a => Fin.ext ?_)
    match a with
    | ⟨0, _⟩ => show win0_0.index t (0 : Fin 2) * 256 + 1 * r.val = 256 * t.val + r.val; omega
    | ⟨1, _⟩ => show win0_0.index t (1 : Fin 2) * 160 + 1 * k.val = k.val; omega
  · intro r f s
    have hr := r.isLt
    show V m c main_v60 (((cfg0.win 1).blk t).view.emb (ix3 r f s)) = _
    refine congrArg (V m c main_v60) (funext fun a => Fin.ext ?_)
    match a with
    | ⟨0, _⟩ => show win0_1.index t (0 : Fin 3) * 256 + 1 * r.val = 256 * t.val + r.val; omega
    | ⟨1, _⟩ => show win0_1.index t (1 : Fin 3) * 16 + 1 * f.val = f.val; omega
    | ⟨2, _⟩ => show win0_1.index t (2 : Fin 3) * 200 + 1 * s.val = s.val; omega
  · intro r k
    have hr := r.isLt
    show V m c main_v45 (((cfg0.win 2).blk t).view.emb (ix2 r k)) = _
    refine congrArg (V m c main_v45) (funext fun a => Fin.ext ?_)
    match a with
    | ⟨0, _⟩ => show win0_2.index t (0 : Fin 2) * 256 + 1 * r.val = 256 * t.val + r.val; omega
    | ⟨1, _⟩ => show win0_2.index t (1 : Fin 2) * 160 + 1 * k.val = k.val; omega
  · intro r f s
    have hr := r.isLt
    show V m c main_v61 (((cfg0.win 3).blk t).view.emb (ix3 r f s)) = _
    refine congrArg (V m c main_v61) (funext fun a => Fin.ext ?_)
    match a with
    | ⟨0, _⟩ => show win0_3.index t (0 : Fin 3) * 256 + 1 * r.val = 256 * t.val + r.val; omega
    | ⟨1, _⟩ => show win0_3.index t (1 : Fin 3) * 16 + 1 * f.val = f.val; omega
    | ⟨2, _⟩ => show win0_3.index t (2 : Fin 3) * 200 + 1 * s.val = s.val; omega
  · intro r s
    have hr := r.isLt
    show V m c main_arg5 (((cfg0.win 4).blk t).view.emb (ix2 r s)) = _
    refine congrArg (V m c main_arg5) (funext fun a => Fin.ext ?_)
    match a with
    | ⟨0, _⟩ => show win0_4.index t (0 : Fin 2) * 256 + 1 * r.val = 256 * t.val + r.val; omega
    | ⟨1, _⟩ => show win0_4.index t (1 : Fin 2) * 200 + 1 * s.val = s.val; omega
  · funext a
    apply Fin.ext
    match a with
    | ⟨0, _⟩ => show 256 * t.val + (y 0).val = win0_5.index t (0 : Fin 2) * 256 + 1 * (y 0).val; omega
    | ⟨1, _⟩ => show (y 1).val = win0_5.index t (1 : Fin 2) * 72 + 1 * (y 1).val; omega

/-- An index of the output array is in point t's block iff each coordinate is in the block's range on its axis. -/
theorem mem_blk5 (t : Fin cfg0.N) (i : S4096x72.Idx) :
    i ∈ ((cfg0.win 5).blk t).view.set ↔ ∀ a : Fin 2, win0_5.index t a * S256x72.size a ≤ (i a).val
      ∧ (i a).val < win0_5.index t a * S256x72.size a + S256x72.size a := by
  show i ∈ ((View.whole main_v62).slice (win0_5.rect t)).set ↔ _
  rw [View.set_slice_whole, Rect.mem_set_unit]
  exact Iff.rfl

/-- Row b lies in the block of point b / 256: the sixteen blocks tile the array. -/
theorem cover5 (i : S4096x72.Idx) : ∃ t : Fin cfg0.N, (cfg0.win 5).flush t = true ∧ i ∈ ((cfg0.win 5).blk t).view.set := by
  have hi0 : (i 0).val < 4096 := (i 0).isLt
  have hi1 : (i 1).val < 72 := (i 1).isLt
  have hN : (i 0).val / 256 < grid0.N := by rw [N_0]; omega
  refine ⟨⟨(i 0).val / 256, hN⟩, flush0_5 _, ?_⟩
  rw [mem_blk5]
  obtain ⟨e00, e01, e10, e11, e12, e20, e21, e30, e31, e32, e40, e41, e50, e51⟩ := idx_facts ⟨(i 0).val / 256, hN⟩
  have e50' : win0_5.index ⟨(i 0).val / 256, hN⟩ (0 : Fin 2) = (i 0).val / 256 := e50
  intro a
  match a with
  | ⟨0, _⟩ =>
    show win0_5.index ⟨(i 0).val / 256, hN⟩ (0 : Fin 2) * 256 ≤ (i 0).val
      ∧ (i 0).val < win0_5.index ⟨(i 0).val / 256, hN⟩ (0 : Fin 2) * 256 + 256
    omega
  | ⟨1, _⟩ =>
    show win0_5.index ⟨(i 0).val / 256, hN⟩ (1 : Fin 2) * 72 ≤ (i 1).val
      ∧ (i 1).val < win0_5.index ⟨(i 0).val / 256, hN⟩ (1 : Fin 2) * 72 + 72
    omega

/-- The output array after the run. -/
theorem final5 (c : Dev nD) : (dats m 0 c).arrAt 5 cfg0.N
    = G72K (V m c main_v38) (V m c main_v60) (V m c main_v45) (V m c main_v61) (V m c main_arg5) :=
  (dats m 0 c).arrAt_eq_of_cover 5 _ (fun t _ => flushed5_eq m c t) cover5

end Cert.KernelIdeal.KerValue

end
-- ==== Proof.KerRun.lean ====
/-
  The kernel's run with its result named.

  Before the region the host side gathers the weight rows and the histories (the histories then re-laid as sample,
  feature, step), gathers and joins the two single-row embeddings, and gathers, sums over the steps and joins the two
  history embeddings; after the region one concatenation lays those two [4096,128] arrays and the region's [4096,72]
  output side by side. Each array the region finds is read here as its function of the arguments, and the run's post
  is restated with the result at that composed function.
-/
import proofs.«158401_j37486474559594_2_alg».proof.Proof.KerValue

set_option maxRecDepth 16384

noncomputable section

namespace Cert.KernelIdeal.KerValue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem Cert.Coaction
open Idealize.ShloMosaic.Pipeline (Dat)

variable (m : (ℓ : Loc nD τ sig) → Buf (Elt Ideal) ℓ) (ρ : Dev nD → PrngReg)

/-! ## The arrays the region finds, as functions of the arguments -/

set_option maxHeartbeats 4000000 in
/-- The item weight rows: the item table gathered at the wrapped item indices. -/
theorem V_v38 (c : Dev nD) : V m c main_v38
    = adItem (m ((c : Thread nD τ).loc main_arg9)) (m ((c : Thread nD τ).loc main_arg1)) := by
  show StableHlo.after hostOps0 (fun b => m (c, b)) (Proc.devRef .tc main_v38) = _
  host_results
  rfl

set_option maxHeartbeats 4000000 in
/-- The category weight rows. -/
theorem V_v45 (c : Dev nD) : V m c main_v45
    = adCate (m ((c : Thread nD τ).loc main_arg10)) (m ((c : Thread nD τ).loc main_arg2)) := by
  show StableHlo.after hostOps0 (fun b => m (c, b)) (Proc.devRef .tc main_v45) = _
  host_results
  rfl

set_option maxHeartbeats 4000000 in
/-- The item histories, laid out (sample, feature, step). -/
theorem V_v60 (c : Dev nD) : V m c main_v60
    = hisT (hisItem (m ((c : Thread nD τ).loc main_arg11)) (m ((c : Thread nD τ).loc main_arg3))) := by
  show StableHlo.after hostOps0 (fun b => m (c, b)) (Proc.devRef .tc main_v60) = _
  host_results
  rfl

set_option maxHeartbeats 4000000 in
/-- The category histories, laid out (sample, feature, step). -/
theorem V_v61 (c : Dev nD) : V m c main_v61
    = hisT (hisCate (m ((c : Thread nD τ).loc main_arg12)) (m ((c : Thread nD τ).loc main_arg4))) := by
  show StableHlo.after hostOps0 (fun b => m (c, b)) (Proc.devRef .tc main_v61) = _
  host_results
  rfl

set_option maxHeartbeats 4000000 in
/-- The two single-row embeddings side by side. -/
theorem V_v14 (c : Dev nD) : V m c main_v14
    = cat64 (midB (m ((c : Thread nD τ).loc main_arg7)) (m ((c : Thread nD τ).loc main_arg1)))
        (cateB (m ((c : Thread nD τ).loc main_arg8)) (m ((c : Thread nD τ).loc main_arg2))) := by
  show StableHlo.after hostOps0 (fun b => m (c, b)) (Proc.devRef .tc main_v14) = _
  host_results
  rfl

set_option maxHeartbeats 4000000 in
/-- The two history embeddings, each summed over the steps, side by side. -/
theorem V_v31 (c : Dev nD) : V m c main_v31
    = cat64 (sumSteps (midHis (m ((c : Thread nD τ).loc main_arg7)) (m ((c : Thread nD τ).loc main_arg3))))
        (sumSteps (cateHis (m ((c : Thread nD τ).loc main_arg8)) (m ((c : Thread nD τ).loc main_arg4)))) := by
  show StableHlo.after hostOps0 (fun b => m (c, b)) (Proc.devRef .tc main_v31) = _
  host_results
  rfl

/-! ## The result -/

/-- The result as a function of the eleven argument arrays it depends on. -/
def resultKA (a1 a2 : (⟨S4096, .i32⟩ : BufTy).Contents (Elt Ideal)) (a3 a4 : (⟨S4096x200, .i32⟩ : BufTy).Contents (Elt Ideal))
    (a5 : (⟨S4096x200, .f32⟩ : BufTy).Contents (Elt Ideal)) (a7 : (⟨S100000x64, .f32⟩ : BufTy).Contents (Elt Ideal))
    (a8 : (⟨S1000x64, .f32⟩ : BufTy).Contents (Elt Ideal)) (a9 : (⟨S100000x160, .f32⟩ : BufTy).Contents (Elt Ideal))
    (a10 : (⟨S1000x160, .f32⟩ : BufTy).Contents (Elt Ideal)) (a11 : (⟨S100000x16, .f32⟩ : BufTy).Contents (Elt Ideal))
    (a12 : (⟨S1000x16, .f32⟩ : BufTy).Contents (Elt Ideal)) : (⟨S4096x328, .f32⟩ : BufTy).Contents (Elt Ideal) :=
  cat3 (cat64 (midB a7 a1) (cateB a8 a2)) (cat64 (sumSteps (midHis a7 a3)) (sumSteps (cateHis a8 a4)))
    (G72K (adItem a9 a1) (hisT (hisItem a11 a3)) (adCate a10 a2) (hisT (hisCate a12 a4)) a5)

/-- The kernel's result on core c. -/
def resultK (c : Dev nD) : (⟨S4096x328, .f32⟩ : BufTy).Contents (Elt Ideal) :=
  resultKA (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- The closing concatenation reads the two host arrays as the region found them and the region's output as the run left
    it. -/
theorem result63 (c : Dev nD) :
    Pipeline.afterTail₀ cfgs (dats m) 0 (V0 m) [hostOps1] c main_v63 = resultK m c := by
  unfold Pipeline.afterTail₀
  show StableHlo.after hostOps1 _ (Proc.devRef .tc main_v63) = _
  after_results
  show cat3
      (Pipeline.withArrays spec0 c (V0 m c) (fun w => (dats m 0 c).arrAt w cfg0.N) (Proc.devRef .tc main_v14))
      (Pipeline.withArrays spec0 c (V0 m c) (fun w => (dats m 0 c).arrAt w cfg0.N) (Proc.devRef .tc main_v31))
      (Pipeline.withArrays spec0 c (V0 m c) (fun w => (dats m 0 c).arrAt w cfg0.N) (Proc.devRef .tc main_v62)) = _
  rw [Pipeline.withArrays_of_ne _ c (V0 m c) _ main_v14 (by exact (by decide : ∀ w, Pipeline.arrRef spec0 w ≠ main_v14)),
    Pipeline.withArrays_of_ne _ c (V0 m c) _ main_v31 (by exact (by decide : ∀ w, Pipeline.arrRef spec0 w ≠ main_v31)),
    show (Pipeline.withArrays spec0 c (V0 m c) (fun w => (dats m 0 c).arrAt w cfg0.N) (Proc.devRef .tc main_v62))
        = (dats m 0 c).arrAt 5 cfg0.N from Pipeline.withArrays_arr spec0 launch0.win.arr_inj c _ _ 5,
    final5]
  show cat3 (V m c main_v14) (V m c main_v31) _ = _
  rw [V_v14, V_v31, V_v38, V_v45, V_v60, V_v61, V_main_arg5]
  rfl

/-- Every weakly fair execution of the idealized kernel terminates without a fault, with the result at `resultK` of the
    arguments and the thirteen arguments as launched. -/
theorem run : θ_run defs (onTc (τ := τ) (main (F := Ideal))) ⟨m, fun _ => 0, ρ⟩ (fun r => ∀ c : Dev nD,
      r.2.mem ((c.tc : Thread nD τ).loc main_v63) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      ((h c).2 main_v63 (Pipeline.mem_restRefs_of main_v63 (by decide) (by decide))).trans (result63 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩) (run_main m ρ)

end Cert.KernelIdeal.KerValue

end
-- ==== Proof.Finite.lean ====
/-
  What the finiteness precondition gives the value argument: real entries.

  The precondition is the conjunction, over the eight float arguments, of "every entry has absolute value below
  plus infinity". An extended real whose absolute value max x (-x) is below plus infinity is neither infinity, so it
  is a real number. Read at the mask (argument 5) and the two co-action weight tables (arguments 9 and 10), that is:
  every entry of these three arrays is real.

  Taking rows of a table by an index array keeps this: every entry of the gathered array is, by definition of the
  gather, the table read at some index (the row number is clamped into range, so there is always such an index).
-/
import proofs.«158401_j37486474559594_2_alg».proof.Defs
import proofs.«158401_j37486474559594_2_alg».proof.KernelIdeal
import proofs.«158401_j37486474559594_2_alg».proof.Pre_finite_inputs
import proofs.«158401_j37486474559594_2_alg».proof.Proof.LibRealEntries
import Idealize.ShloMosaic.Lib.ReduceAll
import Idealize.ShloMosaic.Lib.ValueIdx
import Idealize.ShloMosaic.PureOps.Ideal.Laws

noncomputable section

namespace Cert.Finite

open Idealize.ShloMosaic Idealize.SL.Sem Cert.Algebra

/-- A shape of rank zero has one index. -/
theorem subsingleton_idx0 : Subsingleton (⟨0, ![]⟩ : Shape).Idx := ⟨fun a b => funext fun d => d.elim0⟩

/-- The pattern 0x7F800000 denotes plus infinity. -/
theorem ofBits_inf : Ideal.ofBits .f32 0x7F800000#32 = (⊤ : EReal) := by simp [Ideal.ofBits, Ideal.ieee]

/-- An extended real whose absolute value compares below plus infinity is a real number. -/
theorem isReal_of_abs_lt_inf (x : Ideal .f32)
    (h : FloatOps.cmpf (F := Ideal) .olt (FloatOps.hostAbsf x) (FloatOps.ofBits (F := Ideal) .f32 0x7F800000#32) = 1#1) :
    IsReal x := by
  change Ideal.cmp .olt (max (x : EReal) (-(x : EReal))) (Ideal.ofBits .f32 0x7F800000#32) = 1#1 at h
  rw [ofBits_inf] at h
  unfold Ideal.cmp at h
  have hlt : max (x : EReal) (-(x : EReal)) < ⊤ := by
    by_contra hn
    simp [hn] at h
  rw [max_lt_iff] at hlt
  induction x using EReal.rec with
  | bot => exact absurd hlt.2 (by simp)
  | coe r => exact ⟨r, rfl⟩
  | top => exact absurd hlt.1 (by simp)

/-- One conjunct of the precondition read back: if the conjunction over all entries of "|x| is below plus infinity"
    is one, every entry of `x` is real. -/
theorem all_real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : IsReal (x i) := by
  haveI := subsingleton_idx0
  exact isReal_of_abs_lt_inf (x i) (Host.reduce_andi_all _ _ hr hu j e i)

/-- THE PRECONDITION READ BACK: the mask (argument 5) and the two co-action weight tables (arguments 9 and 10) have
    real entries. -/
theorem real_of_pre [Cert.Pre_finite_inputs.Facts]
    (a0 a1 a2 : IVec Cert.Pre_finite_inputs.S4096 32) (a3 a4 : IVec Cert.Pre_finite_inputs.S4096x200 32)
    (a5 : FVec Ideal Cert.Pre_finite_inputs.S4096x200 .f32) (a6 a7 : FVec Ideal Cert.Pre_finite_inputs.S100000x64 .f32)
    (a8 : FVec Ideal Cert.Pre_finite_inputs.S1000x64 .f32) (a9 : FVec Ideal Cert.Pre_finite_inputs.S100000x160 .f32)
    (a10 : FVec Ideal Cert.Pre_finite_inputs.S1000x160 .f32) (a11 : FVec Ideal Cert.Pre_finite_inputs.S100000x16 .f32)
    (a12 : FVec Ideal Cert.Pre_finite_inputs.S1000x16 .f32)
    (h : Cert.Pre_finite_inputs.fn (F := Ideal) a0 a1 a2 a3 a4 a5 a6 a7 a8 a9 a10 a11 a12 = fun _ => 1#1) :
    (∀ i, IsReal (a5 i)) ∧ (∀ i, IsReal (a9 i)) ∧ (∀ i, IsReal (a10 i)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨h5, -⟩, -⟩, -⟩, h9⟩, h10⟩, -⟩, -⟩ := h0
  exact ⟨all_real_of_all a5 _ _ _ _ h5, all_real_of_all a9 _ _ _ _ h9, all_real_of_all a10 _ _ _ _ h10⟩

/-- The same, of a memory that satisfies the precondition: on every device the mask and the two co-action weight tables,
    as launched, have real entries. -/
theorem real_of_Pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i)) :=
  real_of_pre _ _ _ _ _ _ _ _ _ _ _ _ _ (h c)

/-! ## Rows taken by an index array -/

/-- Every entry of a gather is an entry of its operand. -/
theorem gather_real {s si t : Shape} {w : Nat} (d : GatherDims s si t) (x : s.Idx → EReal) (idx : IVec si w)
    (hx : ∀ k, IsReal (x k)) (j : t.Idx) : IsReal (Host.gather d x idx j) :=
  hx (d.operandIdx j idx)

/-- The rows of the item weight table (argument 9) taken by any index array have real entries when the table has. -/
theorem gather_item_real [Cert.KernelIdeal.Facts₀] (x : FVec Ideal Cert.KernelIdeal.S100000x160 .f32)
    (idx : IVec Cert.KernelIdeal.S4096x1 32) (hx : ∀ k, IsReal (x k)) (j : Cert.KernelIdeal.S4096x160.Idx) :
    IsReal (Host.gather Cert.KernelIdeal.gather_S100000x160_S4096x1_S4096x160_1_0_n_n_0_1_1160 x idx j) :=
  gather_real _ x idx hx j

/-- The rows of the category weight table (argument 10) taken by any index array have real entries when the table has. -/
theorem gather_cate_real [Cert.KernelIdeal.Facts₀] (x : FVec Ideal Cert.KernelIdeal.S1000x160 .f32)
    (idx : IVec Cert.KernelIdeal.S4096x1 32) (hx : ∀ k, IsReal (x k)) (j : Cert.KernelIdeal.S4096x160.Idx) :
    IsReal (Host.gather Cert.KernelIdeal.gather_S1000x160_S4096x1_S4096x160_1_0_n_n_0_1_1160 x idx j) :=
  gather_real _ x idx hx j

end Cert.Finite

end
-- ==== Proof.RefSums.lean ====
/-
  The sum over the steps of two histories laid side by side.

  Two [4096,200,64] arrays joined along the last axis and summed over the 200 steps give, in column j of row b, the
  initial value plus the sum over the steps of the first array's entries (b,t,j) when j < 64, and of the second's
  entries (b,t,j-64) otherwise. The two arrays summed separately and the sums joined along the columns give the same
  entries, so the two [4096,128] arrays are equal.
-/
import Idealize.ShloMosaic.Lib.ValueIdx
import Idealize.ShloMosaic.Lib.Pipeline.Value
import Idealize.ShloMosaic.Lib.IdealHost
import Idealize.ShloMosaic.PureOps.Ideal.Laws
import proofs.«158401_j37486474559594_2_alg».proof.Proof.LibAxisLayout
import proofs.«158401_j37486474559594_2_alg».proof.Proof.LibConcatCols

noncomputable section

open scoped BigOperators

namespace Cert.ReferenceIdeal.RefValue

open Idealize.ShloMosaic Idealize.ShloMosaic.ValueIdx Idealize.ShloMosaic.AxisLayout Idealize.ShloMosaic.ConcatCols

/-- A sum over the steps of an [A,B,m] array from an initial value, at (a,e): the initial value plus the sum over k of
    the entries (a,k,e). -/
theorem hostSumMid_apply {A B m : ℕ} {φ : FTy} {u : Shape} (x : FVec Ideal (⟨3, ![A, B, m]⟩ : Shape) φ) (v : u.Idx → Ideal φ)
    (h' : (⟨3, ![A, B, m]⟩ : Shape).ReducesTo [1] (⟨2, ![A, m]⟩ : Shape))
    (h : (⟨3, ![A, B, m]⟩ : Shape).Reduces [1] (⟨2, ![A, m]⟩ : Shape)) (hu : 0 < u.numel) (a : Fin A) (e : Fin m) :
    Host.reduceAdd x v h' hu (ix2 a e) = v (Shape.Idx.first hu) + ∑ k : Fin B, x (ix3 a k e) := by
  rw [ValueIdx.hostReduceAdd_apply, Ideal.hostReduceAdd_single h' h]
  exact congrArg (_ + ·) (Finset.sum_congr rfl fun k _ => congrArg x (lift_mid h a e k))

/-- The sum over the steps of two histories laid side by side along the last axis is the two sums laid side by side
    along the columns: at a column below 64 both are the initial value plus the sum of the first history's entries, at
    a column from 64 on of the second's. -/
theorem histSum_concat (x y : FVec Ideal (⟨3, ![4096, 200, 64]⟩ : Shape) .f32) {u : Shape} (v : u.Idx → Ideal .f32)
    (hc2 : Shape.Concatenates [(⟨3, ![4096, 200, 64]⟩ : Shape), (⟨3, ![4096, 200, 64]⟩ : Shape)] (⟨3, ![4096, 200, 128]⟩ : Shape) 2)
    (hr : (⟨3, ![4096, 200, 128]⟩ : Shape).ReducesTo [1] (⟨2, ![4096, 128]⟩ : Shape))
    (hr64 : (⟨3, ![4096, 200, 64]⟩ : Shape).ReducesTo [1] (⟨2, ![4096, 64]⟩ : Shape))
    (hc1 : Shape.Concatenates [(⟨2, ![4096, 64]⟩ : Shape), (⟨2, ![4096, 64]⟩ : Shape)] (⟨2, ![4096, 128]⟩ : Shape) 1)
    (hu : 0 < u.numel) :
    Host.reduceAdd (concatenate (⟨3, ![4096, 200, 128]⟩ : Shape) 2
        [⟨(⟨3, ![4096, 200, 64]⟩ : Shape), x⟩, ⟨(⟨3, ![4096, 200, 64]⟩ : Shape), y⟩] hc2) v hr hu
      = concatenate (⟨2, ![4096, 128]⟩ : Shape) 1
        [⟨(⟨2, ![4096, 64]⟩ : Shape), Host.reduceAdd x v hr64 hu⟩, ⟨(⟨2, ![4096, 64]⟩ : Shape), Host.reduceAdd y v hr64 hu⟩] hc1 := by
  funext j
  obtain ⟨b, c, rfl⟩ : ∃ (b : Fin 4096) (c : Fin 128), j = ix2 b c := ⟨j 0, j 1, eq_ix2 j⟩
  rw [hostSumMid_apply _ v hr (by decide) hu b c]
  by_cases hc : c.val < 64
  · rw [concat_cols_piece [⟨_, Host.reduceAdd x v hr64 hu⟩, ⟨_, Host.reduceAdd y v hr64 hu⟩] hc1 0 (by show (0 : ℕ) < 2; decide) (Host.reduceAdd x v hr64 hu) rfl 0 rfl b (⟨c.val, hc⟩ : Fin 64) c (Nat.zero_add _),
      hostSumMid_apply x v hr64 (by decide) hu]
    exact congrArg (_ + ·) (Finset.sum_congr rfl fun t _ =>
      concat_last_piece [⟨_, x⟩, ⟨_, y⟩] hc2 0 (by show (0 : ℕ) < 2; decide) x rfl 0 rfl b t (⟨c.val, hc⟩ : Fin 64) c (Nat.zero_add _))
  · have hc' : c.val - 64 < 64 := by have := c.isLt; omega
    rw [concat_cols_piece [⟨_, Host.reduceAdd x v hr64 hu⟩, ⟨_, Host.reduceAdd y v hr64 hu⟩] hc1 1 (by show (1 : ℕ) < 2; decide) (Host.reduceAdd y v hr64 hu) rfl 64 rfl b (⟨c.val - 64, hc'⟩ : Fin 64) c
        (by show 64 + (c.val - 64) = c.val; omega),
      hostSumMid_apply y v hr64 (by decide) hu]
    exact congrArg (_ + ·) (Finset.sum_congr rfl fun t _ =>
      concat_last_piece [⟨_, x⟩, ⟨_, y⟩] hc2 1 (by show (1 : ℕ) < 2; decide) y rfl 64 rfl b t (⟨c.val - 64, hc'⟩ : Fin 64) c
        (by show 64 + (c.val - 64) = c.val; omega))

end Cert.ReferenceIdeal.RefValue

end
-- ==== Proof.RefJoin.lean ====
/-
  The reference's result by column groups. Its 328 columns are three arrays side by side: the item and category
  embeddings (128 columns), the history sums (128 columns) and the co-action columns (72 columns). The co-action columns
  are the item branch and the category branch side by side, and the two branches are one function applied to two sets
  of gathered arrays and the same mask; the history sums are the two gathered histories summed separately.
-/
import proofs.«158401_j37486474559594_2_alg».proof.Proof.RefCoaction
import proofs.«158401_j37486474559594_2_alg».proof.Proof.RefSums
import proofs.«158401_j37486474559594_2_alg».proof.Proof.LibConcatCols
import proofs.«158401_j37486474559594_2_alg».proof.Proof.RefStages

noncomputable section

namespace Cert.ReferenceIdeal.RefValue

open Cert.ReferenceIdeal Cert.ReferenceIdeal.Gen Idealize.ShloMosaic Idealize.ShloMosaic.ValueIdx Idealize.ShloMosaic.ConcatCols

/-! ## The two branches joined -/

/-- The reference's joined co-action columns are the item branch and the category branch side by side, each the branch
    function of its own gathered weight and history arrays and of the mask. -/
theorem v101_eq (x1 x2 : (⟨S4096, .i32⟩ : BufTy).Contents (Elt Ideal)) (x3 x4 : (⟨S4096x200, .i32⟩ : BufTy).Contents (Elt Ideal))
    (x5 : (⟨S4096x200, .f32⟩ : BufTy).Contents (Elt Ideal)) (x9 : (⟨S100000x160, .f32⟩ : BufTy).Contents (Elt Ideal))
    (x10 : (⟨S1000x160, .f32⟩ : BufTy).Contents (Elt Ideal)) (x11 : (⟨S100000x16, .f32⟩ : BufTy).Contents (Elt Ideal))
    (x12 : (⟨S1000x16, .f32⟩ : BufTy).Contents (Elt Ideal)) :
    Stage.coactCols x1 x2 x3 x4 x5 x9 x10 x11 x12
      = concatenate S4096x72 1
          [⟨S4096x36, refCA (Stage.wItem x1 x9) (Stage.hItem x3 x11) x5⟩,
           ⟨S4096x36, refCA (Stage.wCate x2 x10) (Stage.hCate x4 x12) x5⟩]
          concatenates_S4096x36_S4096x36_S4096x72_d1 := rfl

/-! ## The result's column groups -/

/-- Columns 0 … 127 of the result are the joined item and category embeddings. -/
theorem v102_left (x1 x2 : (⟨S4096, .i32⟩ : BufTy).Contents (Elt Ideal)) (x3 x4 : (⟨S4096x200, .i32⟩ : BufTy).Contents (Elt Ideal))
    (x5 : (⟨S4096x200, .f32⟩ : BufTy).Contents (Elt Ideal)) (x7 : (⟨S100000x64, .f32⟩ : BufTy).Contents (Elt Ideal))
    (x8 : (⟨S1000x64, .f32⟩ : BufTy).Contents (Elt Ideal)) (x9 : (⟨S100000x160, .f32⟩ : BufTy).Contents (Elt Ideal))
    (x10 : (⟨S1000x160, .f32⟩ : BufTy).Contents (Elt Ideal)) (x11 : (⟨S100000x16, .f32⟩ : BufTy).Contents (Elt Ideal))
    (x12 : (⟨S1000x16, .f32⟩ : BufTy).Contents (Elt Ideal))
    (b : Fin 4096) (c : Fin 328) (j : Fin 128) (h : c.val = j.val) :
    Stage.resultR x1 x2 x3 x4 x5 x7 x8 x9 x10 x11 x12 (ix2 b c)
      = Stage.embedCols x1 x2 x7 x8 (ix2 b j) := by
  unfold Stage.resultR
  exact concat_cols_piece _ _ 0 (by show (0 : ℕ) < 3; decide) _ rfl 0 rfl b j c (by omega)

/-- Columns 128 … 255 of the result are the history sums. -/
theorem v102_mid (x1 x2 : (⟨S4096, .i32⟩ : BufTy).Contents (Elt Ideal)) (x3 x4 : (⟨S4096x200, .i32⟩ : BufTy).Contents (Elt Ideal))
    (x5 : (⟨S4096x200, .f32⟩ : BufTy).Contents (Elt Ideal)) (x7 : (⟨S100000x64, .f32⟩ : BufTy).Contents (Elt Ideal))
    (x8 : (⟨S1000x64, .f32⟩ : BufTy).Contents (Elt Ideal)) (x9 : (⟨S100000x160, .f32⟩ : BufTy).Contents (Elt Ideal))
    (x10 : (⟨S1000x160, .f32⟩ : BufTy).Contents (Elt Ideal)) (x11 : (⟨S100000x16, .f32⟩ : BufTy).Contents (Elt Ideal))
    (x12 : (⟨S1000x16, .f32⟩ : BufTy).Contents (Elt Ideal))
    (b : Fin 4096) (c : Fin 328) (j : Fin 128) (h : c.val = 128 + j.val) :
    Stage.resultR x1 x2 x3 x4 x5 x7 x8 x9 x10 x11 x12 (ix2 b c)
      = Stage.histCols x3 x4 x7 x8 (ix2 b j) := by
  unfold Stage.resultR
  exact concat_cols_piece _ _ 1 (by show (1 : ℕ) < 3; decide) _ rfl 128 rfl b j c (by omega)

/-- Columns 256 … 327 of the result are the joined co-action columns. -/
theorem v102_right (x1 x2 : (⟨S4096, .i32⟩ : BufTy).Contents (Elt Ideal)) (x3 x4 : (⟨S4096x200, .i32⟩ : BufTy).Contents (Elt Ideal))
    (x5 : (⟨S4096x200, .f32⟩ : BufTy).Contents (Elt Ideal)) (x7 : (⟨S100000x64, .f32⟩ : BufTy).Contents (Elt Ideal))
    (x8 : (⟨S1000x64, .f32⟩ : BufTy).Contents (Elt Ideal)) (x9 : (⟨S100000x160, .f32⟩ : BufTy).Contents (Elt Ideal))
    (x10 : (⟨S1000x160, .f32⟩ : BufTy).Contents (Elt Ideal)) (x11 : (⟨S100000x16, .f32⟩ : BufTy).Contents (Elt Ideal))
    (x12 : (⟨S1000x16, .f32⟩ : BufTy).Contents (Elt Ideal))
    (b : Fin 4096) (c : Fin 328) (j : Fin 72) (h : c.val = 256 + j.val) :
    Stage.resultR x1 x2 x3 x4 x5 x7 x8 x9 x10 x11 x12 (ix2 b c)
      = Stage.coactCols x1 x2 x3 x4 x5 x9 x10 x11 x12 (ix2 b j) := by
  unfold Stage.resultR
  exact concat_cols_piece _ _ 2 (by show (2 : ℕ) < 3; decide) _ rfl 256 rfl b j c (by omega)

/-- Columns 0 … 35 of the joined co-action columns: the co-action row of the item weights and history. -/
theorem v101_item (x1 x2 : (⟨S4096, .i32⟩ : BufTy).Contents (Elt Ideal)) (x3 x4 : (⟨S4096x200, .i32⟩ : BufTy).Contents (Elt Ideal))
    (x5 : (⟨S4096x200, .f32⟩ : BufTy).Contents (Elt Ideal)) (x9 : (⟨S100000x160, .f32⟩ : BufTy).Contents (Elt Ideal))
    (x10 : (⟨S1000x160, .f32⟩ : BufTy).Contents (Elt Ideal)) (x11 : (⟨S100000x16, .f32⟩ : BufTy).Contents (Elt Ideal))
    (x12 : (⟨S1000x16, .f32⟩ : BufTy).Contents (Elt Ideal)) (b : Fin 4096) (c : Fin 72) (q : Fin 36) (h : c.val = q.val) :
    Stage.coactCols x1 x2 x3 x4 x5 x9 x10 x11 x12 (ix2 b c)
      = Cert.Coaction.caR (Cert.Coaction.rowA (Stage.wItem x1 x9) b)
          (Cert.Coaction.rowH (Stage.hItem x3 x11) b) (Cert.Coaction.rowM x5 b) q := by
  rw [v101_eq, ← refCA_apply]
  exact concat_cols_piece _ _ 0 (by show (0 : ℕ) < 2; decide) _ rfl 0 rfl b q c (by omega)

/-- Columns 36 … 71 of the joined co-action columns: the co-action row of the category weights and history. -/
theorem v101_cate (x1 x2 : (⟨S4096, .i32⟩ : BufTy).Contents (Elt Ideal)) (x3 x4 : (⟨S4096x200, .i32⟩ : BufTy).Contents (Elt Ideal))
    (x5 : (⟨S4096x200, .f32⟩ : BufTy).Contents (Elt Ideal)) (x9 : (⟨S100000x160, .f32⟩ : BufTy).Contents (Elt Ideal))
    (x10 : (⟨S1000x160, .f32⟩ : BufTy).Contents (Elt Ideal)) (x11 : (⟨S100000x16, .f32⟩ : BufTy).Contents (Elt Ideal))
    (x12 : (⟨S1000x16, .f32⟩ : BufTy).Contents (Elt Ideal)) (b : Fin 4096) (c : Fin 72) (q : Fin 36) (h : c.val = 36 + q.val) :
    Stage.coactCols x1 x2 x3 x4 x5 x9 x10 x11 x12 (ix2 b c)
      = Cert.Coaction.caR (Cert.Coaction.rowA (Stage.wCate x2 x10) b)
          (Cert.Coaction.rowH (Stage.hCate x4 x12) b) (Cert.Coaction.rowM x5 b) q := by
  rw [v101_eq, ← refCA_apply]
  exact concat_cols_piece _ _ 1 (by show (1 : ℕ) < 2; decide) _ rfl 36 rfl b q c (by omega)

/-- The history sums are the two gathered histories summed separately and joined along the columns. -/
theorem v30_eq (x3 x4 : (⟨S4096x200, .i32⟩ : BufTy).Contents (Elt Ideal)) (x7 : (⟨S100000x64, .f32⟩ : BufTy).Contents (Elt Ideal))
    (x8 : (⟨S1000x64, .f32⟩ : BufTy).Contents (Elt Ideal)) (hr64 : S4096x200x64.ReducesTo [1] S4096x64) :
    Stage.histCols x3 x4 x7 x8
      = concatenate S4096x128 1
          [⟨S4096x64, Host.reduceAdd (Stage.hisEmbItem x3 x7) (constant (F := Ideal) S_ .f32 0x00000000#32) hr64 h_S_⟩,
           ⟨S4096x64, Host.reduceAdd (Stage.hisEmbCate x4 x8) (constant (F := Ideal) S_ .f32 0x00000000#32) hr64 h_S_⟩]
          concatenates_S4096x64_S4096x64_S4096x128_d1 :=
  histSum_concat _ _ _ _ _ hr64 _ _

end Cert.ReferenceIdeal.RefValue

end
-- ==== Proof.Bridge.lean ====
/-
  The two programs compute one function of the arguments.

  Both results are three arrays side by side. The first (the two single-row embeddings) is spelled the same way by both
  programs. The second is, for the kernel, the two history embeddings each summed over the steps and then joined, and for
  the reference the two joined and then summed: entry by entry the same sum. The third is the co-action array: the
  kernel sums the masked hidden units over the steps and sends the sums through the second layer, the reference sends
  every step through the second layer and sums the masked outputs; the kernel reads its histories re-laid as (sample,
  feature, step). For real weight rows and a real mask the two agree (`Cert.Coaction.caK_eq_caR`); the weight rows are
  rows of finite tables and the mask is finite, by the precondition.
-/
import proofs.«158401_j37486474559594_2_alg».proof.Proof.KerRun
import proofs.«158401_j37486474559594_2_alg».proof.Proof.RefCoaction
import proofs.«158401_j37486474559594_2_alg».proof.Proof.RefSums
import proofs.«158401_j37486474559594_2_alg».proof.Proof.RefJoin
import proofs.«158401_j37486474559594_2_alg».proof.Proof.Finite

set_option maxRecDepth 16384

noncomputable section

namespace Cert.Bridge

open Idealize.ShloMosaic Idealize.ShloMosaic.ValueIdx Idealize.ShloMosaic.ConcatCols Cert.Coaction Cert.Algebra

/-- The re-laid history read back: entry (sample, feature, step) of the transpose is entry (sample, step, feature). -/
theorem hisT_apply (x : (⟨Cert.KernelIdeal.S4096x200x16, .f32⟩ : BufTy).Contents (Elt Ideal)) (b : Fin 4096) (f : Fin 16) (t : Fin 200) :
    Cert.KernelIdeal.KerValue.hisT x (ix3 b f t) = x (ix3 b t f) := by
  unfold Cert.KernelIdeal.KerValue.hisT
  exact transpose_apply [0, 2, 1] x _ (ix3 b f t) (ix3 b t f) (fun a => by
    match a with
    | ⟨0, _⟩ => rfl
    | ⟨1, _⟩ => rfl
    | ⟨2, _⟩ => rfl)

/-- The co-action array in the kernel's spelling is the reference's two branches side by side, for real weight rows
    and a real mask. -/
theorem coaction_eq (adI : Cert.KernelIdeal.S4096x160.Idx → EReal) (hI : Cert.KernelIdeal.S4096x200x16.Idx → EReal)
    (adC : Cert.KernelIdeal.S4096x160.Idx → EReal) (hC : Cert.KernelIdeal.S4096x200x16.Idx → EReal) (mask : Cert.KernelIdeal.S4096x200.Idx → EReal)
    (hadI : ∀ i, IsReal (adI i)) (hadC : ∀ i, IsReal (adC i)) (hmask : ∀ i, IsReal (mask i)) :
    Cert.KernelIdeal.KerValue.G72K adI (Cert.KernelIdeal.KerValue.hisT hI) adC (Cert.KernelIdeal.KerValue.hisT hC) mask
      = concatenate Cert.ReferenceIdeal.S4096x72 1 [⟨Cert.ReferenceIdeal.S4096x36, Cert.ReferenceIdeal.RefValue.refCA adI hI mask⟩, ⟨Cert.ReferenceIdeal.S4096x36, Cert.ReferenceIdeal.RefValue.refCA adC hC mask⟩]
          Cert.ReferenceIdeal.Facts₀.concatenates_S4096x36_S4096x36_S4096x72_d1 := by
  funext i
  obtain ⟨b, q, rfl⟩ : ∃ (b : Fin 4096) (q : Fin 72), i = ix2 b q := ⟨i 0, i 1, eq_ix2 i⟩
  have hq72 := q.isLt
  unfold Cert.KernelIdeal.KerValue.G72K
  by_cases hq : q.val < 36
  · rw [dif_pos (show ((ix2 b q : Cert.KernelIdeal.S4096x72.Idx) 1).val < 36 from hq)]
    rw [concat_cols_piece ([⟨Cert.ReferenceIdeal.S4096x36, Cert.ReferenceIdeal.RefValue.refCA adI hI mask⟩, ⟨Cert.ReferenceIdeal.S4096x36, Cert.ReferenceIdeal.RefValue.refCA adC hC mask⟩] : List ((s : Shape) × (s.Idx → EReal))) Cert.ReferenceIdeal.Facts₀.concatenates_S4096x36_S4096x36_S4096x72_d1 0 (by simp) (Cert.ReferenceIdeal.RefValue.refCA adI hI mask) rfl 0 rfl b
      (⟨q.val, hq⟩ : Fin 36) q (by simp), Cert.ReferenceIdeal.RefValue.refCA_apply,
      ← caK_eq_caR (rowA adI b) (rowH hI b) (rowM mask b) (fun k => hadI _) (fun t => hmask _)]
    have eH : (fun (t : Fin 200) (f : Fin 16) => Cert.KernelIdeal.KerValue.hisT hI (ix3 b f t)) = rowH hI b :=
      funext fun t => funext fun f => hisT_apply hI b f t
    show caK (fun k => adI (ix2 b k)) (fun t f => Cert.KernelIdeal.KerValue.hisT hI (ix3 b f t)) (fun t => mask (ix2 b t)) ⟨q.val, hq⟩ = _
    rw [eH]
    rfl
  · rw [dif_neg (show ¬ ((ix2 b q : Cert.KernelIdeal.S4096x72.Idx) 1).val < 36 from hq)]
    rw [concat_cols_piece ([⟨Cert.ReferenceIdeal.S4096x36, Cert.ReferenceIdeal.RefValue.refCA adI hI mask⟩, ⟨Cert.ReferenceIdeal.S4096x36, Cert.ReferenceIdeal.RefValue.refCA adC hC mask⟩] : List ((s : Shape) × (s.Idx → EReal))) Cert.ReferenceIdeal.Facts₀.concatenates_S4096x36_S4096x36_S4096x72_d1 1 (by simp) (Cert.ReferenceIdeal.RefValue.refCA adC hC mask) rfl 36 rfl b
      (⟨q.val - 36, by omega⟩ : Fin 36) q (by show 36 + (q.val - 36) = q.val; omega), Cert.ReferenceIdeal.RefValue.refCA_apply,
      ← caK_eq_caR (rowA adC b) (rowH hC b) (rowM mask b) (fun k => hadC _) (fun t => hmask _)]
    have eH : (fun (t : Fin 200) (f : Fin 16) => Cert.KernelIdeal.KerValue.hisT hC (ix3 b f t)) = rowH hC b :=
      funext fun t => funext fun f => hisT_apply hC b f t
    show caK (fun k => adC (ix2 b k)) (fun t f => Cert.KernelIdeal.KerValue.hisT hC (ix3 b f t)) (fun t => mask (ix2 b t))
      ⟨q.val - 36, by omega⟩ = _
    rw [eH]
    rfl

/-- Three arrays side by side, congruent in each. -/
theorem cat3_congr {x x' y y' : (⟨Cert.KernelIdeal.S4096x128, .f32⟩ : BufTy).Contents (Elt Ideal)}
    {z z' : (⟨Cert.KernelIdeal.S4096x72, .f32⟩ : BufTy).Contents (Elt Ideal)} (hx : x = x') (hy : y = y') (hz : z = z') :
    Cert.KernelIdeal.KerValue.cat3 x y z = Cert.KernelIdeal.KerValue.cat3 x' y' z' := by rw [hx, hy, hz]

/-- The single-row embeddings: one spelling in both programs. -/
theorem embed_eq (x1 x2 : (⟨Cert.KernelIdeal.S4096, .i32⟩ : BufTy).Contents (Elt Ideal)) (x7 : (⟨Cert.KernelIdeal.S100000x64, .f32⟩ : BufTy).Contents (Elt Ideal))
    (x8 : (⟨Cert.KernelIdeal.S1000x64, .f32⟩ : BufTy).Contents (Elt Ideal)) :
    Cert.ReferenceIdeal.Stage.embedCols x1 x2 x7 x8 = Cert.KernelIdeal.KerValue.cat64 (Cert.KernelIdeal.KerValue.midB x7 x1) (Cert.KernelIdeal.KerValue.cateB x8 x2) := rfl

/-- The history embeddings: joined then summed is summed then joined. -/
theorem histsum_eq (x3 x4 : (⟨Cert.KernelIdeal.S4096x200, .i32⟩ : BufTy).Contents (Elt Ideal)) (x7 : (⟨Cert.KernelIdeal.S100000x64, .f32⟩ : BufTy).Contents (Elt Ideal))
    (x8 : (⟨Cert.KernelIdeal.S1000x64, .f32⟩ : BufTy).Contents (Elt Ideal)) :
    Cert.ReferenceIdeal.Stage.histCols x3 x4 x7 x8
      = Cert.KernelIdeal.KerValue.cat64 (Cert.KernelIdeal.KerValue.sumSteps (Cert.KernelIdeal.KerValue.midHis x7 x3)) (Cert.KernelIdeal.KerValue.sumSteps (Cert.KernelIdeal.KerValue.cateHis x8 x4)) := by
  unfold Cert.ReferenceIdeal.Stage.histCols Cert.ReferenceIdeal.Stage.histJoined
  exact Cert.ReferenceIdeal.RefValue.histSum_concat (Cert.ReferenceIdeal.Stage.hisEmbItem x3 x7) (Cert.ReferenceIdeal.Stage.hisEmbCate x4 x8)
    (Cert.ReferenceIdeal.Stage.zeroS) Cert.ReferenceIdeal.Facts₀.concatenates_S4096x200x64_S4096x200x64_S4096x200x128_d2
    Cert.ReferenceIdeal.Facts₀.reducesTo_S4096x200x128_S4096x128_d1 Cert.KernelIdeal.Facts₀.reducesTo_S4096x200x64_S4096x64_d1
    Cert.KernelIdeal.Facts₀.concatenates_S4096x64_S4096x64_S4096x128_d1 Cert.ReferenceIdeal.Facts₀.h_S_

/-- The kernel's result is the reference's, as functions of the arguments, for a real mask and real weight tables. -/
theorem result_eq (x1 x2 : (⟨Cert.KernelIdeal.S4096, .i32⟩ : BufTy).Contents (Elt Ideal)) (x3 x4 : (⟨Cert.KernelIdeal.S4096x200, .i32⟩ : BufTy).Contents (Elt Ideal))
    (x5 : (⟨Cert.KernelIdeal.S4096x200, .f32⟩ : BufTy).Contents (Elt Ideal)) (x7 : (⟨Cert.KernelIdeal.S100000x64, .f32⟩ : BufTy).Contents (Elt Ideal))
    (x8 : (⟨Cert.KernelIdeal.S1000x64, .f32⟩ : BufTy).Contents (Elt Ideal)) (x9 : (⟨Cert.KernelIdeal.S100000x160, .f32⟩ : BufTy).Contents (Elt Ideal))
    (x10 : (⟨Cert.KernelIdeal.S1000x160, .f32⟩ : BufTy).Contents (Elt Ideal)) (x11 : (⟨Cert.KernelIdeal.S100000x16, .f32⟩ : BufTy).Contents (Elt Ideal))
    (x12 : (⟨Cert.KernelIdeal.S1000x16, .f32⟩ : BufTy).Contents (Elt Ideal))
    (h5 : ∀ i, IsReal (x5 i)) (h9 : ∀ i, IsReal (x9 i)) (h10 : ∀ i, IsReal (x10 i)) :
    Cert.KernelIdeal.KerValue.resultKA x1 x2 x3 x4 x5 x7 x8 x9 x10 x11 x12
      = Cert.ReferenceIdeal.Stage.resultR x1 x2 x3 x4 x5 x7 x8 x9 x10 x11 x12 := by
  have e3 : Cert.KernelIdeal.KerValue.G72K (Cert.KernelIdeal.KerValue.adItem x9 x1) (Cert.KernelIdeal.KerValue.hisT (Cert.KernelIdeal.KerValue.hisItem x11 x3)) (Cert.KernelIdeal.KerValue.adCate x10 x2)
      (Cert.KernelIdeal.KerValue.hisT (Cert.KernelIdeal.KerValue.hisCate x12 x4)) x5
      = Cert.ReferenceIdeal.Stage.coactCols x1 x2 x3 x4 x5 x9 x10 x11 x12 :=
    (coaction_eq _ _ _ _ _ (fun i => Cert.Finite.gather_real _ x9 _ h9 i) (fun i => Cert.Finite.gather_real _ x10 _ h10 i) h5).trans
      (Cert.ReferenceIdeal.RefValue.v101_eq x1 x2 x3 x4 x5 x9 x10 x11 x12).symm
  unfold Cert.KernelIdeal.KerValue.resultKA
  exact (cat3_congr (embed_eq x1 x2 x7 x8).symm (histsum_eq x3 x4 x7 x8).symm e3).trans rfl

end Cert.Bridge

end
-- ==== Proof.lean ====
/-
  A co-action feature kernel against its jnp reference, as equal functions on the extended reals.

  The programs take three index vectors, two [4096,200] index arrays, a [4096,200] mask and seven embedding tables, and
  return a [4096,328] array: 128 columns of single-row embeddings, 128 columns of history embeddings summed over the 200
  steps, and 72 columns of co-action features (item then category; for each, three orders of 8 hidden sums and 4 output
  sums). The kernel gathers on the host, computes the 72 co-action columns in one pallas_call over sixteen blocks of 256
  samples, and joins the three parts on the host.

  Frames. The kernel's body loads its five input blocks, loads and overwrites its output block, and stores one value
  covering it; the launch is the library's frame run for host lines, one region, host lines. The arguments are never
  written: argument 5 is an input window's array, the others are touched by no operation. The reference is a straight
  line of host operations, read back operation by operation.

  Values. Block t of the kernel's output is rows 256·t.. of one whole-array function of the gathered arrays, and the
  blocks tile the array. That function and the reference's differ in where the sum over the steps sits relative to the
  second (linear) layer, and in the layout of the history; they agree when the mask and the weight rows are real
  numbers, which the precondition gives (the mask is finite, and a gathered row is a row of a finite table). The summed
  history embeddings differ only in whether the two tables' parts are joined before or after the sum.
-/
import proofs.«158401_j37486474559594_2_alg».proof.Defs
import proofs.«158401_j37486474559594_2_alg».proof.Proof.Gen.Kernel
import proofs.«158401_j37486474559594_2_alg».proof.Proof.Gen.KernelIdeal
import proofs.«158401_j37486474559594_2_alg».proof.Proof.Gen.ReferenceIdeal
import proofs.«158401_j37486474559594_2_alg».proof.Proof.Gen.Pre_finite_inputs
import proofs.«158401_j37486474559594_2_alg».proof.Proof.RefRun
import proofs.«158401_j37486474559594_2_alg».proof.Proof.KFrame
import proofs.«158401_j37486474559594_2_alg».proof.Proof.KIFrame
import proofs.«158401_j37486474559594_2_alg».proof.Proof.KerRun
import proofs.«158401_j37486474559594_2_alg».proof.Proof.Finite
import proofs.«158401_j37486474559594_2_alg».proof.Proof.Bridge
import Idealize.ShloMosaic.Adequacy
import Idealize.ShloMosaic.Init

noncomputable section

namespace Cert.Proof

open Idealize.ShloMosaic Idealize.SL.Sem

/-- The word-level kernel runs to the end without a fault and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's run, its result forgotten. -/
theorem frame_ri : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- From memories agreeing on the arguments, under the precondition, both idealized programs end with the same result:
    the kernel's run ends at `resultK` of its arguments, the reference's at its staged function of the same arguments, and
    the two are one function where the mask and the weight tables are real. -/
theorem algebraic : Cert.algebraic_KernelIdeal_ReferenceIdeal := by
  intro m ρ m' ρ' hpre hagree
  refine ⟨fun c => Cert.KernelIdeal.KerValue.resultK m c, Cert.KernelIdeal.KerValue.run m ρ, ?_⟩
  refine (θ_run Cert.ReferenceIdeal.defs _ _).mono (fun _ h c => ⟨(h c).1.trans ?_, (h c).2⟩)
    (Cert.ReferenceIdeal.RefRun.run m' ρ')
  obtain ⟨g0, g1, g2, g3, g4, g5, g6, g7, g8, g9, g10, g11, g12⟩ := hagree c
  obtain ⟨r5, r9, r10⟩ := Cert.Finite.real_of_Pre_KernelIdeal m hpre c
  rw [g1, g2, g3, g4, g5, g7, g8, g9, g10, g11, g12]
  exact (Cert.Bridge.result_eq _ _ _ _ _ _ _ _ _ _ _ r5 r9 r10).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
